-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512x7x7 : Shape := ⟨4, ![2048, 512, 7, 7]⟩
abbrev S2048x16 : Shape := ⟨2, ![2048, 16]⟩
abbrev S4096x4096 : Shape := ⟨2, ![4096, 4096]⟩
abbrev S4096 : Shape := ⟨1, ![4096]⟩
abbrev S_ : Shape := ⟨0, ![]⟩

class Facts : Prop where
  bcast_S_S2048x512x7x7 : S_.BroadcastsInDim S2048x512x7x7 (![] : Fin 0 → Fin S2048x512x7x7.rank)
  reducesTo_S2048x512x7x7_S_d0_1_2_3 : S2048x512x7x7.ReducesTo [0, 1, 2, 3] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2048x512x7x7 .f32) (main_arg1 : IVec S2048x16 32) (main_arg2 : FVec F S4096x4096 .f32) (main_arg3 : FVec F S4096 .f32) : IVec S_ 1 :=
  let main_v0 : FVec F S2048x512x7x7 .f32 := Host.absf main_arg0
  let main_cst : FVec F S_ .f32 := constant S_ .f32 0x7F800000#32
  let main_v1 : FVec F S2048x512x7x7 .f32 := broadcastInDim S2048x512x7x7 ![] bcast_S_S2048x512x7x7 main_cst
  let main_v2 : IVec S2048x512x7x7 1 := cmpf .olt main_v0 main_v1
  let main_c : IVec S_ 1 := constantI S_ 1 1#1
  let main_v3 : IVec S_ 1 := (fun x v => Host.reduce IntOp.andi x v reducesTo_S2048x512x7x7_S_d0_1_2_3 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2048x512x7x7 : Shape := ⟨4, ![2048, 512, 7, 7]⟩
abbrev S2048x16 : Shape := ⟨2, ![2048, 16]⟩
abbrev S4096x4096 : Shape := ⟨2, ![4096, 4096]⟩
abbrev S4096 : Shape := ⟨1, ![4096]⟩
abbrev S2048x8x2 : Shape := ⟨3, ![2048, 8, 2]⟩
abbrev S2048x8x1 : Shape := ⟨3, ![2048, 8, 1]⟩
abbrev S2048x8 : Shape := ⟨2, ![2048, 8]⟩
abbrev S_ : Shape := ⟨0, ![]⟩
abbrev S2048x512x49 : Shape := ⟨3, ![2048, 512, 49]⟩
abbrev S2048x8x512 : Shape := ⟨3, ![2048, 8, 512]⟩
abbrev S16x512x49 : Shape := ⟨3, ![16, 512, 49]⟩
abbrev S16x8 : Shape := ⟨2, ![16, 8]⟩
abbrev S16x8x512 : Shape := ⟨3, ![16, 8, 512]⟩
abbrev S1x1x49 : Shape := ⟨3, ![1, 1, 49]⟩
abbrev S16x8x1 : Shape := ⟨3, ![16, 8, 1]⟩
abbrev S16x8x49 : Shape := ⟨3, ![16, 8, 49]⟩
abbrev S2048x4096 : Shape := ⟨2, ![2048, 4096]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 62
  | .vmem => 17
  | .smem => 0
  | _ => 0

abbrev bufTy : (tb : Table) → Fin (tcTables nBuf tb) → BufTy
  | .hbm, ⟨0, _⟩ => ⟨S2048x512x7x7, .f32⟩
  | .hbm, ⟨1, _⟩ => ⟨S2048x16, .i32⟩
  | .hbm, ⟨2, _⟩ => ⟨S4096x4096, .f32⟩
  | .hbm, ⟨3, _⟩ => ⟨S4096, .f32⟩
  | .hbm, ⟨4, _⟩ => ⟨S2048x8x2, .i32⟩
  | .hbm, ⟨5, _⟩ => ⟨S2048x8x1, .i32⟩
  | .hbm, ⟨6, _⟩ => ⟨S2048x8, .i32⟩
  | .hbm, ⟨7, _⟩ => ⟨S2048x8x1, .i32⟩
  | .hbm, ⟨8, _⟩ => ⟨S2048x8, .i32⟩
  | .hbm, ⟨9, _⟩ => ⟨S2048x8, .f32⟩
  | .hbm, ⟨10, _⟩ => ⟨S_, .f32⟩
  | .hbm, ⟨11, _⟩ => ⟨S2048x8, .f32⟩
  | .hbm, ⟨12, _⟩ => ⟨S2048x8, .f32⟩
  | .hbm, ⟨13, _⟩ => ⟨S_, .f32⟩
  | .hbm, ⟨14, _⟩ => ⟨S2048x8, .f32⟩
  | .hbm, ⟨15, _⟩ => ⟨S2048x8, .f32⟩
  | .hbm, ⟨16, _⟩ => ⟨S2048x8, .i32⟩
  | .hbm, ⟨17, _⟩ => ⟨S_, .i32⟩
  | .hbm, ⟨18, _⟩ => ⟨S2048x8, .i32⟩
  | .hbm, ⟨19, _⟩ => ⟨S2048x8, .i32⟩
  | .hbm, ⟨20, _⟩ => ⟨S_, .i32⟩
  | .hbm, ⟨21, _⟩ => ⟨S2048x8, .i32⟩
  | .hbm, ⟨22, _⟩ => ⟨S2048x8, .i32⟩
  | .hbm, ⟨23, _⟩ => ⟨S2048x8, .f32⟩
  | .hbm, ⟨24, _⟩ => ⟨S_, .f32⟩
  | .hbm, ⟨25, _⟩ => ⟨S2048x8, .f32⟩
  | .hbm, ⟨26, _⟩ => ⟨S2048x8, .f32⟩
  | .hbm, ⟨27, _⟩ => ⟨S_, .f32⟩
  | .hbm, ⟨28, _⟩ => ⟨S2048x8, .f32⟩
  | .hbm, ⟨29, _⟩ => ⟨S2048x8, .f32⟩
  | .hbm, ⟨30, _⟩ => ⟨S2048x8, .i32⟩
  | .hbm, ⟨31, _⟩ => ⟨S_, .i32⟩
  | .hbm, ⟨32, _⟩ => ⟨S2048x8, .i32⟩
  | .hbm, ⟨33, _⟩ => ⟨S2048x8, .i32⟩
  | .hbm, ⟨34, _⟩ => ⟨S_, .i32⟩
  | .hbm, ⟨35, _⟩ => ⟨S2048x8, .i32⟩
  | .hbm, ⟨36, _⟩ => ⟨S2048x8, .i32⟩
  | .hbm, ⟨37, _⟩ => ⟨S_, .i32⟩
  | .hbm, ⟨38, _⟩ => ⟨S2048x8, .i32⟩
  | .hbm, ⟨39, _⟩ => ⟨S2048x8, .i32⟩
  | .hbm, ⟨40, _⟩ => ⟨S_, .i32⟩
  | .hbm, ⟨41, _⟩ => ⟨S2048x8, .i32⟩
  | .hbm, ⟨42, _⟩ => ⟨S2048x8, .i32⟩
  | .hbm, ⟨43, _⟩ => ⟨S_, .i32⟩
  | .hbm, ⟨44, _⟩ => ⟨S2048x8, .i32⟩
  | .hbm, ⟨45, _⟩ => ⟨S2048x8, .i1⟩
  | .hbm, ⟨46, _⟩ => ⟨S_, .i32⟩
  | .hbm, ⟨47, _⟩ => ⟨S2048x8, .i32⟩
  | .hbm, ⟨48, _⟩ => ⟨S2048x8, .i1⟩
  | .hbm, ⟨49, _⟩ => ⟨S2048x8, .i1⟩
  | .hbm, ⟨50, _⟩ => ⟨S_, .i32⟩
  | .hbm, ⟨51, _⟩ => ⟨S_, .i32⟩
  | .hbm, ⟨52, _⟩ => ⟨S2048x8, .i32⟩
  | .hbm, ⟨53, _⟩ => ⟨S2048x8, .i32⟩
  | .hbm, ⟨54, _⟩ => ⟨S_, .i32⟩
  | .hbm, ⟨55, _⟩ => ⟨S_, .i32⟩
  | .hbm, ⟨56, _⟩ => ⟨S2048x8, .i32⟩
  | .hbm, ⟨57, _⟩ => ⟨S2048x8, .i32⟩
  | .hbm, ⟨58, _⟩ => ⟨S2048x512x49, .f32⟩
  | .hbm, ⟨59, _⟩ => ⟨S2048x8x512, .bf16⟩
  | .hbm, ⟨60, _⟩ => ⟨S2048x4096, .bf16⟩
  | .hbm, ⟨61, _⟩ => ⟨S2048x4096, .f32⟩
  | .local _ .vmem, ⟨0, _⟩ => ⟨S16x512x49, .f32⟩
  | .local _ .vmem, ⟨1, _⟩ => ⟨S16x512x49, .f32⟩
  | .local _ .vmem, ⟨2, _⟩ => ⟨S16x8, .i32⟩
  | .local _ .vmem, ⟨3, _⟩ => ⟨S16x8, .i32⟩
  | .local _ .vmem, ⟨4, _⟩ => ⟨S16x8, .i32⟩
  | .local _ .vmem, ⟨5, _⟩ => ⟨S16x8, .i32⟩
  | .local _ .vmem, ⟨6, _⟩ => ⟨S16x8x512, .bf16⟩
  | .local _ .vmem, ⟨7, _⟩ => ⟨S16x8x512, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024, .f32⟩
  | .local _ .vmem, ⟨13, _⟩ => ⟨S1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S2048x512x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_c_8 : Ref sig .tc := ⟨.hbm, 43, rfl⟩
abbrev main_v29 : Ref sig .tc := ⟨.hbm, 44, rfl⟩
abbrev main_v30 : Ref sig .tc := ⟨.hbm, 45, rfl⟩
abbrev main_c_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_10 : Ref sig .tc := ⟨.hbm, 50, rfl⟩
abbrev main_call0_v0 : Ref sig .tc := ⟨.hbm, 51, rfl⟩
abbrev main_call0_v1 : Ref sig .tc := ⟨.hbm, 52, rfl⟩
abbrev main_v34 : Ref sig .tc := ⟨.hbm, 53, rfl⟩
abbrev main_c_11 : Ref sig .tc := ⟨.hbm, 54, rfl⟩
abbrev main_call1_v0 : Ref sig .tc := ⟨.hbm, 55, rfl⟩
abbrev main_call1_v1 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x8x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![2, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S2048x16_S2048x8x2 : S2048x16.ShapeCasts S2048x8x2
  slices_S2048x8x2_S2048x8x1_0_0_0 : S2048x8x2.Slices ![0, 0, 0] S2048x8x1
  shapeCasts_S2048x8x1_S2048x8 : S2048x8x1.ShapeCasts S2048x8
  slices_S2048x8x2_S2048x8x1_0_0_1 : S2048x8x2.Slices ![0, 0, 1] S2048x8x1
  bcast_S_S2048x8 : S_.BroadcastsInDim S2048x8 (![] : Fin 0 → Fin S2048x8.rank)
  shapeCasts_S2048x512x7x7_S2048x512x49 : S2048x512x7x7.ShapeCasts S2048x512x49
  inb_S16x512x49_S16x512x49_0_0_0 : ∀ a, (![0, 0, 0] : Fin 3 → Nat) a + S16x512x49.size a ≤ S16x512x49.size a
  h_S16x512x49 : 0 < S16x512x49.numel
  shapeCasts_S16x512x49_S16x512x49 : S16x512x49.ShapeCasts S16x512x49
  bitsLt_bf16_f32 : FTy.bits .bf16 < FTy.bits .f32
  rotates_S16x512x49_d2 : S16x512x49.Rotates 2 none
  inb_S16x8_S16x8_0_0 : ∀ a, (![0, 0] : Fin 2 → Nat) a + S16x8.size a ≤ S16x8.size a
  h_S16x8 : 0 < S16x8.numel
  shapeCasts_S16x8_S16x8 : S16x8.ShapeCasts S16x8
  iota_S1x1x49_d2_w32 : S1x1x49.Iotas .tc 32 [2]
  shapeCasts_S16x8_S16x8x1 : S16x8.ShapeCasts S16x8x1
  broadcasts_S16x8x1_S16x8x49 : S16x8x1.Broadcasts S16x8x49
  broadcasts_S1x1x49_S16x8x49 : S1x1x49.Broadcasts S16x8x49
  natLt_1_32 : 1 < 32
  inb_S16x8x512_S16x8x512_0_0_0 : ∀ a, (![0, 0, 0] : Fin 3 → Nat) a + S16x8x512.size a ≤ S16x8x512.size a
  h_S16x8x512 : 0 < S16x8x512.numel
  packedbf16_S16x8x512_S16x8x512_0_0_0 : (Rect.unit (s := S16x8x512) ![0, 0, 0] S16x8x512.size inb_S16x8x512_S16x8x512_0_0_0).PackedRows (EltTy.packing .bf16)
  shapeCasts_S2048x8x512_S2048x4096 : S2048x8x512.ShapeCasts S2048x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  dot_S16x8x49_S16x512x49_S16x8x512_2_2_1_1_0_0_wf : DotDims.WF S16x8x49 S16x512x49 S16x8x512 [2] [2] [1] [1] [0] [0]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x49.size a ≤ S2048x512x49.size a
  hwx0_0 : ∀ i : grid0.Coords, EltTy.bits .f32 = 32 ∨ (Rect.block (s := S2048x512x49) S16x512x49.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8.size a ≤ S2048x8.size a
  hwx0_1 : ∀ i : grid0.Coords, EltTy.bits .i32 = 32 ∨ (Rect.block (s := S2048x8) S16x8.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x8.size a ≤ S2048x8.size a
  hwx0_2 : ∀ i : grid0.Coords, EltTy.bits .i32 = 32 ∨ (Rect.block (s := S2048x8) S16x8.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x8x512.size a ≤ S2048x8x512.size a
  hwx0_3 : ∀ i : grid0.Coords, EltTy.bits .bf16 = 32 ∨ (Rect.block (s := S2048x8x512) S16x8x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S2048x4096.size a
  hwx1_0 : ∀ i : grid1.Coords, EltTy.bits .bf16 = 32 ∨ (Rect.block (s := S2048x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S2048x4096.size a
  hwx1_3 : ∀ i : grid1.Coords, EltTy.bits .f32 = 32 ∨ (Rect.block (s := S2048x4096) S1024x1024.size (cc1_transform_3 i) (hinb1_3 i)).WholeWords (EltTy.packing .f32)

variable [Facts₀]

def dot_S16x8x49_S16x512x49_S16x8x512_2_2_1_1_0_0 : DotDims S16x8x49 S16x512x49 S16x8x512 where
  lhsContracting := [2]
  rhsContracting := [2]
  lhsNonContracting := [1]
  rhsNonContracting := [1]
  lhsBatch := [0]
  rhsBatch := [0]
  wf := dot_S16x8x49_S16x512x49_S16x8x512_2_2_1_1_0_0_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v36) S16x512x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S16x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S16x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S16x8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2048x512x7x7 : Shape := ⟨4, ![2048, 512, 7, 7]⟩
abbrev S2048x16 : Shape := ⟨2, ![2048, 16]⟩
abbrev S4096x4096 : Shape := ⟨2, ![4096, 4096]⟩
abbrev S4096 : Shape := ⟨1, ![4096]⟩
abbrev S2048x8x2 : Shape := ⟨3, ![2048, 8, 2]⟩
abbrev S2048x8x1 : Shape := ⟨3, ![2048, 8, 1]⟩
abbrev S2048x8 : Shape := ⟨2, ![2048, 8]⟩
abbrev S_ : Shape := ⟨0, ![]⟩
abbrev S8x1 : Shape := ⟨2, ![8, 1]⟩
abbrev S2048x8x3 : Shape := ⟨3, ![2048, 8, 3]⟩
abbrev S2048x8x512x2x2 : Shape := ⟨5, ![2048, 8, 512, 2, 2]⟩
abbrev S2048x8x512 : Shape := ⟨3, ![2048, 8, 512]⟩
abbrev S2048x4096 : Shape := ⟨2, ![2048, 4096]⟩
abbrev S1x4096 : Shape := ⟨2, ![1, 4096]⟩

abbrev nBuf : Space → Nat
  | .hbm => 87
  | .vmem => 0
  | .smem => 0
  | _ => 0

abbrev bufTy : (tb : Table) → Fin (tcTables nBuf tb) → BufTy
  | .hbm, ⟨0, _⟩ => ⟨S2048x512x7x7, .f32⟩
  | .hbm, ⟨1, _⟩ => ⟨S2048x16, .i32⟩
  | .hbm, ⟨2, _⟩ => ⟨S4096x4096, .f32⟩
  | .hbm, ⟨3, _⟩ => ⟨S4096, .f32⟩
  | .hbm, ⟨4, _⟩ => ⟨S2048x8x2, .i32⟩
  | .hbm, ⟨5, _⟩ => ⟨S2048x8x1, .i32⟩
  | .hbm, ⟨6, _⟩ => ⟨S2048x8, .i32⟩
  | .hbm, ⟨7, _⟩ => ⟨S2048x8x1, .i32⟩
  | .hbm, ⟨8, _⟩ => ⟨S2048x8, .i32⟩
  | .hbm, ⟨9, _⟩ => ⟨S2048x8, .f32⟩
  | .hbm, ⟨10, _⟩ => ⟨S_, .f32⟩
  | .hbm, ⟨11, _⟩ => ⟨S2048x8, .f32⟩
  | .hbm, ⟨12, _⟩ => ⟨S2048x8, .f32⟩
  | .hbm, ⟨13, _⟩ => ⟨S_, .f32⟩
  | .hbm, ⟨14, _⟩ => ⟨S2048x8, .f32⟩
  | .hbm, ⟨15, _⟩ => ⟨S2048x8, .f32⟩
  | .hbm, ⟨16, _⟩ => ⟨S2048x8, .i32⟩
  | .hbm, ⟨17, _⟩ => ⟨S_, .i32⟩
  | .hbm, ⟨18, _⟩ => ⟨S2048x8, .i32⟩
  | .hbm, ⟨19, _⟩ => ⟨S2048x8, .i32⟩
  | .hbm, ⟨20, _⟩ => ⟨S_, .i32⟩
  | .hbm, ⟨21, _⟩ => ⟨S2048x8, .i32⟩
  | .hbm, ⟨22, _⟩ => ⟨S2048x8, .i32⟩
  | .hbm, ⟨23, _⟩ => ⟨S2048x8, .f32⟩
  | .hbm, ⟨24, _⟩ => ⟨S_, .f32⟩
  | .hbm, ⟨25, _⟩ => ⟨S2048x8, .f32⟩
  | .hbm, ⟨26, _⟩ => ⟨S2048x8, .f32⟩
  | .hbm, ⟨27, _⟩ => ⟨S_, .f32⟩
  | .hbm, ⟨28, _⟩ => ⟨S2048x8, .f32⟩
  | .hbm, ⟨29, _⟩ => ⟨S2048x8, .f32⟩
  | .hbm, ⟨30, _⟩ => ⟨S2048x8, .i32⟩
  | .hbm, ⟨31, _⟩ => ⟨S_, .i32⟩
  | .hbm, ⟨32, _⟩ => ⟨S2048x8, .i32⟩
  | .hbm, ⟨33, _⟩ => ⟨S2048x8, .i32⟩
  | .hbm, ⟨34, _⟩ => ⟨S_, .i32⟩
  | .hbm, ⟨35, _⟩ => ⟨S2048x8, .i32⟩
  | .hbm, ⟨36, _⟩ => ⟨S2048x8, .i32⟩
  | .hbm, ⟨37, _⟩ => ⟨S_, .i32⟩
  | .hbm, ⟨38, _⟩ => ⟨S2048x8, .i32⟩
  | .hbm, ⟨39, _⟩ => ⟨S2048x8, .i32⟩
  | .hbm, ⟨40, _⟩ => ⟨S_, .i32⟩
  | .hbm, ⟨41, _⟩ => ⟨S2048x8, .i32⟩
  | .hbm, ⟨42, _⟩ => ⟨S2048x8, .i32⟩
  | .hbm, ⟨43, _⟩ => ⟨S_, .i32⟩
  | .hbm, ⟨44, _⟩ => ⟨S2048x8, .i32⟩
  | .hbm, ⟨45, _⟩ => ⟨S2048x8, .i1⟩
  | .hbm, ⟨46, _⟩ => ⟨S_, .i32⟩
  | .hbm, ⟨47, _⟩ => ⟨S2048x8, .i32⟩
  | .hbm, ⟨48, _⟩ => ⟨S2048x8, .i1⟩
  | .hbm, ⟨49, _⟩ => ⟨S2048x8, .i1⟩
  | .hbm, ⟨50, _⟩ => ⟨S_, .i32⟩
  | .hbm, ⟨51, _⟩ => ⟨S_, .i32⟩
  | .hbm, ⟨52, _⟩ => ⟨S2048x8, .i32⟩
  | .hbm, ⟨53, _⟩ => ⟨S2048x8, .i32⟩
  | .hbm, ⟨54, _⟩ => ⟨S_, .i32⟩
  | .hbm, ⟨55, _⟩ => ⟨S_, .i32⟩
  | .hbm, ⟨56, _⟩ => ⟨S2048x8, .i32⟩
  | .hbm, ⟨57, _⟩ => ⟨S2048x8, .i32⟩
  | .hbm, ⟨58, _⟩ => ⟨S_, .i32⟩
  | .hbm, ⟨59, _⟩ => ⟨S2048x8, .i32⟩
  | .hbm, ⟨60, _⟩ => ⟨S2048x8, .i1⟩
  | .hbm, ⟨61, _⟩ => ⟨S_, .i32⟩
  | .hbm, ⟨62, _⟩ => ⟨S2048x8, .i32⟩
  | .hbm, ⟨63, _⟩ => ⟨S2048x8, .i32⟩
  | .hbm, ⟨64, _⟩ => ⟨S2048x8, .i32⟩
  | .hbm, ⟨65, _⟩ => ⟨S_, .i32⟩
  | .hbm, ⟨66, _⟩ => ⟨S2048x8, .i32⟩
  | .hbm, ⟨67, _⟩ => ⟨S2048x8, .i1⟩
  | .hbm, ⟨68, _⟩ => ⟨S_, .i32⟩
  | .hbm, ⟨69, _⟩ => ⟨S2048x8, .i32⟩
  | .hbm, ⟨70, _⟩ => ⟨S2048x8, .i32⟩
  | .hbm, ⟨71, _⟩ => ⟨S2048x8, .i32⟩
  | .hbm, ⟨72, _⟩ => ⟨S_, .i32⟩
  | .hbm, ⟨73, _⟩ => ⟨S8x1, .i32⟩
  | .hbm, ⟨74, _⟩ => ⟨S2048x8x1, .i32⟩
  | .hbm, ⟨75, _⟩ => ⟨S2048x8x1, .i32⟩
  | .hbm, ⟨76, _⟩ => ⟨S2048x8x1, .i32⟩
  | .hbm, ⟨77, _⟩ => ⟨S2048x8x3, .i32⟩
  | .hbm, ⟨78, _⟩ => ⟨S2048x8x512x2x2, .f32⟩
  | .hbm, ⟨79, _⟩ => ⟨S_, .f32⟩
  | .hbm, ⟨80, _⟩ => ⟨S2048x8x512, .f32⟩
  | .hbm, ⟨81, _⟩ => ⟨S2048x4096, .f32⟩
  | .hbm, ⟨82, _⟩ => ⟨S4096x4096, .f32⟩
  | .hbm, ⟨83, _⟩ => ⟨S2048x4096, .f32⟩
  | .hbm, ⟨84, _⟩ => ⟨S1x4096, .f32⟩
  | .hbm, ⟨85, _⟩ => ⟨S2048x4096, .f32⟩
  | .hbm, ⟨86, _⟩ => ⟨S2048x4096, .f32⟩
  | _, _ => ⟨S2048x512x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_c_8 : Ref sig .tc := ⟨.hbm, 43, rfl⟩
abbrev main_v29 : Ref sig .tc := ⟨.hbm, 44, rfl⟩
abbrev main_v30 : Ref sig .tc := ⟨.hbm, 45, rfl⟩
abbrev main_c_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_10 : Ref sig .tc := ⟨.hbm, 50, rfl⟩
abbrev main_call0_v0 : Ref sig .tc := ⟨.hbm, 51, rfl⟩
abbrev main_call0_v1 : Ref sig .tc := ⟨.hbm, 52, rfl⟩
abbrev main_v34 : Ref sig .tc := ⟨.hbm, 53, rfl⟩
abbrev main_c_11 : Ref sig .tc := ⟨.hbm, 54, rfl⟩
abbrev main_call1_v0 : Ref sig .tc := ⟨.hbm, 55, rfl⟩
abbrev main_call1_v1 : Ref sig .tc := ⟨.hbm, 56, rfl⟩
abbrev main_v35 : Ref sig .tc := ⟨.hbm, 57, rfl⟩
abbrev main_c_12 : Ref sig .tc := ⟨.hbm, 58, rfl⟩
abbrev main_v36 : Ref sig .tc := ⟨.hbm, 59, rfl⟩
abbrev main_v37 : Ref sig .tc := ⟨.hbm, 60, rfl⟩
abbrev main_c_13 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_14 : Ref sig .tc := ⟨.hbm, 65, rfl⟩
abbrev main_v41 : Ref sig .tc := ⟨.hbm, 66, rfl⟩
abbrev main_v42 : Ref sig .tc := ⟨.hbm, 67, rfl⟩
abbrev main_c_15 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_16 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_17 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]

class Facts₀ : Prop where
  shapeCasts_S2048x16_S2048x8x2 : S2048x16.ShapeCasts S2048x8x2
  slices_S2048x8x2_S2048x8x1_0_0_0 : S2048x8x2.Slices ![0, 0, 0] S2048x8x1
  shapeCasts_S2048x8x1_S2048x8 : S2048x8x1.ShapeCasts S2048x8
  slices_S2048x8x2_S2048x8x1_0_0_1 : S2048x8x2.Slices ![0, 0, 1] S2048x8x1
  bcast_S_S2048x8 : S_.BroadcastsInDim S2048x8 (![] : Fin 0 → Fin S2048x8.rank)
  bcast_S_S8x1 : S_.BroadcastsInDim S8x1 (![] : Fin 0 → Fin S8x1.rank)
  bcast_S2048x8_S2048x8x1_0_1 : S2048x8.BroadcastsInDim S2048x8x1 (![0, 1] : Fin 2 → Fin S2048x8x1.rank)
  bcast_S8x1_S2048x8x1_1_2 : S8x1.BroadcastsInDim S2048x8x1 (![1, 2] : Fin 2 → Fin S2048x8x1.rank)
  concatenates_S2048x8x1_S2048x8x1_S2048x8x1_S2048x8x3_d2 : Shape.Concatenates [S2048x8x1, S2048x8x1, S2048x8x1] S2048x8x3 2
  reducesTo_S2048x8x512x2x2_S2048x8x512_d3_4 : S2048x8x512x2x2.ReducesTo [3, 4] S2048x8x512
  h_S_ : 0 < S_.numel
  shapeCasts_S2048x8x512_S2048x4096 : S2048x8x512.ShapeCasts S2048x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  gather_S2048x512x7x7_S2048x8x3_S2048x8x512x2x2_234_n_0_0_123_2_151222_wf : GatherDims.WF S2048x512x7x7 S2048x8x3 S2048x8x512x2x2 [2, 3, 4] [] [0] [1, 2, 3] [0] 2 ![1, 512, 2, 2]
  dot_S2048x4096_S4096x4096_S2048x4096_1_0_0_1_n_n_wf : DotDims.WF S2048x4096 S4096x4096 S2048x4096 [1] [0] [0] [1] [] []

variable [Facts₀]

def gather_S2048x512x7x7_S2048x8x3_S2048x8x512x2x2_234_n_0_0_123_2_151222 : GatherDims S2048x512x7x7 S2048x8x3 S2048x8x512x2x2 where
  offsetDims := [2, 3, 4]
  collapsedSliceDims := []
  operandBatchingDims := [0]
  startIndicesBatchingDims := [0]
  startIndexMap := [1, 2, 3]
  indexVectorDim := 2
  sliceSizes := ![1, 512, 2, 2]
  wf := gather_S2048x512x7x7_S2048x8x3_S2048x8x512x2x2_234_n_0_0_123_2_151222_wf
def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.KCrop.lean ====
/-
  Region 0 (the crop-and-pool kernel) at the buffer contents `V` the region is entered with.

  The kernel's grid has 128 points; at point `t` the three input windows hold block `t` of the feature array (16 images,
  all 512 channels, all 49 positions) and of the two start-word arrays (16 rows of 8 words), and the body stores the whole
  output block once, a pure function `k0_pay1` of the three loaded blocks. So the output window's buffer after the body is
  that function of the input blocks, the inputs' buffers are as they were, and nothing else of the core's state is read:
  the data of the pipeline and its body obligation.
-/
import proofs.«106583_j34660386078970_2_alg».proof.Proof.Gen.Kernel.Launch
import proofs.«106583_j34660386078970_2_alg».proof.Proof.Gen.Kernel.Skeleton
import proofs.«106583_j34660386078970_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any pipeline data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_f : Rect S16x512x49 := Rect.unit (s := S16x512x49) ![0, 0, 0] S16x512x49.size inb_S16x512x49_S16x512x49_0_0_0
abbrev r0_w : Rect S16x8 := Rect.unit (s := S16x8) ![0, 0] S16x8.size inb_S16x8_S16x8_0_0
abbrev r0_o : Rect S16x8x512 := Rect.unit (s := S16x8x512) ![0, 0, 0] S16x8x512.size inb_S16x8x512_S16x8x512_0_0_0

/-- The output window's staging buffer after the body, from the input windows' blocks: its one store. -/
def out0_3 (x0 : Vec F S16x512x49 .f32) (x1 : Vec F S16x8 .i32) (x2 : Vec F S16x8 .i32) : Vec F S16x8x512 .bf16 :=
  View.canon [⟨r0_o, k0_pay1 (View.ld x0 r0_f) (View.ld x1 r0_w) (View.ld x2 r0_w)⟩]

/-- The one store writes the whole buffer. -/
theorem cover0_3 (p0 : Vec F S16x8x512 .bf16) (y : S16x8x512.Idx) :
    ∃ pc ∈ ([⟨r0_o, p0⟩] : List (View.Piece (Elt F) S16x8x512 .bf16)), y ∈ pc.1.set :=
  View.cover_of_tiled [⟨r0_o, p0⟩] S16x8x512.size (by rfl) y

/-! ## The body's triple -/

set_option maxHeartbeats 4000000 in
/-- On whole staging memrefs, the inputs' at contents `x0 x1 x2` and the output's at anything, the body runs to the
    continuation holding the inputs' as they were and the output's at `out0_3` of them. -/
theorem sound_kernel0 (c : Dev nD) (E : Set ℕ) (i : grid0.Coords) (arg1 : Memref sig .tc .vmem S16x512x49 .f32) (harg1 : arg1.IsWhole)
    (arg2 : Memref sig .tc .vmem S16x8 .i32) (harg2 : arg2.IsWhole) (arg3 : Memref sig .tc .vmem S16x8 .i32) (harg3 : arg3.IsWhole)
    (arg4 : Memref sig .tc .vmem S16x8x512 .bf16) (harg4 : arg4.IsWhole)
    (x0 : Vec F S16x512x49 .f32) (x1 : Vec F S16x8 .i32) (x2 : Vec F S16x8 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__crop_pool_kernel i arg1 harg1 arg2 harg2 arg3 harg3 arg4 harg4) K := by
  simp only [cc0__crop_pool_kernel_eq_skeleton]; unfold cc0__crop_pool_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's data -/

/-- The data of pipeline 0 on core `c`: the arrays as the region finds them; after the body at point `t` each input's
    buffer at its block and the output's at `out0_3` of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KMm.Runs.lean ====
/-
  The matrix-product region: what its three control cases share.

  The region's grid is 2 x 4 x 4, visited in row-major order: point t = 16·I + 4·J + q works on rows 1024·I + · of the
  activations, rows 1024·J + · of the weights (they become the output's columns) and block q of the four blocks of 1024
  positions of the contracted axis. The body does one of three things, by the position modulo 4: at q = 0 it zeroes the
  accumulator and adds the first block product to it; at q = 1, 2 it adds a block product; at q = 3 it adds the last one
  and stores the accumulator plus the bias row to the output block. Here: each window's block read off its array, the
  two conditions in closed form over the grid, the points where the output window is idle, the buffers the body is
  called with, and the region invariant spelled out buffer by buffer.
-/
import proofs.«106583_j34660386078970_2_alg».proof.Proof.Gen.Kernel.Launch
import proofs.«106583_j34660386078970_2_alg».proof.Proof.Gen.Kernel.Skeleton
import proofs.«106583_j34660386078970_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of 1024 x 1024 extents is decided coordinate by coordinate along the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The matrix-product region (pipeline 1): what its three control cases share

The region is entered with the TensorCore's buffers at contents `V`, a parameter here. Its grid is 2 x 4 x 4; the
innermost coordinate runs over the four blocks of the contracted axis. At the first of the four the accumulator is
zeroed, at every one a block product is added to it, and at the last the bias row is added and the sum stored to the
output block. -/

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any
    proof data whose array is the entry contents and whose body leaves the block in place: where the window
    is not fetched its block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any
    proof data whose array is the entry contents and whose body leaves the block in place: where the window
    is not fetched its block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any
    proof data whose array is the entry contents and whose body leaves the block in place: where the window
    is not fetched its block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first condition: the innermost grid coordinate is 0 (the accumulator is zeroed). -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition: the innermost grid coordinate is 3 (the output block is stored). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three inputs are never idle. -/
theorem liveAt1_0 : ∀ t : Fin cfg1.N, cfg1.idle 0 (grid1.coords t) = false := by decide +kernel
/-- The weights' window is never idle. -/
theorem liveAt1_1 : ∀ t : Fin cfg1.N, cfg1.idle 1 (grid1.coords t) = false := by decide +kernel
/-- The bias's window is never idle. -/
theorem liveAt1_2 : ∀ t : Fin cfg1.N, cfg1.idle 2 (grid1.coords t) = false := by decide +kernel
/-- Where the accumulator is zeroed the output window is idle and not written back. -/
theorem idleAt1_3_A : ∀ t : Fin cfg1.N, cond1_0 (grid1.coords t) → ¬cond1_1 (grid1.coords t) → cfg1.idle 3 (grid1.coords t) = true := by decide +kernel
/-- Nor is its block written back there. -/
theorem noFlush1_3_A : ∀ t : Fin cfg1.N, cond1_0 (grid1.coords t) → ¬cond1_1 (grid1.coords t) → (cfg1.win 3).flush t = false := by decide +kernel
/-- At the two middle points likewise. -/
theorem idleAt1_3_B : ∀ t : Fin cfg1.N, ¬cond1_0 (grid1.coords t) → ¬cond1_1 (grid1.coords t) → cfg1.idle 3 (grid1.coords t) = true := by decide +kernel
/-- Nor is its block written back there. -/
theorem noFlush1_3_B : ∀ t : Fin cfg1.N, ¬cond1_0 (grid1.coords t) → ¬cond1_1 (grid1.coords t) → (cfg1.win 3).flush t = false := by decide +kernel
/-- At the last of the four points the output window is live: the body stores into it. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S1024x1024 .f32 := (Memref.whole cc1_stg3_0 : Memref sig .tc .vmem S1024x1024 .f32).view
/-- Each window's current staging memref at point `t`, and its wholeness. -/
abbrev ms1_0 (t : Fin cfg1.N) : Memref sig .tc .vmem S1024x1024 .bf16 := win1_0.stage (cfg1.slots t 0)
/-- It is a whole buffer. -/
abbrev hs1_0 (t : Fin cfg1.N) : (ms1_0 t).IsWhole := hstage1_0 ((cfg1.slots t 0).cast nbuf1_0)
/-- The weights' current staging memref at point `t`. -/
abbrev ms1_1 (t : Fin cfg1.N) : Memref sig .tc .vmem S1024x1024 .f32 := win1_1.stage (cfg1.slots t 1)
/-- It is a whole buffer. -/
abbrev hs1_1 (t : Fin cfg1.N) : (ms1_1 t).IsWhole := hstage1_1 ((cfg1.slots t 1).cast nbuf1_1)
/-- The bias's current staging memref at point `t`. -/
abbrev ms1_2 (t : Fin cfg1.N) : Memref sig .tc .vmem S1024 .f32 := win1_2.stage (cfg1.slots t 2)
/-- It is a whole buffer. -/
abbrev hs1_2 (t : Fin cfg1.N) : (ms1_2 t).IsWhole := hstage1_2 ((cfg1.slots t 2).cast nbuf1_2)
/-- The output's current staging memref at point `t`. -/
abbrev ms1_3 (t : Fin cfg1.N) : Memref sig .tc .vmem S1024x1024 .f32 := win1_3.stage (cfg1.slots t 3)
/-- It is a whole buffer. -/
abbrev hs1_3 (t : Fin cfg1.N) : (ms1_3 t).IsWhole := hstage1_3 ((cfg1.slots t 3).cast nbuf1_3)
/-- The accumulator: a whole scoped buffer of the kernel's own, passed beside the windows and carried between points. -/
abbrev scM1_0 : Memref sig .tc .vmem S1024x1024 .f32 := Memref.whole cc1_scratch0
/-- The same as a view: what it holds is stated through it. -/
abbrev VS1_0 : View sig .tc .vmem S1024x1024 .f32 := scM1_0.view

/-- A scoped buffer of the core held whole at some contents. -/
abbrev anyAt (c : Dev nD) (b : Ref sig .tc) : sProp 𝕄 :=
  iprop(∃ f : Buf (Elt F) ((c : Thread nD τ).loc b), ((c : Thread nD τ).loc b) ↦{fullShare} f)

/-- The region's invariant spelled out: the other region's eight staging buffers at anything, the accumulator owned
    at some contents, the generator register at some state. -/
theorem PhiA1_eq (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.KMm.RunA.lean ====
/-
  The matrix-product body at the first of a group's four points (position ≡ 0 modulo 4).

  The accumulator is stored whole twice: first the zero block, then the product of the activation block with the
  transposed weight block added to what the accumulator then holds, which is the zero block just stored. A piece is one
  store: its rectangle and the values stored there; a buffer's pieces, last store first, say what it ends holding
  wherever they cover it, and a store of the whole buffer covers every index. The output's buffer is not stored into:
  it is handed back as it was found.
-/
import proofs.«106583_j34660386078970_2_alg».proof.Proof.KMm.Runs

-- membership in a rectangle of 1024 x 1024 extents is decided coordinate by coordinate along the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the symbolic run of the body is a large term)
set_option maxHeartbeats 1000000 in
/-- THE FIRST OF FOUR POINTS (the accumulator is zeroed, then a block product added to it; the output block untouched).
    What the body's stores leave in the accumulator, as pieces (last store first), with the proof that on whole
    memrefs — the three input blocks at their contents, the output's buffer at contents handed back untouched, the
    accumulator at anything — the body runs to the continuation holding the inputs as they were and the accumulator
    with its pieces written. The pieces are the witness the symbolic run finds. -/
noncomputable def kernelRun1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KMm.RunB.lean ====
/-
  The matrix-product body at the two middle points of a group (position ≡ 1, 2 modulo 4).

  The accumulator is stored whole once: the product of the activation block with the transposed weight block, added to
  what the point before left in the accumulator. That one piece covers the buffer. The output's buffer is not stored
  into: it is handed back as it was found.
-/
import proofs.«106583_j34660386078970_2_alg».proof.Proof.KMm.RunA

-- membership in a rectangle of 1024 x 1024 extents is decided coordinate by coordinate along the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the symbolic run of the body is a large term)
set_option maxHeartbeats 1000000 in
/-- THE TWO MIDDLE POINTS (a block product is added to the accumulator; the output block untouched). What the body's
    store leaves in the accumulator, as pieces, with the proof that on whole memrefs — the three input blocks at their
    contents, the output's buffer at contents handed back untouched, the accumulator at what the point before left —
    the body runs to the continuation holding the inputs as they were and the accumulator with its pieces written. -/
noncomputable def kernelRun1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KMm.RunC.lean ====
/-
  The matrix-product body at the last of a group's four points (position ≡ 3 modulo 4).

  The accumulator is stored whole once, the block product added to what the point before left in it; then the output's
  buffer is stored whole with that accumulator plus the bias block, the same bias row added to every row. Each buffer
  ends with one piece that covers it, so neither depends on what it held before.
-/
import proofs.«106583_j34660386078970_2_alg».proof.Proof.KMm.RunB

-- membership in a rectangle of 1024 x 1024 extents is decided coordinate by coordinate along the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the symbolic run of the body is a large term)
set_option maxHeartbeats 1000000 in
/-- THE LAST OF FOUR POINTS (a block product is added to the accumulator, then the accumulator plus the bias row is
    stored to the output block). What the body's stores leave in the output's buffer and in the accumulator, as pieces,
    with the proof that on whole memrefs — the three input blocks at their contents, the output's buffer at anything,
    the accumulator at what the point before left — the body runs to the continuation holding the inputs as they were
    and the output's buffer and the accumulator with their pieces written. -/
noncomputable def kernelRun1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KMm.lean ====
/-
  The matrix-product region: its proof data and its body obligation.

  For each of the three cases, what the body leaves in the accumulator and in the output's buffer is its pieces read
  back; a piece that stores the whole buffer covers every index, so the result does not depend on the earlier contents.
  The accumulation runs the cases along the grid: a position ≡ 0 modulo 4 starts from anything, every other position
  from what the point before left in the accumulator. The invariant between points carries the accumulator at exactly
  those contents (before the very first point: at anything), beside the other region's staging buffers and the
  generator register at unspecified contents. The output window is idle, its buffer handed back untouched and not
  written back, except at positions ≡ 3, where its block is stored and written back.
-/
import proofs.«106583_j34660386078970_2_alg».proof.Proof.KMm.RunC

-- membership in a rectangle of 1024 x 1024 extents is decided coordinate by coordinate along the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The matrix-product region (pipeline 1): its proof data and body obligation

Stated at the TensorCore's buffer contents `V` when the region is entered. The three runs (one per control case) are
in the modules before this one; here: what each case leaves in the output's buffer and in the accumulator, the
accumulation point by point, the region invariant that carries the accumulator, the proof data and the obligation. -/

variable (V : (c : Dev nD) → (b : Ref sig .tc) → Buf (Elt F) ((c : Thread nD τ).loc b))

/-- At the first of the four points the body stores nothing into the output's buffer (the window is idle there and not written back):
    no pieces, a placeholder nothing consults. -/
def out1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- At the first of the four points the body's stores into the accumulator are of the whole buffer: its pieces tile it, so they cover it. -/
theorem scover1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What the body leaves in the accumulator at the first of the four points: its pieces read back. -/
def sout1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- At a middle point the body stores nothing into the output's buffer (the window is idle there and not written back):
    no pieces, a placeholder nothing consults. -/
def out1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- At a middle point the body's stores into the accumulator are of the whole buffer: its pieces tile it, so they cover it. -/
theorem scover1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What the body leaves in the accumulator at a middle point: its pieces read back. -/
def sout1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- At the last of the four points the body's one store into the output's buffer is of the whole buffer: its pieces tile it, so they cover it. -/
theorem cover1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What the body leaves in the output's staging buffer at the last of the four points: its pieces read back. -/
def out1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- At the last of the four points the body's stores into the accumulator are of the whole buffer: its pieces tile it, so they cover it. -/
theorem scover1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What the body leaves in the accumulator at the last of the four points: its pieces read back. -/
def sout1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output's buffer and the accumulator hold after each point -/

/-- THE ACCUMULATION. The output's staging buffer and the accumulator after the body at position `n`: the case the
    position selects (`n % 4 = 0`: zero and add; `n % 4 = 3`: add and store out; else: add), run at the point's memrefs
    and input blocks, over the accumulator the point before left. -/
def outsAt1 (c : Dev nD) : (n : ℕ) → n < cfg1.N → Vec F S1024x1024 .f32 × Vec F S1024x1024 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point where the accumulator is zeroed. -/
theorem outsAt1_A (c : Dev nD) (t : Fin cfg1.N) (h0 : t.val % 4 = 0) (h1 : ¬t.val % 4 = 3) :
    outsAt1 V c t.val t.isLt = (out1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle point: over what the point before left. -/
theorem outsAt1_B (c : Dev nD) (t : Fin cfg1.N) (h0 : ¬t.val % 4 = 0) (h1 : ¬t.val % 4 = 3) :
    outsAt1 V c t.val t.isLt = (out1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point where the output block is stored: over what the point before left. -/
theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point what the launch hands the region (every scoped buffer
    that is no staging buffer of this region at anything, the generator register at some state); afterwards the same
    with the accumulator at what the point before left in it. -/
def PhiS1 (c : Dev nD) : (n : ℕ) → n ≤ cfg1.N → sProp 𝕄
  | 0, _ => Pipeline.ΦA spec1 c
  | n + 1, hn => iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ owns (c : Thread nD τ) scM1_0 fullShare ((outsAt1 V c n hn).2)) ∗ (∃ r, prngReg c r))

/-- Before the first point the invariant is what the launch hands the region. -/
theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
/-- The weights' buffer is left at its block. -/
theorem after1_1 (c : Dev nD) (t : Fin cfg1.N) : (dat1 V c).after 1 t = iblk1 V c 1 t := by dsimp only [dat1]
/-- The bias's buffer is left at its block. -/
theorem after1_2 (c : Dev nD) (t : Fin cfg1.N) : (dat1 V c).after 2 t = iblk1 V c 2 t := by dsimp only [dat1]
/-- The output's buffer is left at the accumulation's first component. -/
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
/-- The weights' current staging buffer holds its block at every point. -/
theorem before1_1 (c : Dev nD) (t : Fin cfg1.N) (d) : (dat1 V c).before 1 t d = iblk1 V c 1 t :=
  before1_1_of V (dat1 V c) (A_eq1 V c 1) (after1_1 V c) t d
/-- The bias's current staging buffer holds its block at every point, also where it is not fetched. -/
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the position says which of the three cases the point
    is in; the invariant hands the body the accumulator at what the point before left (at anything at the very first
    point) and takes it back at this point's contents; the output's buffer is handed back untouched where the case
    does not store it; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨R0, R1, R2, R3, R4, R5, R6, R7, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [R0 R1 R2 R3 R4 R5 R6 R7 HS0 Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scover1_A c _ _ _ _ _ _ _ _ _ _ _ _ _ _ _ _)
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨R0, R1, R2, R3, R4, R5, R6, R7, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [R0 R1 R2 R3 R4 R5 R6 R7 HS0 Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scover1_A c _ _ _ _ _ _ _ _ _ _ _ _ _ _ _ _)
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C sout1_C; (try dsimp only)
      by_cases hz : t.val = 0
      · exfalso; omega
      · rw [PhiS1_castSucc V c t, PhiS1_pos V c _ _ hz]
        iintro ⟨⟨⟨R0, R1, R2, R3, R4, R5, R6, R7, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [R0 R1 R2 R3 R4 R5 R6 R7 HS0 Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scover1_C c _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B; (try dsimp only)
      by_cases hz : t.val = 0
      · exfalso; omega
      · rw [PhiS1_castSucc V c t, PhiS1_pos V c _ _ hz]
        iintro ⟨⟨⟨R0, R1, R2, R3, R4, R5, R6, R7, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [R0 R1 R2 R3 R4 R5 R6 R7 HS0 Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scover1_B c _ _ _ _ _ _ _ _ _ _ _ _ _ _ _ _ _)
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, R5, R6, R7, HS0⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  iexists _; iexact HS0

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.KRun.lean ====
/-
  The whole program as a run: host operations, the crop-and-pool region, one reshape, the matrix-product region.

  Between two items of the program a core holds every unscoped buffer at a known valuation: the launch contents, then what
  each stretch of host operations computes, then — after a region — the same valuation with the region's output array
  replaced by what the pipeline's write-backs leave in it. Region 0 is entered from the valuation after the host prefix
  and leaves its output array at `o6`; region 1 is entered after the reshape of that array and leaves its output array,
  the program's result, at `o8`. Each region's record sorts its windows' arrays out of the unscoped buffers, runs the
  pipeline from the region's data , and puts the arrays back. The run then terminates with the result buffer at `o8` and the arguments as
  launched.
-/
import proofs.«106583_j34660386078970_2_alg».proof.Proof.KCrop
import proofs.«106583_j34660386078970_2_alg».proof.Proof.KMm
import proofs.«106583_j34660386078970_2_alg».proof.Proof.KRunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents the regions are entered with and leave -/

/-- A core's TensorCore buffer contents, as the regions' data take them. -/
abbrev VT (F : FTy → Type) [FloatOps F] : Type := (c : Dev nD) → (b : Ref sig .tc) → Buf (Elt F) ((c : Thread nD τ).loc b)

/-- Region 0 is entered after the host prefix. -/
abbrev Vin0 : VT F := fun c b => V5 m c b
/-- What region 0 leaves in its output array. -/
def o6 (c : Dev nD) : Buf (Elt F) ((c : Thread nD τ).loc main_v37) := (dat0 (Vin0 m) c).arrAt 3 cfg0.N
/-- The regions' leavings with only region 0's known. -/
def outsA : Outs (F := F) := fun _ r c => if h : r = main_v37 then h ▸ o6 m c else m ((c : Thread nD τ).loc r)
/-- Region 1 is entered after the reshape of region 0's output. -/
abbrev Vin1 : VT F := fun c b => V7 m (outsA m) c b
/-- What region 1 leaves in its output array: the program's result. -/
def o8 (c : Dev nD) : Buf (Elt F) ((c : Thread nD τ).loc main_v39) := (dat1 (Vin1 m) c).arrAt 3 cfg1.N
/-- Both regions' leavings. -/
def outsH : Outs (F := F) := fun J r c => if h : r = main_v39 then h ▸ o8 m c else outsA m J r c

theorem outsA_6 (c : Dev nD) : outsA m 6 main_v37 c = o6 m c := by
  unfold outsA; rw [dif_pos rfl]
theorem outsH_6 (c : Dev nD) : outsH m 6 main_v37 c = o6 m c := by
  unfold outsH; rw [dif_neg (by decide)]; exact outsA_6 m c
theorem outsH_8 (c : Dev nD) : outsH m 8 main_v39 c = o8 m c := by
  unfold outsH; rw [dif_pos rfl]

/-- The valuation region 1 is entered with does not depend on what region 1 leaves. -/
theorem V7_outsH (c : Dev nD) : V7 m (outsH m) c = V7 m (outsA m) c := by
  have h : outsH m 6 main_v37 c = outsA m 6 main_v37 c := (outsH_6 m c).trans (outsA_6 m c).symm
  show StableHlo.after hostOps1 (Function.update (V5 m c) main_v37 (outsH m 6 main_v37 c))
    = StableHlo.after hostOps1 (Function.update (V5 m c) main_v37 (outsA m 6 main_v37 c))
  rw [h]

/-! ## The pipelines' data and the thread state -/

/-- Both pipelines' data, each at its region's entry contents. -/
def pdatsH : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

abbrev Lv0 : GSem nD τ sig → Finset Unit := fun _ => ∅
abbrev lv0 : GSem nD τ sig → Unit → ℕ := fun _ _ => 0
/-- What rides beside the buffers through every item: the generator register at some state and nothing owed. -/
abbrev Rr (c : Dev nD) : sProp 𝕄 := iprop((∃ r, prngReg c r) ∗ ∃ W, owes (c : Thread nD τ) (0 : CellTallies nD τ sig Unit) W)

/-! ## Region 0's exit contents -/

theorem hF0 (c : Dev nD) (w : Fin cfg0.W) :
    (pdatsH m 0 c).arrAt w cfg0.N = (fun b => V6 m (outsH m) c b : (b : Ref sig .tc) → Buf (Elt F) ((c : Thread nD τ).loc b)) (Pipeline.arrRef spec0 w) := by
  show (dat0 (Vin0 m) c).arrAt w cfg0.N = V6 m (outsH m) c (Pipeline.arrRef spec0 w)
  match w with
  | ⟨0, _⟩ => exact (((dat0 (Vin0 m) c).arrAt_in 0 rfl _).trans (A_eq0 (Vin0 m) c 0)).trans (V6_of m (outsH m) c _ (by decide)).symm
  | ⟨1, _⟩ => exact (((dat0 (Vin0 m) c).arrAt_in 1 rfl _).trans (A_eq0 (Vin0 m) c 1)).trans (V6_of m (outsH m) c _ (by decide)).symm
  | ⟨2, _⟩ => exact (((dat0 (Vin0 m) c).arrAt_in 2 rfl _).trans (A_eq0 (Vin0 m) c 2)).trans (V6_of m (outsH m) c _ (by decide)).symm
  | ⟨3, _⟩ =>
    show o6 m c = Function.update (V5 m c) main_v37 (outsH m 6 main_v37 c) main_v37
    rw [Function.update_self]; exact (outsH_6 m c).symm

theorem hrest0 (c : Dev nD) : ∀ b, b ∉ Finset.univ.image (Pipeline.arrRef spec0) →
    (fun b => V6 m (outsH m) c b : (b : Ref sig .tc) → Buf (Elt F) ((c : Thread nD τ).loc b)) b = Vin0 m c b :=
  fun b hb => V6_of m (outsH m) c b (by
    intro hmem; rw [List.mem_singleton] at hmem; subst hmem
    exact hb (Finset.mem_image.mpr ⟨3, Finset.mem_univ _, rfl⟩))

/-! ## Region 1's exit contents -/

theorem hF1 (c : Dev nD) (w : Fin cfg1.W) :
    (pdatsH m 1 c).arrAt w cfg1.N = (fun b => V8 m (outsH m) c b : (b : Ref sig .tc) → Buf (Elt F) ((c : Thread nD τ).loc b)) (Pipeline.arrRef spec1 w) := by
  show (dat1 (Vin1 m) c).arrAt w cfg1.N = V8 m (outsH m) c (Pipeline.arrRef spec1 w)
  have hV : ∀ b : Ref sig .tc, b ∉ ([main_v39] : List (Ref sig .tc)) → V8 m (outsH m) c b = Vin1 m c b := fun b hb =>
    (V8_of m (outsH m) c b hb).trans (congrFun (V7_outsH m c) (Proc.devRef .tc b))
  match w with
  | ⟨0, _⟩ => exact (((dat1 (Vin1 m) c).arrAt_in 0 rfl _).trans (A_eq1 (Vin1 m) c 0)).trans (hV _ (by decide)).symm
  | ⟨1, _⟩ => exact (((dat1 (Vin1 m) c).arrAt_in 1 rfl _).trans (A_eq1 (Vin1 m) c 1)).trans (hV _ (by decide)).symm
  | ⟨2, _⟩ => exact (((dat1 (Vin1 m) c).arrAt_in 2 rfl _).trans (A_eq1 (Vin1 m) c 2)).trans (hV _ (by decide)).symm
  | ⟨3, _⟩ =>
    show o8 m c = Function.update (V7 m (outsH m) c) main_v39 (outsH m 8 main_v39 c) main_v39
    rw [Function.update_self]; exact (outsH_8 m c).symm

theorem hrest1 (c : Dev nD) : ∀ b, b ∉ Finset.univ.image (Pipeline.arrRef spec1) →
    (fun b => V8 m (outsH m) c b : (b : Ref sig .tc) → Buf (Elt F) ((c : Thread nD τ).loc b)) b = Vin1 m c b :=
  fun b hb => (V8_of m (outsH m) c b (by
    intro hmem; rw [List.mem_singleton] at hmem; subst hmem
    exact hb (Finset.mem_image.mpr ⟨3, Finset.mem_univ _, rfl⟩))).trans (congrFun (V7_outsH m c) (Proc.devRef .tc b))

/-! ## The regions as segments -/

set_option backward.isDefEq.respectTransparency.types false in
/-- Region 0 over the thread state: entered with every unscoped buffer at the valuation after the host prefix, left with
    its output array at `o6`. Its arrays are split out of the unscoped buffers and put back at the exit contents; the
    generator register goes into the pipeline's invariant and comes out; nothing is owed; the kernel has no semaphore of
    its own. -/
def reg0 : Pipeline.RegionSeg (pcfgs (F := F)) adm (pdatsH m) () defs₀ Variants.none Lv0 lv0 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lv0 lv0 0 fun _ _ => rfl
  pre c := iprop(StableHlo.held (c : Thread nD τ) (Pipeline.ucRefs τ sig) (V5 m c) ∗ Rr c)
  post c := iprop(StableHlo.held (c : Thread nD τ) (Pipeline.ucRefs τ sig) (V6 m (outsH m) c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (Vin0 m c) (fun b => V6 m (outsH m) c b) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the valuation after the reshape, left with its
    output array at `o8`. The pipeline's invariant is entered from the scoped rest beside the generator register
    (`hin1`) and gives them back at the end (`hout1`). -/
def reg1 : Pipeline.RegionSeg (pcfgs (F := F)) adm (pdatsH m) () defs₀ Variants.none Lv0 lv0 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lv0 lv0 1 fun _ _ => rfl
  pre c := iprop(StableHlo.held (c : Thread nD τ) (Pipeline.ucRefs τ sig) (V7 m (outsH m) c) ∗ Rr c)
  post c := iprop(StableHlo.held (c : Thread nD τ) (Pipeline.ucRefs τ sig) (V8 m (outsH m) c) ∗ Rr c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V7_outsH m c]
    have hsplit := Pipeline.arrays_of_unscopedBufs (p := 1) (pcfgs (F := F)) adm (pdatsH m) launch1.win launch1.arr_whole c
      ((pdatsH m 1 c).share_full fun _ => rfl) (Vin1 m c) fun w => A_eq1 (Vin1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    rw [Pipeline.ownSems0_none]
    refine BIBase.Entails.trans (hout1 (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (Vin1 m c) (fun b => V8 m (outsH m) c b) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` terminates, the result buffer at `o8` — what region 1's
    write-backs leave — and every argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v39) = o8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := GenP.run_cond (F := F) m (Ix := Unit) (U := UR sig nD τ) (Lvl := ℕ) emb₁ () Variants.none Lv0 lv0 (fun _ _ => rfl) ρ (outsH m)
    (pdatsH m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach Lv0 lv0 fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)
  refine (θ_run defs _ _).mono (fun r h c => ?_) h
  rw [← outsH_8 m c]; exact h c

end Cert.Kernel.Hand

end
-- ==== Proof.Crop.lean ====
/-
  Region 0 (the crop-and-pool kernel) at the buffer contents `V` the region is entered with.

  The kernel's grid has 128 points; at point `t` the three input windows hold block `t` of the feature array (16 images,
  all 512 channels, all 49 positions) and of the two start-word arrays (16 rows of 8 words), and the body stores the whole
  output block once, a pure function `k0_pay1` of the three loaded blocks. So the output window's buffer after the body is
  that function of the input blocks, the inputs' buffers are as they were, and nothing else of the core's state is read:
  the data of the pipeline and its body obligation.
-/
import proofs.«106583_j34660386078970_2_alg».proof.Proof.Gen.KernelIdeal.Launch
import proofs.«106583_j34660386078970_2_alg».proof.Proof.Gen.KernelIdeal.Skeleton
import proofs.«106583_j34660386078970_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any pipeline data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_f : Rect S16x512x49 := Rect.unit (s := S16x512x49) ![0, 0, 0] S16x512x49.size inb_S16x512x49_S16x512x49_0_0_0
abbrev r0_w : Rect S16x8 := Rect.unit (s := S16x8) ![0, 0] S16x8.size inb_S16x8_S16x8_0_0
abbrev r0_o : Rect S16x8x512 := Rect.unit (s := S16x8x512) ![0, 0, 0] S16x8x512.size inb_S16x8x512_S16x8x512_0_0_0

/-- The output window's staging buffer after the body, from the input windows' blocks: its one store. -/
def out0_3 (x0 : Vec F S16x512x49 .f32) (x1 : Vec F S16x8 .i32) (x2 : Vec F S16x8 .i32) : Vec F S16x8x512 .bf16 :=
  View.canon [⟨r0_o, k0_pay1 (View.ld x0 r0_f) (View.ld x1 r0_w) (View.ld x2 r0_w)⟩]

/-- The one store writes the whole buffer. -/
theorem cover0_3 (p0 : Vec F S16x8x512 .bf16) (y : S16x8x512.Idx) :
    ∃ pc ∈ ([⟨r0_o, p0⟩] : List (View.Piece (Elt F) S16x8x512 .bf16)), y ∈ pc.1.set :=
  View.cover_of_tiled [⟨r0_o, p0⟩] S16x8x512.size (by rfl) y

/-! ## The body's triple -/

set_option maxHeartbeats 4000000 in
/-- On whole staging memrefs, the inputs' at contents `x0 x1 x2` and the output's at anything, the body runs to the
    continuation holding the inputs' as they were and the output's at `out0_3` of them. -/
theorem sound_kernel0 (c : Dev nD) (E : Set ℕ) (i : grid0.Coords) (arg1 : Memref sig .tc .vmem S16x512x49 .f32) (harg1 : arg1.IsWhole)
    (arg2 : Memref sig .tc .vmem S16x8 .i32) (harg2 : arg2.IsWhole) (arg3 : Memref sig .tc .vmem S16x8 .i32) (harg3 : arg3.IsWhole)
    (arg4 : Memref sig .tc .vmem S16x8x512 .bf16) (harg4 : arg4.IsWhole)
    (x0 : Vec F S16x512x49 .f32) (x1 : Vec F S16x8 .i32) (x2 : Vec F S16x8 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__crop_pool_kernel i arg1 harg1 arg2 harg2 arg3 harg3 arg4 harg4) K := by
  simp only [cc0__crop_pool_kernel_eq_skeleton]; unfold cc0__crop_pool_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's data -/

/-- The data of pipeline 0 on core `c`: the arrays as the region finds them; after the body at point `t` each input's
    buffer at its block and the output's at `out0_3` of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Mm.Runs.lean ====
/-
  The matrix-product region: what its three control cases share.

  The region's grid is 2 x 4 x 4, visited in row-major order: point t = 16·I + 4·J + q works on rows 1024·I + · of the
  activations, rows 1024·J + · of the weights (they become the output's columns) and block q of the four blocks of 1024
  positions of the contracted axis. The body does one of three things, by the position modulo 4: at q = 0 it zeroes the
  accumulator and adds the first block product to it; at q = 1, 2 it adds a block product; at q = 3 it adds the last one
  and stores the accumulator plus the bias row to the output block. Here: each window's block read off its array, the
  two conditions in closed form over the grid, the points where the output window is idle, the buffers the body is
  called with, and the region invariant spelled out buffer by buffer.
-/
import proofs.«106583_j34660386078970_2_alg».proof.Proof.Gen.KernelIdeal.Launch
import proofs.«106583_j34660386078970_2_alg».proof.Proof.Gen.KernelIdeal.Skeleton
import proofs.«106583_j34660386078970_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of 1024 x 1024 extents is decided coordinate by coordinate along the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The matrix-product region (pipeline 1): what its three control cases share

The region is entered with the TensorCore's buffers at contents `V`, a parameter here. Its grid is 2 x 4 x 4; the
innermost coordinate runs over the four blocks of the contracted axis. At the first of the four the accumulator is
zeroed, at every one a block product is added to it, and at the last the bias row is added and the sum stored to the
output block. -/

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any
    proof data whose array is the entry contents and whose body leaves the block in place: where the window
    is not fetched its block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any
    proof data whose array is the entry contents and whose body leaves the block in place: where the window
    is not fetched its block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any
    proof data whose array is the entry contents and whose body leaves the block in place: where the window
    is not fetched its block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first condition: the innermost grid coordinate is 0 (the accumulator is zeroed). -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition: the innermost grid coordinate is 3 (the output block is stored). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three inputs are never idle. -/
theorem liveAt1_0 : ∀ t : Fin cfg1.N, cfg1.idle 0 (grid1.coords t) = false := by decide +kernel
/-- The weights' window is never idle. -/
theorem liveAt1_1 : ∀ t : Fin cfg1.N, cfg1.idle 1 (grid1.coords t) = false := by decide +kernel
/-- The bias's window is never idle. -/
theorem liveAt1_2 : ∀ t : Fin cfg1.N, cfg1.idle 2 (grid1.coords t) = false := by decide +kernel
/-- Where the accumulator is zeroed the output window is idle and not written back. -/
theorem idleAt1_3_A : ∀ t : Fin cfg1.N, cond1_0 (grid1.coords t) → ¬cond1_1 (grid1.coords t) → cfg1.idle 3 (grid1.coords t) = true := by decide +kernel
/-- Nor is its block written back there. -/
theorem noFlush1_3_A : ∀ t : Fin cfg1.N, cond1_0 (grid1.coords t) → ¬cond1_1 (grid1.coords t) → (cfg1.win 3).flush t = false := by decide +kernel
/-- At the two middle points likewise. -/
theorem idleAt1_3_B : ∀ t : Fin cfg1.N, ¬cond1_0 (grid1.coords t) → ¬cond1_1 (grid1.coords t) → cfg1.idle 3 (grid1.coords t) = true := by decide +kernel
/-- Nor is its block written back there. -/
theorem noFlush1_3_B : ∀ t : Fin cfg1.N, ¬cond1_0 (grid1.coords t) → ¬cond1_1 (grid1.coords t) → (cfg1.win 3).flush t = false := by decide +kernel
/-- At the last of the four points the output window is live: the body stores into it. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S1024x1024 .f32 := (Memref.whole cc1_stg3_0 : Memref sig .tc .vmem S1024x1024 .f32).view
/-- Each window's current staging memref at point `t`, and its wholeness. -/
abbrev ms1_0 (t : Fin cfg1.N) : Memref sig .tc .vmem S1024x1024 .bf16 := win1_0.stage (cfg1.slots t 0)
/-- It is a whole buffer. -/
abbrev hs1_0 (t : Fin cfg1.N) : (ms1_0 t).IsWhole := hstage1_0 ((cfg1.slots t 0).cast nbuf1_0)
/-- The weights' current staging memref at point `t`. -/
abbrev ms1_1 (t : Fin cfg1.N) : Memref sig .tc .vmem S1024x1024 .f32 := win1_1.stage (cfg1.slots t 1)
/-- It is a whole buffer. -/
abbrev hs1_1 (t : Fin cfg1.N) : (ms1_1 t).IsWhole := hstage1_1 ((cfg1.slots t 1).cast nbuf1_1)
/-- The bias's current staging memref at point `t`. -/
abbrev ms1_2 (t : Fin cfg1.N) : Memref sig .tc .vmem S1024 .f32 := win1_2.stage (cfg1.slots t 2)
/-- It is a whole buffer. -/
abbrev hs1_2 (t : Fin cfg1.N) : (ms1_2 t).IsWhole := hstage1_2 ((cfg1.slots t 2).cast nbuf1_2)
/-- The output's current staging memref at point `t`. -/
abbrev ms1_3 (t : Fin cfg1.N) : Memref sig .tc .vmem S1024x1024 .f32 := win1_3.stage (cfg1.slots t 3)
/-- It is a whole buffer. -/
abbrev hs1_3 (t : Fin cfg1.N) : (ms1_3 t).IsWhole := hstage1_3 ((cfg1.slots t 3).cast nbuf1_3)
/-- The accumulator: a whole scoped buffer of the kernel's own, passed beside the windows and carried between points. -/
abbrev scM1_0 : Memref sig .tc .vmem S1024x1024 .f32 := Memref.whole cc1_scratch0
/-- The same as a view: what it holds is stated through it. -/
abbrev VS1_0 : View sig .tc .vmem S1024x1024 .f32 := scM1_0.view

/-- A scoped buffer of the core held whole at some contents. -/
abbrev anyAt (c : Dev nD) (b : Ref sig .tc) : sProp 𝕄 :=
  iprop(∃ f : Buf (Elt F) ((c : Thread nD τ).loc b), ((c : Thread nD τ).loc b) ↦{fullShare} f)

/-- The region's invariant spelled out: the other region's eight staging buffers at anything, the accumulator owned
    at some contents, the generator register at some state. -/
theorem PhiA1_eq (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.Mm.RunA.lean ====
/-
  The matrix-product body at the first of a group's four points (position ≡ 0 modulo 4).

  The accumulator is stored whole twice: first the zero block, then the product of the activation block with the
  transposed weight block added to what the accumulator then holds, which is the zero block just stored. A piece is one
  store: its rectangle and the values stored there; a buffer's pieces, last store first, say what it ends holding
  wherever they cover it, and a store of the whole buffer covers every index. The output's buffer is not stored into:
  it is handed back as it was found.
-/
import proofs.«106583_j34660386078970_2_alg».proof.Proof.Mm.Runs

-- membership in a rectangle of 1024 x 1024 extents is decided coordinate by coordinate along the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the symbolic run of the body is a large term)
set_option maxHeartbeats 1000000 in
/-- THE FIRST OF FOUR POINTS (the accumulator is zeroed, then a block product added to it; the output block untouched).
    What the body's stores leave in the accumulator, as pieces (last store first), with the proof that on whole
    memrefs — the three input blocks at their contents, the output's buffer at contents handed back untouched, the
    accumulator at anything — the body runs to the continuation holding the inputs as they were and the accumulator
    with its pieces written. The pieces are the witness the symbolic run finds. -/
noncomputable def kernelRun1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.Mm.RunB.lean ====
/-
  The matrix-product body at the two middle points of a group (position ≡ 1, 2 modulo 4).

  The accumulator is stored whole once: the product of the activation block with the transposed weight block, added to
  what the point before left in the accumulator. That one piece covers the buffer. The output's buffer is not stored
  into: it is handed back as it was found.
-/
import proofs.«106583_j34660386078970_2_alg».proof.Proof.Mm.RunA

-- membership in a rectangle of 1024 x 1024 extents is decided coordinate by coordinate along the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the symbolic run of the body is a large term)
set_option maxHeartbeats 1000000 in
/-- THE TWO MIDDLE POINTS (a block product is added to the accumulator; the output block untouched). What the body's
    store leaves in the accumulator, as pieces, with the proof that on whole memrefs — the three input blocks at their
    contents, the output's buffer at contents handed back untouched, the accumulator at what the point before left —
    the body runs to the continuation holding the inputs as they were and the accumulator with its pieces written. -/
noncomputable def kernelRun1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.Mm.RunC.lean ====
/-
  The matrix-product body at the last of a group's four points (position ≡ 3 modulo 4).

  The accumulator is stored whole once, the block product added to what the point before left in it; then the output's
  buffer is stored whole with that accumulator plus the bias block, the same bias row added to every row. Each buffer
  ends with one piece that covers it, so neither depends on what it held before.
-/
import proofs.«106583_j34660386078970_2_alg».proof.Proof.Mm.RunB

-- membership in a rectangle of 1024 x 1024 extents is decided coordinate by coordinate along the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the symbolic run of the body is a large term)
set_option maxHeartbeats 1000000 in
/-- THE LAST OF FOUR POINTS (a block product is added to the accumulator, then the accumulator plus the bias row is
    stored to the output block). What the body's stores leave in the output's buffer and in the accumulator, as pieces,
    with the proof that on whole memrefs — the three input blocks at their contents, the output's buffer at anything,
    the accumulator at what the point before left — the body runs to the continuation holding the inputs as they were
    and the output's buffer and the accumulator with their pieces written. -/
noncomputable def kernelRun1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.Mm.lean ====
/-
  The matrix-product region: its proof data and its body obligation.

  For each of the three cases, what the body leaves in the accumulator and in the output's buffer is its pieces read
  back; a piece that stores the whole buffer covers every index, so the result does not depend on the earlier contents.
  The accumulation runs the cases along the grid: a position ≡ 0 modulo 4 starts from anything, every other position
  from what the point before left in the accumulator. The invariant between points carries the accumulator at exactly
  those contents (before the very first point: at anything), beside the other region's staging buffers and the
  generator register at unspecified contents. The output window is idle, its buffer handed back untouched and not
  written back, except at positions ≡ 3, where its block is stored and written back.
-/
import proofs.«106583_j34660386078970_2_alg».proof.Proof.Mm.RunC

-- membership in a rectangle of 1024 x 1024 extents is decided coordinate by coordinate along the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The matrix-product region (pipeline 1): its proof data and body obligation

Stated at the TensorCore's buffer contents `V` when the region is entered. The three runs (one per control case) are
in the modules before this one; here: what each case leaves in the output's buffer and in the accumulator, the
accumulation point by point, the region invariant that carries the accumulator, the proof data and the obligation. -/

variable (V : (c : Dev nD) → (b : Ref sig .tc) → Buf (Elt F) ((c : Thread nD τ).loc b))

/-- At the first of the four points the body stores nothing into the output's buffer (the window is idle there and not written back):
    no pieces, a placeholder nothing consults. -/
def out1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- At the first of the four points the body's stores into the accumulator are of the whole buffer: its pieces tile it, so they cover it. -/
theorem scover1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What the body leaves in the accumulator at the first of the four points: its pieces read back. -/
def sout1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- At a middle point the body stores nothing into the output's buffer (the window is idle there and not written back):
    no pieces, a placeholder nothing consults. -/
def out1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- At a middle point the body's stores into the accumulator are of the whole buffer: its pieces tile it, so they cover it. -/
theorem scover1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What the body leaves in the accumulator at a middle point: its pieces read back. -/
def sout1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- At the last of the four points the body's one store into the output's buffer is of the whole buffer: its pieces tile it, so they cover it. -/
theorem cover1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What the body leaves in the output's staging buffer at the last of the four points: its pieces read back. -/
def out1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- At the last of the four points the body's stores into the accumulator are of the whole buffer: its pieces tile it, so they cover it. -/
theorem scover1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What the body leaves in the accumulator at the last of the four points: its pieces read back. -/
def sout1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output's buffer and the accumulator hold after each point -/

/-- THE ACCUMULATION. The output's staging buffer and the accumulator after the body at position `n`: the case the
    position selects (`n % 4 = 0`: zero and add; `n % 4 = 3`: add and store out; else: add), run at the point's memrefs
    and input blocks, over the accumulator the point before left. -/
def outsAt1 (c : Dev nD) : (n : ℕ) → n < cfg1.N → Vec F S1024x1024 .f32 × Vec F S1024x1024 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point where the accumulator is zeroed. -/
theorem outsAt1_A (c : Dev nD) (t : Fin cfg1.N) (h0 : t.val % 4 = 0) (h1 : ¬t.val % 4 = 3) :
    outsAt1 V c t.val t.isLt = (out1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle point: over what the point before left. -/
theorem outsAt1_B (c : Dev nD) (t : Fin cfg1.N) (h0 : ¬t.val % 4 = 0) (h1 : ¬t.val % 4 = 3) :
    outsAt1 V c t.val t.isLt = (out1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point where the output block is stored: over what the point before left. -/
theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point what the launch hands the region (every scoped buffer
    that is no staging buffer of this region at anything, the generator register at some state); afterwards the same
    with the accumulator at what the point before left in it. -/
def PhiS1 (c : Dev nD) : (n : ℕ) → n ≤ cfg1.N → sProp 𝕄
  | 0, _ => Pipeline.ΦA spec1 c
  | n + 1, hn => iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ owns (c : Thread nD τ) scM1_0 fullShare ((outsAt1 V c n hn).2)) ∗ (∃ r, prngReg c r))

/-- Before the first point the invariant is what the launch hands the region. -/
theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
/-- The weights' buffer is left at its block. -/
theorem after1_1 (c : Dev nD) (t : Fin cfg1.N) : (dat1 V c).after 1 t = iblk1 V c 1 t := by dsimp only [dat1]
/-- The bias's buffer is left at its block. -/
theorem after1_2 (c : Dev nD) (t : Fin cfg1.N) : (dat1 V c).after 2 t = iblk1 V c 2 t := by dsimp only [dat1]
/-- The output's buffer is left at the accumulation's first component. -/
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
/-- The weights' current staging buffer holds its block at every point. -/
theorem before1_1 (c : Dev nD) (t : Fin cfg1.N) (d) : (dat1 V c).before 1 t d = iblk1 V c 1 t :=
  before1_1_of V (dat1 V c) (A_eq1 V c 1) (after1_1 V c) t d
/-- The bias's current staging buffer holds its block at every point, also where it is not fetched. -/
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the position says which of the three cases the point
    is in; the invariant hands the body the accumulator at what the point before left (at anything at the very first
    point) and takes it back at this point's contents; the output's buffer is handed back untouched where the case
    does not store it; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨R0, R1, R2, R3, R4, R5, R6, R7, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [R0 R1 R2 R3 R4 R5 R6 R7 HS0 Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scover1_A c _ _ _ _ _ _ _ _ _ _ _ _ _ _ _ _)
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨R0, R1, R2, R3, R4, R5, R6, R7, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [R0 R1 R2 R3 R4 R5 R6 R7 HS0 Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scover1_A c _ _ _ _ _ _ _ _ _ _ _ _ _ _ _ _)
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C sout1_C; (try dsimp only)
      by_cases hz : t.val = 0
      · exfalso; omega
      · rw [PhiS1_castSucc V c t, PhiS1_pos V c _ _ hz]
        iintro ⟨⟨⟨R0, R1, R2, R3, R4, R5, R6, R7, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [R0 R1 R2 R3 R4 R5 R6 R7 HS0 Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scover1_C c _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B; (try dsimp only)
      by_cases hz : t.val = 0
      · exfalso; omega
      · rw [PhiS1_castSucc V c t, PhiS1_pos V c _ _ hz]
        iintro ⟨⟨⟨R0, R1, R2, R3, R4, R5, R6, R7, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [R0 R1 R2 R3 R4 R5 R6 R7 HS0 Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scover1_B c _ _ _ _ _ _ _ _ _ _ _ _ _ _ _ _ _)
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, R5, R6, R7, HS0⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  iexists _; iexact HS0

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.Run.lean ====
/-
  The whole program as a run: host operations, the crop-and-pool region, one reshape, the matrix-product region.

  Between two items of the program a core holds every unscoped buffer at a known valuation: the launch contents, then what
  each stretch of host operations computes, then — after a region — the same valuation with the region's output array
  replaced by what the pipeline's write-backs leave in it. Region 0 is entered from the valuation after the host prefix
  and leaves its output array at `o6`; region 1 is entered after the reshape of that array and leaves its output array,
  the program's result, at `o8`. Each region's record sorts its windows' arrays out of the unscoped buffers, runs the
  pipeline from the region's data , and puts the arrays back. The run then terminates with the result buffer at `o8` and the arguments as
  launched.
-/
import proofs.«106583_j34660386078970_2_alg».proof.Proof.Crop
import proofs.«106583_j34660386078970_2_alg».proof.Proof.Mm
import proofs.«106583_j34660386078970_2_alg».proof.Proof.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents the regions are entered with and leave -/

/-- A core's TensorCore buffer contents, as the regions' data take them. -/
abbrev VT (F : FTy → Type) [FloatOps F] : Type := (c : Dev nD) → (b : Ref sig .tc) → Buf (Elt F) ((c : Thread nD τ).loc b)

/-- Region 0 is entered after the host prefix. -/
abbrev Vin0 : VT F := fun c b => V5 m c b
/-- What region 0 leaves in its output array. -/
def o6 (c : Dev nD) : Buf (Elt F) ((c : Thread nD τ).loc main_v37) := (dat0 (Vin0 m) c).arrAt 3 cfg0.N
/-- The regions' leavings with only region 0's known. -/
def outsA : Outs (F := F) := fun _ r c => if h : r = main_v37 then h ▸ o6 m c else m ((c : Thread nD τ).loc r)
/-- Region 1 is entered after the reshape of region 0's output. -/
abbrev Vin1 : VT F := fun c b => V7 m (outsA m) c b
/-- What region 1 leaves in its output array: the program's result. -/
def o8 (c : Dev nD) : Buf (Elt F) ((c : Thread nD τ).loc main_v39) := (dat1 (Vin1 m) c).arrAt 3 cfg1.N
/-- Both regions' leavings. -/
def outsH : Outs (F := F) := fun J r c => if h : r = main_v39 then h ▸ o8 m c else outsA m J r c

theorem outsA_6 (c : Dev nD) : outsA m 6 main_v37 c = o6 m c := by
  unfold outsA; rw [dif_pos rfl]
theorem outsH_6 (c : Dev nD) : outsH m 6 main_v37 c = o6 m c := by
  unfold outsH; rw [dif_neg (by decide)]; exact outsA_6 m c
theorem outsH_8 (c : Dev nD) : outsH m 8 main_v39 c = o8 m c := by
  unfold outsH; rw [dif_pos rfl]

/-- The valuation region 1 is entered with does not depend on what region 1 leaves. -/
theorem V7_outsH (c : Dev nD) : V7 m (outsH m) c = V7 m (outsA m) c := by
  have h : outsH m 6 main_v37 c = outsA m 6 main_v37 c := (outsH_6 m c).trans (outsA_6 m c).symm
  show StableHlo.after hostOps1 (Function.update (V5 m c) main_v37 (outsH m 6 main_v37 c))
    = StableHlo.after hostOps1 (Function.update (V5 m c) main_v37 (outsA m 6 main_v37 c))
  rw [h]

/-! ## The pipelines' data and the thread state -/

/-- Both pipelines' data, each at its region's entry contents. -/
def pdatsH : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

abbrev Lv0 : GSem nD τ sig → Finset Unit := fun _ => ∅
abbrev lv0 : GSem nD τ sig → Unit → ℕ := fun _ _ => 0
/-- What rides beside the buffers through every item: the generator register at some state and nothing owed. -/
abbrev Rr (c : Dev nD) : sProp 𝕄 := iprop((∃ r, prngReg c r) ∗ ∃ W, owes (c : Thread nD τ) (0 : CellTallies nD τ sig Unit) W)

/-! ## Region 0's exit contents -/

theorem hF0 (c : Dev nD) (w : Fin cfg0.W) :
    (pdatsH m 0 c).arrAt w cfg0.N = (fun b => V6 m (outsH m) c b : (b : Ref sig .tc) → Buf (Elt F) ((c : Thread nD τ).loc b)) (Pipeline.arrRef spec0 w) := by
  show (dat0 (Vin0 m) c).arrAt w cfg0.N = V6 m (outsH m) c (Pipeline.arrRef spec0 w)
  match w with
  | ⟨0, _⟩ => exact (((dat0 (Vin0 m) c).arrAt_in 0 rfl _).trans (A_eq0 (Vin0 m) c 0)).trans (V6_of m (outsH m) c _ (by decide)).symm
  | ⟨1, _⟩ => exact (((dat0 (Vin0 m) c).arrAt_in 1 rfl _).trans (A_eq0 (Vin0 m) c 1)).trans (V6_of m (outsH m) c _ (by decide)).symm
  | ⟨2, _⟩ => exact (((dat0 (Vin0 m) c).arrAt_in 2 rfl _).trans (A_eq0 (Vin0 m) c 2)).trans (V6_of m (outsH m) c _ (by decide)).symm
  | ⟨3, _⟩ =>
    show o6 m c = Function.update (V5 m c) main_v37 (outsH m 6 main_v37 c) main_v37
    rw [Function.update_self]; exact (outsH_6 m c).symm

theorem hrest0 (c : Dev nD) : ∀ b, b ∉ Finset.univ.image (Pipeline.arrRef spec0) →
    (fun b => V6 m (outsH m) c b : (b : Ref sig .tc) → Buf (Elt F) ((c : Thread nD τ).loc b)) b = Vin0 m c b :=
  fun b hb => V6_of m (outsH m) c b (by
    intro hmem; rw [List.mem_singleton] at hmem; subst hmem
    exact hb (Finset.mem_image.mpr ⟨3, Finset.mem_univ _, rfl⟩))

/-! ## Region 1's exit contents -/

theorem hF1 (c : Dev nD) (w : Fin cfg1.W) :
    (pdatsH m 1 c).arrAt w cfg1.N = (fun b => V8 m (outsH m) c b : (b : Ref sig .tc) → Buf (Elt F) ((c : Thread nD τ).loc b)) (Pipeline.arrRef spec1 w) := by
  show (dat1 (Vin1 m) c).arrAt w cfg1.N = V8 m (outsH m) c (Pipeline.arrRef spec1 w)
  have hV : ∀ b : Ref sig .tc, b ∉ ([main_v39] : List (Ref sig .tc)) → V8 m (outsH m) c b = Vin1 m c b := fun b hb =>
    (V8_of m (outsH m) c b hb).trans (congrFun (V7_outsH m c) (Proc.devRef .tc b))
  match w with
  | ⟨0, _⟩ => exact (((dat1 (Vin1 m) c).arrAt_in 0 rfl _).trans (A_eq1 (Vin1 m) c 0)).trans (hV _ (by decide)).symm
  | ⟨1, _⟩ => exact (((dat1 (Vin1 m) c).arrAt_in 1 rfl _).trans (A_eq1 (Vin1 m) c 1)).trans (hV _ (by decide)).symm
  | ⟨2, _⟩ => exact (((dat1 (Vin1 m) c).arrAt_in 2 rfl _).trans (A_eq1 (Vin1 m) c 2)).trans (hV _ (by decide)).symm
  | ⟨3, _⟩ =>
    show o8 m c = Function.update (V7 m (outsH m) c) main_v39 (outsH m 8 main_v39 c) main_v39
    rw [Function.update_self]; exact (outsH_8 m c).symm

theorem hrest1 (c : Dev nD) : ∀ b, b ∉ Finset.univ.image (Pipeline.arrRef spec1) →
    (fun b => V8 m (outsH m) c b : (b : Ref sig .tc) → Buf (Elt F) ((c : Thread nD τ).loc b)) b = Vin1 m c b :=
  fun b hb => (V8_of m (outsH m) c b (by
    intro hmem; rw [List.mem_singleton] at hmem; subst hmem
    exact hb (Finset.mem_image.mpr ⟨3, Finset.mem_univ _, rfl⟩))).trans (congrFun (V7_outsH m c) (Proc.devRef .tc b))

/-! ## The regions as segments -/

set_option backward.isDefEq.respectTransparency.types false in
/-- Region 0 over the thread state: entered with every unscoped buffer at the valuation after the host prefix, left with
    its output array at `o6`. Its arrays are split out of the unscoped buffers and put back at the exit contents; the
    generator register goes into the pipeline's invariant and comes out; nothing is owed; the kernel has no semaphore of
    its own. -/
def reg0 : Pipeline.RegionSeg (pcfgs (F := F)) adm (pdatsH m) () defs₀ Variants.none Lv0 lv0 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lv0 lv0 0 fun _ _ => rfl
  pre c := iprop(StableHlo.held (c : Thread nD τ) (Pipeline.ucRefs τ sig) (V5 m c) ∗ Rr c)
  post c := iprop(StableHlo.held (c : Thread nD τ) (Pipeline.ucRefs τ sig) (V6 m (outsH m) c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (Vin0 m c) (fun b => V6 m (outsH m) c b) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the valuation after the reshape, left with its
    output array at `o8`. The pipeline's invariant is entered from the scoped rest beside the generator register
    (`hin1`) and gives them back at the end (`hout1`). -/
def reg1 : Pipeline.RegionSeg (pcfgs (F := F)) adm (pdatsH m) () defs₀ Variants.none Lv0 lv0 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lv0 lv0 1 fun _ _ => rfl
  pre c := iprop(StableHlo.held (c : Thread nD τ) (Pipeline.ucRefs τ sig) (V7 m (outsH m) c) ∗ Rr c)
  post c := iprop(StableHlo.held (c : Thread nD τ) (Pipeline.ucRefs τ sig) (V8 m (outsH m) c) ∗ Rr c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V7_outsH m c]
    have hsplit := Pipeline.arrays_of_unscopedBufs (p := 1) (pcfgs (F := F)) adm (pdatsH m) launch1.win launch1.arr_whole c
      ((pdatsH m 1 c).share_full fun _ => rfl) (Vin1 m c) fun w => A_eq1 (Vin1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    rw [Pipeline.ownSems0_none]
    refine BIBase.Entails.trans (hout1 (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (Vin1 m c) (fun b => V8 m (outsH m) c b) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` terminates, the result buffer at `o8` — what region 1's
    write-backs leave — and every argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v39) = o8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := GenP.run_cond (F := F) m (Ix := Unit) (U := UR sig nD τ) (Lvl := ℕ) emb₁ () Variants.none Lv0 lv0 (fun _ _ => rfl) ρ (outsH m)
    (pdatsH m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach Lv0 lv0 fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)
  refine (θ_run defs _ _).mono (fun r h c => ?_) h
  rw [← outsH_8 m c]; exact h c

end Cert.KernelIdeal.Hand

end
-- ==== Proof.HostRead.lean ====
/-
  The host operations around the regions, read at the buffers the regions take.

  Before region 0 the program reshapes the features to 49 positions per channel and computes the two start-word arrays
  from the landmarks; between the regions it reshapes the pooled array to rows of 4096; the weights and the bias reach
  region 1 as launched.
-/
import proofs.«106583_j34660386078970_2_alg».proof.Proof.Run
import Idealize.ShloMosaic.Lib.StableHlo.Run
import Idealize.ShloMosaic.PureOps.Ideal

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ)

/-- Region 0 reads the features reshaped to 49 positions per channel. -/
theorem v36_eq (c : Dev nD) : (Vin0 m c main_v36 : S2048x512x49.Idx → EReal) = shapeCast S2048x512x49 (m ((c : Thread nD τ).loc main_arg0)) shapeCasts_S2048x512x7x7_S2048x512x49 := by
  show StableHlo.after hostOps0_4 (V4 m c) (Proc.devRef .tc main_v36) = _
  after_results
  rfl

/-- Region 1 reads the pooled array reshaped to rows of 4096. -/
theorem v38_eq (c : Dev nD) : (Vin1 m c main_v38 : S2048x4096.Idx → EReal) = shapeCast S2048x4096 (o6 m c) shapeCasts_S2048x8x512_S2048x4096 := by
  show StableHlo.after hostOps1 (V6 m (outsA m) c) (Proc.devRef .tc main_v38) = _
  after_results
  have e : V6 m (outsA m) c (Proc.devRef .tc main_v37) = o6 m c := by
    show Function.update (V5 m c) main_v37 (outsA m 6 main_v37 c) main_v37 = _
    rw [Function.update_self]; exact outsA_6 m c
  rw [e]
  rfl

/-- Region 1 reads the weights and the bias as launched. -/
theorem v_arg2_eq (c : Dev nD) : Vin1 m c main_arg2 = m ((c : Thread nD τ).loc main_arg2) :=
  (V7_of m (outsA m) c main_arg2 (by decide)).trans <| (V6_of m (outsA m) c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem v_arg3_eq (c : Dev nD) : Vin1 m c main_arg3 = m ((c : Thread nD τ).loc main_arg3) :=
  (V7_of m (outsA m) c main_arg3 (by decide)).trans <| (V6_of m (outsA m) c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

end Cert.KernelIdeal.Hand

end
-- ==== Proof.CropMath.lean ====
/-
  The crop-and-pool body's arithmetic at an index, over the extended reals.

  The body's one store is a batched product: for image `bb` of the block, landmark `l` and channel `ch` it sums, over the
  49 positions `p` of the flattened 7×7 image, a 0/1 indicator of "`p` is the landmark's start position" times the
  maximum of the image's entries at `p`, `p+1`, `p+7`, `p+8` (positions taken modulo 49: the rotations wrap). The
  indicator is the comparison of the word `7·x + y` with the word of `p`, read as a float.
-/
import proofs.«106583_j34660386078970_2_alg».proof.Proof.Gen.KernelIdeal.Skeleton
import Idealize.ShloMosaic.Lib.ValueIdx
import Idealize.ShloMosaic.Lib.Pipeline.Value
import Idealize.ShloMosaic.Lib.KernelVsHost
import Idealize.ShloMosaic.PureOps.Ideal.Laws

noncomputable section

namespace Cert.KernelIdeal.Hand

open Cert.KernelIdeal Cert.KernelIdeal.Gen
open Idealize.ShloMosaic Idealize.ShloMosaic.ValueIdx

theorem lhs0_0 (i : S16x8x512.Idx) (q : dot_S16x8x49_S16x512x49_S16x8x512_2_2_1_1_0_0.contr.Idx) :
    (dot_S16x8x49_S16x512x49_S16x8x512_2_2_1_1_0_0.lhsIdx i q 0).val = (i 0).val := by
  unfold DotDims.lhsIdx
  rw [dif_pos (show (0 : Fin S16x8x49.rank) ∈ dot_S16x8x49_S16x512x49_S16x8x512_2_2_1_1_0_0.lhsBatch by decide)]
  rfl
theorem lhs0_1 (i : S16x8x512.Idx) (q : dot_S16x8x49_S16x512x49_S16x8x512_2_2_1_1_0_0.contr.Idx) :
    (dot_S16x8x49_S16x512x49_S16x8x512_2_2_1_1_0_0.lhsIdx i q 1).val = (i 1).val := by
  unfold DotDims.lhsIdx
  rw [dif_neg (show ¬(1 : Fin S16x8x49.rank) ∈ dot_S16x8x49_S16x512x49_S16x8x512_2_2_1_1_0_0.lhsBatch by decide),
    dif_pos (show (1 : Fin S16x8x49.rank) ∈ dot_S16x8x49_S16x512x49_S16x8x512_2_2_1_1_0_0.lhsNonContracting by decide)]
  rfl
theorem lhs0_2 (i : S16x8x512.Idx) (q : dot_S16x8x49_S16x512x49_S16x8x512_2_2_1_1_0_0.contr.Idx) :
    (dot_S16x8x49_S16x512x49_S16x8x512_2_2_1_1_0_0.lhsIdx i q 2).val = (q ⟨0, by decide⟩).val :=
  dot_S16x8x49_S16x512x49_S16x8x512_2_2_1_1_0_0.lhsIdx_val_of_single rfl i q
theorem rhs0_0 (i : S16x8x512.Idx) (q : dot_S16x8x49_S16x512x49_S16x8x512_2_2_1_1_0_0.contr.Idx) :
    (dot_S16x8x49_S16x512x49_S16x8x512_2_2_1_1_0_0.rhsIdx i q 0).val = (i 0).val := by
  unfold DotDims.rhsIdx
  rw [dif_pos (show (0 : Fin S16x512x49.rank) ∈ dot_S16x8x49_S16x512x49_S16x8x512_2_2_1_1_0_0.rhsBatch by decide)]
  rfl
theorem rhs0_1 (i : S16x8x512.Idx) (q : dot_S16x8x49_S16x512x49_S16x8x512_2_2_1_1_0_0.contr.Idx) :
    (dot_S16x8x49_S16x512x49_S16x8x512_2_2_1_1_0_0.rhsIdx i q 1).val = (i 2).val := by
  unfold DotDims.rhsIdx
  rw [dif_neg (show ¬(1 : Fin S16x512x49.rank) ∈ dot_S16x8x49_S16x512x49_S16x8x512_2_2_1_1_0_0.rhsBatch by decide),
    dif_pos (show (1 : Fin S16x512x49.rank) ∈ dot_S16x8x49_S16x512x49_S16x8x512_2_2_1_1_0_0.rhsNonContracting by decide)]
  rfl
theorem rhs0_2 (i : S16x8x512.Idx) (q : dot_S16x8x49_S16x512x49_S16x8x512_2_2_1_1_0_0.contr.Idx) :
    (dot_S16x8x49_S16x512x49_S16x8x512_2_2_1_1_0_0.rhsIdx i q 2).val = (q ⟨0, by decide⟩).val :=
  dot_S16x8x49_S16x512x49_S16x8x512_2_2_1_1_0_0.rhsIdx_val_of_single rfl i q

/-- The batched product's left operand index: image `bb`, landmark `l`, position `p`. -/
theorem lhsIdx0 (bb : Fin 16) (l : Fin 8) (ch : Fin 512) (p : Fin 49) :
    dot_S16x8x49_S16x512x49_S16x8x512_2_2_1_1_0_0.lhsIdx (ix3 bb l ch) ((contrEquiv1 dot_S16x8x49_S16x512x49_S16x8x512_2_2_1_1_0_0 49 rfl rfl).symm p) = ix3 bb l p := by
  have hk := contrEquiv1_symm_val dot_S16x8x49_S16x512x49_S16x8x512_2_2_1_1_0_0 49 rfl rfl p
  funext a; apply Fin.ext
  match a with
  | ⟨0, _⟩ => exact lhs0_0 _ _
  | ⟨1, _⟩ => exact lhs0_1 _ _
  | ⟨2, _⟩ => exact (lhs0_2 _ _).trans hk

/-- The right operand index: image `bb`, channel `ch`, position `p`. -/
theorem rhsIdx0 (bb : Fin 16) (l : Fin 8) (ch : Fin 512) (p : Fin 49) :
    dot_S16x8x49_S16x512x49_S16x8x512_2_2_1_1_0_0.rhsIdx (ix3 bb l ch) ((contrEquiv1 dot_S16x8x49_S16x512x49_S16x8x512_2_2_1_1_0_0 49 rfl rfl).symm p) = ix3 bb ch p := by
  have hk := contrEquiv1_symm_val dot_S16x8x49_S16x512x49_S16x8x512_2_2_1_1_0_0 49 rfl rfl p
  funext a; apply Fin.ext
  match a with
  | ⟨0, _⟩ => exact rhs0_0 _ _
  | ⟨1, _⟩ => exact rhs0_1 _ _
  | ⟨2, _⟩ => exact (rhs0_2 _ _).trans hk

/-- The batched product into a zero accumulator, at an index: the sum over the 49 positions. -/
theorem matmul0_apply (L : FVec Ideal S16x8x49 .bf16) (R : FVec Ideal S16x512x49 .bf16) (bb : Fin 16) (l : Fin 8) (ch : Fin 512) :
    matmul dot_S16x8x49_S16x512x49_S16x8x512_2_2_1_1_0_0 none L R (constant S16x8x512 .f32 0x00000000#32) (ix3 bb l ch)
      = ∑ p : Fin 49, L (ix3 bb l p) * R (ix3 bb ch p) := by
  refine (Ideal.matmul_constant_zero_apply _ none L R _).trans ?_
  rw [← Equiv.sum_comp (ValueIdx.contrEquiv1 dot_S16x8x49_S16x512x49_S16x8x512_2_2_1_1_0_0 49 rfl rfl).symm]
  refine Finset.sum_congr rfl fun p _ => ?_
  rw [lhsIdx0, rhsIdx0]

/-- A rotation of the last axis by `49 - s` reads position `(p + s) % 49`. -/
theorem rot_apply (sb : BitVec 32) (s : ℕ) (hs : (49 - sb.toNat % 49) % 49 = s % 49) (x : S16x512x49.Idx → EReal) (bb : Fin 16) (ch : Fin 512) (p : Fin 49) :
    dynamicRotate (s := S16x512x49) 2 sb none x rotates_S16x512x49_d2 (ix3 bb ch p) = x (ix3 bb ch (⟨(p.val + s) % 49, Nat.mod_lt _ (by decide)⟩ : Fin 49)) := by
  refine dynamicRotate_apply (s := S16x512x49) 2 sb x rotates_S16x512x49_d2 (ix3 bb ch p) _ fun b => ?_
  match b with
  | ⟨0, _⟩ => rfl
  | ⟨1, _⟩ => rfl
  | ⟨2, _⟩ =>
    show (p.val + s) % 49 = (p.val + 49 - sb.toNat % 49) % 49
    have hp := p.isLt
    have h1 : sb.toNat % 49 < 49 := Nat.mod_lt _ (by decide)
    omega

/-! ## The operands at an index -/

/-- The indicator of "word `w` is position `p`", as an extended real. -/
def hot (w : BitVec 32) (p : Fin 49) : EReal := if w = BitVec.ofNat 32 p.val then 1 else 0

/-- A [16,8] array cast to [16,8,1] and broadcast along the last axis reads the array at its first two coordinates. -/
theorem bcastLast_apply (v : IVec S16x8 32) (bb : Fin 16) (l : Fin 8) (p : Fin 49) :
    broadcastTo S16x8x49 (shapeCast S16x8x1 v shapeCasts_S16x8_S16x8x1) broadcasts_S16x8x1_S16x8x49 (ix3 bb l p) = v (ix2 bb l) := by
  refine (broadcastTo_apply _ broadcasts_S16x8x1_S16x8x49 (ix3 bb l p) (ix3 bb l (0 : Fin 1)) fun a => ?_).trans ?_
  · match a with
    | ⟨0, _⟩ => rfl
    | ⟨1, _⟩ => rfl
    | ⟨2, _⟩ => rfl
  · refine shapeCast_apply v shapeCasts_S16x8_S16x8x1 (ix3 bb l (0 : Fin 1)) (ix2 bb l) ?_
    rw [Shape.rowMajor_val_two, Shape.rowMajor_val_three]
    show bb.val * 8 + l.val = (bb.val * 8 + l.val) * 1 + 0
    omega

/-- The position counter broadcast over images and landmarks reads the position's word. -/
theorem iotaLast_apply (bb : Fin 16) (l : Fin 8) (p : Fin 49) :
    broadcastTo S16x8x49 (iota .tc S1x1x49 32 [2] iota_S1x1x49_d2_w32) broadcasts_S1x1x49_S16x8x49 (ix3 bb l p) = BitVec.ofNat 32 p.val := by
  refine (broadcastTo_apply _ broadcasts_S1x1x49_S16x8x49 (ix3 bb l p) (ix3 (0 : Fin 1) (0 : Fin 1) p) fun a => ?_).trans ?_
  · match a with
    | ⟨0, _⟩ => rfl
    | ⟨1, _⟩ => rfl
    | ⟨2, _⟩ => rfl
  · show BitVec.ofNat 32 (0 * 49 + p.val) = BitVec.ofNat 32 p.val
    rw [Nat.zero_mul, Nat.zero_add]

/-- A comparison bit widened and read as a signed integer, as a float: 1 where the words are equal, 0 elsewhere. -/
theorem sitofp_eq_bit (a b : BitVec 32) :
    FloatOps.sitofp (F := Ideal) .f32 ((IntOp.cmpi .eq a b).setWidth 32) = if a = b then (1 : EReal) else 0 := by
  show (((BitVec.setWidth 32 (BitVec.ofBool (a == b))).toInt : ℝ) : EReal) = _
  by_cases h : a = b
  · subst h; rw [if_pos rfl, beq_self_eq_true]
    show (((BitVec.setWidth 32 (1#1)).toInt : ℝ) : EReal) = 1
    rw [show (BitVec.setWidth 32 (1#1)).toInt = 1 from by decide]; norm_num
  · rw [if_neg h, (beq_eq_false_iff_ne).mpr h]
    show (((BitVec.setWidth 32 (0#1)).toInt : ℝ) : EReal) = 0
    rw [show (BitVec.setWidth 32 (0#1)).toInt = 0 from by decide]; norm_num

/-- The maximum of the four rotations at a position: the entries at `p`, `p+1`, `p+7`, `p+8` modulo 49. -/
def wm {n : ℕ} (x : (⟨3, ![n, 512, 49]⟩ : Shape).Idx → EReal) (bb : Fin n) (ch : Fin 512) (p : Fin 49) : EReal :=
  max (max (max (x (ix3 bb ch p)) (x (ix3 bb ch (⟨(p.val + 1) % 49, Nat.mod_lt _ (by decide)⟩ : Fin 49))))
        (x (ix3 bb ch (⟨(p.val + 7) % 49, Nat.mod_lt _ (by decide)⟩ : Fin 49))))
    (x (ix3 bb ch (⟨(p.val + 8) % 49, Nat.mod_lt _ (by decide)⟩ : Fin 49)))

/-- THE BODY'S STORE AT AN INDEX: the sum over the positions of the indicator of the landmark's start position
    `7·x + y` times the window maximum there. -/
theorem pay0_apply (x0 : Vec Ideal S16x512x49 .f32) (x1 x2 : Vec Ideal S16x8 .i32) (bb : Fin 16) (l : Fin 8) (ch : Fin 512) :
    k0_pay1 (F := Ideal) x0 x1 x2 (ix3 bb l ch)
      = ∑ p : Fin 49, hot (x1 (ix2 bb l) * 7#32 + x2 (ix2 bb l)) p * wm x0 bb ch p := by
  unfold k0_pay1
  simp only [truncf_apply]
  refine (matmul0_apply _ _ bb l ch).trans (Finset.sum_congr rfl fun p _ => ?_)
  congr 1
  · show FloatOps.sitofp (F := Ideal) .f32 ((IntOp.cmpi .eq
        (broadcastTo S16x8x49 (shapeCast S16x8x1 (addi (muli (shapeCast S16x8 x1 shapeCasts_S16x8_S16x8) (broadcast S16x8 7#32)) (shapeCast S16x8 x2 shapeCasts_S16x8_S16x8)) shapeCasts_S16x8_S16x8x1) broadcasts_S16x8x1_S16x8x49 (ix3 bb l p))
        (broadcastTo S16x8x49 (iota .tc S1x1x49 32 [2] iota_S1x1x49_d2_w32) broadcasts_S1x1x49_S16x8x49 (ix3 bb l p))).setWidth 32) = _
    rw [bcastLast_apply, iotaLast_apply, sitofp_eq_bit, shapeCast_self, shapeCast_self]
    rfl
  · show max (max (max _ _) _) _ = _
    rw [shapeCast_self]
    simp only [truncf_apply]
    rw [rot_apply 48#32 1 (by decide), rot_apply 42#32 7 (by decide), rot_apply 41#32 8 (by decide)]
    rfl

/-- With the landmark's start position below 49 the sum is the window maximum there. -/
theorem sum_hot (w : BitVec 32) (hw : w.toNat < 49) (g : Fin 49 → EReal) :
    ∑ p : Fin 49, hot w p * g p = g ⟨w.toNat, hw⟩ := by
  rw [Finset.sum_eq_single (⟨w.toNat, hw⟩ : Fin 49)]
  · unfold hot
    rw [if_pos (show w = BitVec.ofNat 32 w.toNat from BitVec.eq_of_toNat_eq (by rw [BitVec.toNat_ofNat, Nat.mod_eq_of_lt w.isLt])), one_mul]
  · intro p _ hp
    unfold hot
    rw [if_neg (fun h => hp (Fin.ext (by
      have := congrArg BitVec.toNat h
      rw [BitVec.toNat_ofNat, Nat.mod_eq_of_lt (by have := p.isLt; omega)] at this
      exact this.symm))), zero_mul]
  · intro h; exact absurd (Finset.mem_univ _) h

end Cert.KernelIdeal.Hand

end
-- ==== Proof.CropValue.lean ====
/-
  What region 0 leaves in its output array, as one function of the arrays it reads.

  Point `t` of the grid handles images `16·t … 16·t + 15`: its three input blocks are those rows of the flattened
  feature array and of the two start-word arrays, and what it writes back is those rows of the pooled array `P0`: for
  image `b`, landmark `l`, channel `ch` the sum over the 49 positions of the start-position indicator times the window
  maximum. The 128 blocks tile the array, so after the run the array is `P0` of the region's inputs.
-/
import proofs.«106583_j34660386078970_2_alg».proof.Proof.Crop
import proofs.«106583_j34660386078970_2_alg».proof.Proof.CropMath
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The pooled array as the kernel computes it: at image `b`, landmark `l`, channel `ch`, the sum over the positions
    of the indicator of the start position `7·x + y` times the window maximum. -/
def P0 (f : S2048x512x49.Idx → EReal) (x y : S2048x8.Idx → BitVec 32) : S2048x8x512.Idx → EReal := fun i =>
  ∑ p : Fin 49, hot (x (ix2 (i 0) (i 1)) * 7#32 + y (ix2 (i 0) (i 1))) p * wm f (i 0) (i 2) p

/-- A block's store at an index, from blocks that are rows `16·T + ·` of the arrays: the pooled array there. -/
theorem blk0_eq (f : S2048x512x49.Idx → EReal) (x y : S2048x8.Idx → BitVec 32)
    (x0 : Vec Ideal S16x512x49 .f32) (x1 x2 : Vec Ideal S16x8 .i32) (T : ℕ) (hT : T < 128)
    (h0 : ∀ (bb : Fin 16) (ch : Fin 512) (p : Fin 49), x0 (ix3 bb ch p) = f (ix3 (⟨T * 16 + bb.val, by have := bb.isLt; omega⟩ : Fin 2048) ch p))
    (h1 : ∀ (bb : Fin 16) (l : Fin 8), x1 (ix2 bb l) = x (ix2 (⟨T * 16 + bb.val, by have := bb.isLt; omega⟩ : Fin 2048) l))
    (h2 : ∀ (bb : Fin 16) (l : Fin 8), x2 (ix2 bb l) = y (ix2 (⟨T * 16 + bb.val, by have := bb.isLt; omega⟩ : Fin 2048) l))
    (bb : Fin 16) (l : Fin 8) (ch : Fin 512) :
    k0_pay1 (F := Ideal) x0 x1 x2 (ix3 bb l ch) = P0 f x y (ix3 (⟨T * 16 + bb.val, by have := bb.isLt; omega⟩ : Fin 2048) l ch) := by
  rw [pay0_apply, h1, h2]
  unfold P0 wm
  simp only [h0]

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: every window's block index is the point on axis 0 and zero elsewhere. -/
theorem idx_facts0 : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- WHAT POINT `t` WRITES BACK is block `t` of the pooled array of the arrays the region reads. -/
theorem flushed0_eq (c : Dev nD) (t : Fin cfg0.N) :
    (dat0 V c).flushed 3 t = ((cfg0.win 3).blk t).view.read (Elt Ideal) (P0 (V c main_v36) (V c main_v34) (V c main_v35)) := by
  show (cfg0.win 3).cut (grid0.coords t) ((dat0 V c).after 3 t) = _
  rw [after0_3]
  unfold out0_3
  rw [View.canon_unit_zero hz3]
  simp only [View.ld_unit_zero (S := S16x512x49) hz3, View.ld_unit_zero (S := S16x8) hz2]
  obtain ⟨e00, e01, e02, e10, e11, e20, e21, e30, e31, e32⟩ := idx_facts0 t
  have hT : t.val < 128 := lt_of_lt_of_eq t.isLt (show cfg0.N = 128 from N_0)
  funext j
  obtain ⟨bb, l, ch, rfl⟩ : ∃ (bb : Fin 16) (l : Fin 8) (ch : Fin 512), j = ix3 bb l ch := ⟨j 0, j 1, j 2, eq_ix3 j⟩
  refine (blk0_eq (V c main_v36) (V c main_v34) (V c main_v35) _ _ _ t.val hT ?_ ?_ ?_ bb l ch).trans ?_
  · intro b' ch' p'
    show V c main_v36 (((cfg0.win 0).blk t).view.emb (ix3 b' ch' p')) = V c main_v36 _
    refine congrArg _ (funext fun a => Fin.ext ?_)
    match a with
    | ⟨0, _⟩ => show win0_0.index t (0 : Fin 3) * 16 + 1 * b'.val = t.val * 16 + b'.val; omega
    | ⟨1, _⟩ => show win0_0.index t (1 : Fin 3) * 512 + 1 * ch'.val = ch'.val; omega
    | ⟨2, _⟩ => show win0_0.index t (2 : Fin 3) * 49 + 1 * p'.val = p'.val; omega
  · intro b' l'
    show V c main_v34 (((cfg0.win 1).blk t).view.emb (ix2 b' l')) = V c main_v34 _
    refine congrArg _ (funext fun a => Fin.ext ?_)
    match a with
    | ⟨0, _⟩ => show win0_1.index t (0 : Fin 2) * 16 + 1 * b'.val = t.val * 16 + b'.val; omega
    | ⟨1, _⟩ => show win0_1.index t (1 : Fin 2) * 8 + 1 * l'.val = l'.val; omega
  · intro b' l'
    show V c main_v35 (((cfg0.win 2).blk t).view.emb (ix2 b' l')) = V c main_v35 _
    refine congrArg _ (funext fun a => Fin.ext ?_)
    match a with
    | ⟨0, _⟩ => show win0_2.index t (0 : Fin 2) * 16 + 1 * b'.val = t.val * 16 + b'.val; omega
    | ⟨1, _⟩ => show win0_2.index t (1 : Fin 2) * 8 + 1 * l'.val = l'.val; omega
  · show P0 _ _ _ _ = P0 (V c main_v36) (V c main_v34) (V c main_v35) (((cfg0.win 3).blk t).view.emb (ix3 bb l ch))
    refine congrArg _ (funext fun a => Fin.ext ?_)
    match a with
    | ⟨0, _⟩ => show t.val * 16 + bb.val = win0_3.index t (0 : Fin 3) * 16 + 1 * bb.val; omega
    | ⟨1, _⟩ => show l.val = win0_3.index t (1 : Fin 3) * 8 + 1 * l.val; omega
    | ⟨2, _⟩ => show ch.val = win0_3.index t (2 : Fin 3) * 512 + 1 * ch.val; omega

/-- An index of the output array is in point `t`'s block iff each coordinate is in the block's range on its axis. -/
theorem mem_blk0 (t : Fin cfg0.N) (i : S2048x8x512.Idx) :
    i ∈ ((cfg0.win 3).blk t).view.set ↔ ∀ a : Fin 3, win0_3.index t a * S16x8x512.size a ≤ (i a).val ∧ (i a).val < win0_3.index t a * S16x8x512.size a + S16x8x512.size a := by
  show i ∈ ((View.whole main_v37).slice (win0_3.rect t)).set ↔ _
  rw [View.set_slice_whole, Rect.mem_set_unit]
  exact Iff.rfl

/-- Every index of the output array is in the block of the point that handles its image. -/
theorem cover0 (i : S2048x8x512.Idx) : ∃ t : Fin cfg0.N, (cfg0.win 3).flush t = true ∧ i ∈ ((cfg0.win 3).blk t).view.set := by
  have h0 : (i 0).val < 2048 := (i 0).isLt
  have h1 : (i 1).val < 8 := (i 1).isLt
  have h2 : (i 2).val < 512 := (i 2).isLt
  have hN : cfg0.N = 128 := N_0
  refine ⟨⟨(i 0).val / 16, by rw [hN]; omega⟩, flush0_3 _, ?_⟩
  rw [mem_blk0]
  obtain ⟨e00, e01, e02, e10, e11, e20, e21, e30, e31, e32⟩ := idx_facts0 ⟨(i 0).val / 16, by rw [hN]; omega⟩
  intro a
  match a with
  | ⟨0, _⟩ => show win0_3.index _ (0 : Fin 3) * 16 ≤ (i 0).val ∧ (i 0).val < win0_3.index _ (0 : Fin 3) * 16 + 16; rw [e30]; show (i 0).val / 16 * 16 ≤ _ ∧ _ < (i 0).val / 16 * 16 + 16; omega
  | ⟨1, _⟩ => show win0_3.index _ (1 : Fin 3) * 8 ≤ (i 1).val ∧ (i 1).val < win0_3.index _ (1 : Fin 3) * 8 + 8; rw [e31]; omega
  | ⟨2, _⟩ => show win0_3.index _ (2 : Fin 3) * 512 ≤ (i 2).val ∧ (i 2).val < win0_3.index _ (2 : Fin 3) * 512 + 512; rw [e32]; omega

/-- THE OUTPUT ARRAY after region 0: the pooled array of the arrays the region reads. -/
theorem final0 (c : Dev nD) : (dat0 V c).arrAt 3 cfg0.N = P0 (V c main_v36) (V c main_v34) (V c main_v35) :=
  (dat0 V c).arrAt_eq_of_cover 3 (P0 (V c main_v36) (V c main_v34) (V c main_v35)) (fun t _ => flushed0_eq V c t) cover0

end Cert.KernelIdeal.Hand

end
-- ==== Proof.Spec.lean ====
/-
  The function both programs compute, index by index over the extended reals.

  An image `b` has 512 channels of 7×7 values; for each of its 8 landmarks the two start words `x1, y1` pick the
  top-left corner of a 2×2 window, and the pooled value of channel `ch` is the maximum of the window's four entries.
  The 8·512 pooled values of an image, landmark-major, are one row of a 2048×4096 matrix, which is multiplied by the
  transposed weight matrix and shifted by the bias:
    out[b, j] = (∑ k, pooled[b, k / 512, k % 512] · W[j, k]) + bias[j].
  A start word is read as a natural number and capped at 5, the last corner whose window lies inside the 7×7 image.
-/
import Idealize.ShloMosaic.PureOps.Ideal
import Idealize.ShloMosaic.Lib.ValueIdx

noncomputable section

namespace Cert.Spec

open Idealize.ShloMosaic Idealize.ShloMosaic.ValueIdx

/-- A start word as a corner coordinate: its value, capped at 5. -/
def corner (w : BitVec 32) : ℕ := min w.toNat 5

theorem corner_le (w : BitVec 32) : corner w ≤ 5 := Nat.min_le_right _ _

/-- The maximum of the 2×2 window of channel `ch` of image `b` with top-left corner `(X, Y)` (each capped at 5):
    the entries at `(X, Y)`, `(X, Y+1)`, `(X+1, Y)`, `(X+1, Y+1)`, in that order. -/
def winMax (feat : (⟨4, ![2048, 512, 7, 7]⟩ : Shape).Idx → EReal) (b : Fin 2048) (ch : Fin 512) (X Y : ℕ) : EReal :=
  max (max (max (feat (ix4 b ch (⟨min X 5, by omega⟩ : Fin 7) (⟨min Y 5, by omega⟩ : Fin 7)))
                (feat (ix4 b ch (⟨min X 5, by omega⟩ : Fin 7) (⟨min Y 5 + 1, by omega⟩ : Fin 7))))
           (feat (ix4 b ch (⟨min X 5 + 1, by omega⟩ : Fin 7) (⟨min Y 5, by omega⟩ : Fin 7))))
      (feat (ix4 b ch (⟨min X 5 + 1, by omega⟩ : Fin 7) (⟨min Y 5 + 1, by omega⟩ : Fin 7)))

/-- The pooled value of image `b`, landmark `l`, channel `ch`. -/
def pooled (feat : (⟨4, ![2048, 512, 7, 7]⟩ : Shape).Idx → EReal) (x1 y1 : (⟨2, ![2048, 8]⟩ : Shape).Idx → BitVec 32)
    (b : Fin 2048) (l : Fin 8) (ch : Fin 512) : EReal :=
  winMax feat b ch (corner (x1 (ix2 b l))) (corner (y1 (ix2 b l)))

/-- The pooled values as the rows of a 2048×4096 matrix, landmark-major: column `k` is landmark `k / 512`, channel `k % 512`. -/
def pooledRow (feat : (⟨4, ![2048, 512, 7, 7]⟩ : Shape).Idx → EReal) (x1 y1 : (⟨2, ![2048, 8]⟩ : Shape).Idx → BitVec 32)
    (b : Fin 2048) (k : Fin 4096) : EReal :=
  pooled feat x1 y1 b (⟨k.val / 512, by omega⟩ : Fin 8) (⟨k.val % 512, by omega⟩ : Fin 512)

/-- The result: the pooled rows times the transposed weights, plus the bias. -/
def G (feat : (⟨4, ![2048, 512, 7, 7]⟩ : Shape).Idx → EReal) (x1 y1 : (⟨2, ![2048, 8]⟩ : Shape).Idx → BitVec 32)
    (W : (⟨2, ![4096, 4096]⟩ : Shape).Idx → EReal) (bias : (⟨1, ![4096]⟩ : Shape).Idx → EReal) :
    (⟨2, ![2048, 4096]⟩ : Shape).Idx → EReal :=
  fun i => (∑ k : Fin 4096, pooledRow feat x1 y1 (i 0) k * W (ix2 (i 1) k)) + bias (ix1 (i 1))

end Cert.Spec

end
-- ==== Proof.Bridge.lean ====
/-
  The kernel's two stages composed are the specification.

  Stage one leaves, at image `b`, landmark `l`, channel `ch`, the sum over the 49 flattened positions of the indicator of
  the start position `7·x + y` times the maximum of the entries at that position and the three positions 1, 7 and 8
  further on (modulo 49). With the start words at most 5 the start position is at most 40, the indicator picks exactly
  one position, none of the three shifts wraps, and in the 7×7 image the four positions are the window's corners
  `(X, Y)`, `(X, Y+1)`, `(X+1, Y)`, `(X+1, Y+1)`: the pooled value of the specification. Stage two multiplies the
  pooled rows (landmark-major) by the transposed weights and adds the bias, which is the specification's last line.
-/
import proofs.«106583_j34660386078970_2_alg».proof.Proof.CropValue
import proofs.«106583_j34660386078970_2_alg».proof.Proof.Spec

noncomputable section

namespace Cert.KernelIdeal.Hand

open Cert.KernelIdeal
open Idealize.ShloMosaic Idealize.ShloMosaic.ValueIdx

/-- The start position's word, read as a number: `7·X + Y`. -/
theorem start_toNat (x y : BitVec 32) (hx : x.toNat ≤ 5) (hy : y.toNat ≤ 5) : (x * 7#32 + y).toNat = x.toNat * 7 + y.toNat := by
  rw [BitVec.toNat_add, BitVec.toNat_mul]
  show (x.toNat * 7 % 2 ^ 32 + y.toNat) % 2 ^ 32 = _
  omega

/-- The window maximum over the flattened image at start position `7·X + Y` is the 2×2 window maximum at `(X, Y)`. -/
theorem wm_eq_winMax (feat : S2048x512x7x7.Idx → EReal) (f : S2048x512x49.Idx → EReal)
    (hf : ∀ (r : Fin 2048) (ch : Fin 512) (q : Fin 49), f (ix3 r ch q) = feat (ix4 r ch (⟨q.val / 7, by have := q.isLt; omega⟩ : Fin 7) (⟨q.val % 7, Nat.mod_lt _ (by decide)⟩ : Fin 7)))
    (b : Fin 2048) (ch : Fin 512) (X Y : ℕ) (hX : X ≤ 5) (hY : Y ≤ 5) (P : Fin 49) (hP : P.val = X * 7 + Y) :
    wm f b ch P = Cert.Spec.winMax feat b ch X Y := by
  unfold wm Cert.Spec.winMax
  have hmX : min X 5 = X := Nat.min_eq_left hX
  have hmY : min Y 5 = Y := Nat.min_eq_left hY
  have e0 : f (ix3 b ch P) = feat (ix4 b ch (⟨min X 5, by omega⟩ : Fin 7) (⟨min Y 5, by omega⟩ : Fin 7)) := by
    rw [hf]; congr 1; funext a
    match a with
    | ⟨0, _⟩ => rfl
    | ⟨1, _⟩ => rfl
    | ⟨2, _⟩ => exact Fin.ext (by show P.val / 7 = min X 5; omega)
    | ⟨3, _⟩ => exact Fin.ext (by show P.val % 7 = min Y 5; omega)
  have e1 : f (ix3 b ch (⟨(P.val + 1) % 49, Nat.mod_lt _ (by decide)⟩ : Fin 49)) = feat (ix4 b ch (⟨min X 5, by omega⟩ : Fin 7) (⟨min Y 5 + 1, by omega⟩ : Fin 7)) := by
    rw [hf]; congr 1; funext a
    match a with
    | ⟨0, _⟩ => rfl
    | ⟨1, _⟩ => rfl
    | ⟨2, _⟩ => exact Fin.ext (by show (P.val + 1) % 49 / 7 = min X 5; omega)
    | ⟨3, _⟩ => exact Fin.ext (by show (P.val + 1) % 49 % 7 = min Y 5 + 1; omega)
  have e7 : f (ix3 b ch (⟨(P.val + 7) % 49, Nat.mod_lt _ (by decide)⟩ : Fin 49)) = feat (ix4 b ch (⟨min X 5 + 1, by omega⟩ : Fin 7) (⟨min Y 5, by omega⟩ : Fin 7)) := by
    rw [hf]; congr 1; funext a
    match a with
    | ⟨0, _⟩ => rfl
    | ⟨1, _⟩ => rfl
    | ⟨2, _⟩ => exact Fin.ext (by show (P.val + 7) % 49 / 7 = min X 5 + 1; omega)
    | ⟨3, _⟩ => exact Fin.ext (by show (P.val + 7) % 49 % 7 = min Y 5; omega)
  have e8 : f (ix3 b ch (⟨(P.val + 8) % 49, Nat.mod_lt _ (by decide)⟩ : Fin 49)) = feat (ix4 b ch (⟨min X 5 + 1, by omega⟩ : Fin 7) (⟨min Y 5 + 1, by omega⟩ : Fin 7)) := by
    rw [hf]; congr 1; funext a
    match a with
    | ⟨0, _⟩ => rfl
    | ⟨1, _⟩ => rfl
    | ⟨2, _⟩ => exact Fin.ext (by show (P.val + 8) % 49 / 7 = min X 5 + 1; omega)
    | ⟨3, _⟩ => exact Fin.ext (by show (P.val + 8) % 49 % 7 = min Y 5 + 1; omega)
  rw [e0, e1, e7, e8]

/-- Stage one's array is the specification's pooled values, when the start words are at most 5. -/
theorem P0_eq_pooled (feat : S2048x512x7x7.Idx → EReal) (f : S2048x512x49.Idx → EReal)
    (hf : ∀ (r : Fin 2048) (ch : Fin 512) (q : Fin 49), f (ix3 r ch q) = feat (ix4 r ch (⟨q.val / 7, by have := q.isLt; omega⟩ : Fin 7) (⟨q.val % 7, Nat.mod_lt _ (by decide)⟩ : Fin 7)))
    (x y : S2048x8.Idx → BitVec 32) (hx : ∀ i, (x i).toNat ≤ 5) (hy : ∀ i, (y i).toNat ≤ 5)
    (b : Fin 2048) (l : Fin 8) (ch : Fin 512) :
    P0 f x y (ix3 b l ch) = Cert.Spec.pooled feat x y b l ch := by
  have hw := start_toNat (x (ix2 b l)) (y (ix2 b l)) (hx _) (hy _)
  have hlt : (x (ix2 b l) * 7#32 + y (ix2 b l)).toNat < 49 := by have := hx (ix2 b l); have := hy (ix2 b l); omega
  show ∑ p : Fin 49, hot (x (ix2 b l) * 7#32 + y (ix2 b l)) p * wm f b ch p = _
  rw [sum_hot _ hlt (fun p => wm f b ch p)]
  unfold Cert.Spec.pooled Cert.Spec.corner
  rw [wm_eq_winMax feat f hf b ch (x (ix2 b l)).toNat (y (ix2 b l)).toNat (hx _) (hy _) _ hw,
    Nat.min_eq_left (hx _), Nat.min_eq_left (hy _)]

/-- THE KERNEL'S RESULT IS THE SPECIFICATION: the product of the reshaped pooled array with the transposed weights, plus
    the bias. -/
theorem kernel_is_spec (feat : S2048x512x7x7.Idx → EReal) (f : S2048x512x49.Idx → EReal)
    (hf : ∀ (r : Fin 2048) (ch : Fin 512) (q : Fin 49), f (ix3 r ch q) = feat (ix4 r ch (⟨q.val / 7, by have := q.isLt; omega⟩ : Fin 7) (⟨q.val % 7, Nat.mod_lt _ (by decide)⟩ : Fin 7)))
    (x y : S2048x8.Idx → BitVec 32) (hx : ∀ i, (x i).toNat ≤ 5) (hy : ∀ i, (y i).toNat ≤ 5)
    (A : S2048x4096.Idx → EReal)
    (hA : ∀ (r : Fin 2048) (k : Fin 4096), A (ix2 r k) = P0 f x y (ix3 r (⟨k.val / 512, by have := k.isLt; omega⟩ : Fin 8) (⟨k.val % 512, Nat.mod_lt _ (by decide)⟩ : Fin 512)))
    (W : S4096x4096.Idx → EReal) (bias : S4096.Idx → EReal) :
    (fun i : S2048x4096.Idx => (∑ k : Fin 4096, A (ix2 (i 0) k) * W (ix2 (i 1) k)) + bias (ix1 (i 1))) = Cert.Spec.G feat x y W bias := by
  funext i
  obtain ⟨r, j, rfl⟩ : ∃ (r : Fin 2048) (j : Fin 4096), i = ix2 r j := ⟨i 0, i 1, eq_ix2 i⟩
  show (∑ k : Fin 4096, A (ix2 r k) * W (ix2 j k)) + bias (ix1 j)
    = (∑ k : Fin 4096, Cert.Spec.pooledRow feat x y r k * W (ix2 j k)) + bias (ix1 j)
  refine congrArg (· + bias (ix1 j)) (Finset.sum_congr rfl fun k _ => ?_)
  rw [hA, P0_eq_pooled feat f hf x y hx hy]
  rfl

end Cert.KernelIdeal.Hand

end
-- ==== Proof.LibWholeStores.lean ====
/-
  A buffer written by stores of the whole buffer, read back.

  When the last of a list of stores writes the whole buffer (the rectangle of the buffer's own sizes at zero
  offsets), a load of the whole buffer reads that store's payload, whatever the earlier stores were: an accumulator
  that is loaded, added to and stored back whole, several times in a row.
-/
import Idealize.ShloMosaic.Lib.Pipeline.Value

noncomputable section

namespace Idealize.ShloMosaic.View

variable {Val : EltTy → Type} {S : Shape} {e : EltTy}

/-- A load of the whole buffer after stores the last of which stored the whole buffer reads that store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self .., by
    show y ∈ (Rect.whole S).set; rw [Rect.set_whole]; exact Finset.mem_univ y⟩), canon_cons_unit_zero rfl, ld_unit_zero rfl]

end Idealize.ShloMosaic.View

end
-- ==== Proof.Mm.Val.lean ====
/-
  The matrix-product region: what each case leaves, as plain terms over the blocks.

  Every load and store of the body is of a whole buffer: the rectangle of the buffer's own extents at zero offsets. So
  a load reads the buffer's contents, a load after a whole-buffer store reads the values just stored, and what a case
  leaves is the values of its last store: the accumulate step applied to the activation and weight blocks and to the
  zero block (positions ≡ 0 modulo 4) or to the accumulator the point before left (the other positions), and at
  positions ≡ 3 the output step applied to that accumulator and the bias block.
-/
import proofs.«106583_j34660386078970_2_alg».proof.Proof.Mm
import proofs.«106583_j34660386078970_2_alg».proof.Proof.LibWholeStores

-- membership in a rectangle of 1024 x 1024 extents is decided coordinate by coordinate along the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The matrix-product region: what each control case leaves, as plain payload terms

Every load and store of the body is of a whole buffer, so what a case leaves in the accumulator (and, at the last of
the four points, in the output's buffer) is the payload of its last store, with each load reading the whole contents. -/

/-- The whole 1024 x 1024 rectangle and the whole 1024 row, as the body's accesses spell them. -/
abbrev rW : Rect S1024x1024 := Rect.unit (s := S1024x1024) ![0, 0] S1024x1024.size inb_S1024x1024_S1024x1024_0_0
/-- The whole row of 1024, as the body's access to the bias block spells it. -/
abbrev rB : Rect S1024 := Rect.unit (s := S1024) ![0] S1024.size inb_S1024_S1024_0

/-- The 1024 x 1024 accesses start at zero on both axes. -/
theorem hzW : (![0, 0] : Fin 2 → Nat) = fun _ => 0 := funext fun a => by fin_cases a <;> rfl
/-- The bias access starts at zero. -/
theorem hzB : (![0] : Fin 1 → Nat) = fun _ => 0 := funext fun a => by fin_cases a <;> rfl

/-- At the first of the four points the accumulator ends as the block product added to the zero block just stored:
    the accumulate's load reads the zero store back. -/
theorem sout1_A_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1024 .f32) :
    sout1_A c i arg3 harg3 arg4 harg4 arg5 harg5 arg6 harg6 arg7 harg7 hc0 hc1 x0 x1 x2
      = k1_pay2 (View.ld x1 rW) (View.ld (k1_pay1 (F := F)) rW) (View.ld x0 rW) := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S1024x1024) hzW, View.readCov_unit_zero (S := S1024x1024) _ hzW]
  simp only [View.readAt_eq_ld, harg3.read_unread, harg4.read_unread, View.ld_unit_zero (S := S1024x1024) hzW]

/-- At a middle point the accumulator ends as the block product added to what the point before left. -/
theorem sout1_B_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1024 .f32) (xs0 : Vec F S1024x1024 .f32) :
    sout1_B c i arg3 harg3 arg4 harg4 arg5 harg5 arg6 harg6 arg7 harg7 hc0 hc1 x0 x1 x2 xs0
      = k1_pay2 (View.ld x1 rW) (View.ld xs0 rW) (View.ld x0 rW) := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  sl_unfold_words
  rw [View.canon_unit_zero (S := S1024x1024) hzW]
  simp only [View.readAt_eq_ld, harg3.read_unread, harg4.read_unread, harg7.read_unread, View.ld_unit_zero (S := S1024x1024) hzW]

/-- At the last of the four points the accumulator ends the same way, -/
theorem sout1_C_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1024 .f32) (xs0 : Vec F S1024x1024 .f32) :
    sout1_C c i arg3 harg3 arg4 harg4 arg5 harg5 arg6 harg6 arg7 harg7 hc0 hc1 x0 x1 x2 xs0
      = k1_pay2 (View.ld x1 rW) (View.ld xs0 rW) (View.ld x0 rW) := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_unit_zero (S := S1024x1024) hzW]
  simp only [View.readAt_eq_ld, harg3.read_unread, harg4.read_unread, harg7.read_unread, View.ld_unit_zero (S := S1024x1024) hzW]

/-- and the output's buffer ends as that accumulator plus the bias row: the load of the accumulator reads the store
    just made. -/
theorem out1_C_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1024 .f32) (xs0 : Vec F S1024x1024 .f32) :
    out1_C c i arg3 harg3 arg4 harg4 arg5 harg5 arg6 harg6 arg7 harg7 hc0 hc1 x0 x1 x2 xs0
      = k1_pay3 (View.ld (k1_pay2 (View.ld x1 rW) (View.ld xs0 rW) (View.ld x0 rW)) rW) (View.ld x2 rB) := by
  unfold out1_C
  rw [View.read_writes_eq_canon _ _ _ (cover1_C c i arg3 harg3 arg4 harg4 arg5 harg5 arg6 harg6 arg7 harg7 hc0 hc1 x0 x1 x2 xs0)]
  unfold kernelRun1_C
  dsimp only
  sl_unfold_words
  rw [View.canon_unit_zero (S := S1024x1024) hzW, View.readCov_unit_zero (S := S1024x1024) _ hzW]
  simp only [View.readAt_eq_ld, harg3.read_unread, harg4.read_unread, harg5.read_unread, harg7.read_unread, View.ld_unit_zero (S := S1024x1024) hzW, View.ld_unit_zero (S := S1024) hzB]

end Cert.KernelIdeal.Hand

end
-- ==== Proof.MmMath.lean ====
/-
  The matrix-product body's arithmetic at an index, over the extended reals.

  The accumulate step adds to the accumulator the product of the activation block with the transposed weight block:
  at row `r` and column `c` the sum over the 1024 positions `k` of `a[r, k] · w[c, k]`. The zero store is the zero
  block, and the output step adds the bias row to every row of the accumulator. A sum over the 4096 positions of the
  contracted axis is the sum of its four consecutive blocks of 1024.
-/
import proofs.«106583_j34660386078970_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ## The product's operand indices: the output's row with position `k` on the left, its column with `k` on the right -/

theorem lhs1_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem lhs1_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs1_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem rhs1_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The left operand's index: row `r`, position `k`. -/
theorem lhsIdx1 (r c k : Fin 1024) :
    dot_S1024x1024_S1024x1024_S1024x1024_1_1_0_0_n_n.lhsIdx (ix2 r c) ((contrEquiv1 dot_S1024x1024_S1024x1024_S1024x1024_1_1_0_0_n_n 1024 rfl rfl).symm k) = ix2 r k := by
  have hk := contrEquiv1_symm_val dot_S1024x1024_S1024x1024_S1024x1024_1_1_0_0_n_n 1024 rfl rfl k
  funext a; apply Fin.ext
  match a with
  | ⟨0, _⟩ => exact lhs1_0 _ _
  | ⟨1, _⟩ => exact (lhs1_1 _ _).trans hk

/-- The right operand's index: row `c` (the output's column), position `k`. -/
theorem rhsIdx1 (r c k : Fin 1024) :
    dot_S1024x1024_S1024x1024_S1024x1024_1_1_0_0_n_n.rhsIdx (ix2 r c) ((contrEquiv1 dot_S1024x1024_S1024x1024_S1024x1024_1_1_0_0_n_n 1024 rfl rfl).symm k) = ix2 c k := by
  have hk := contrEquiv1_symm_val dot_S1024x1024_S1024x1024_S1024x1024_1_1_0_0_n_n 1024 rfl rfl k
  funext a; apply Fin.ext
  match a with
  | ⟨0, _⟩ => exact rhs1_0 _ _
  | ⟨1, _⟩ => exact (rhs1_1 _ _).trans hk

/-- The product into a zero accumulator, at an index: the sum over the 1024 positions. -/
theorem matmul1_apply (L : FVec Ideal S1024x1024 .bf16) (R : FVec Ideal S1024x1024 .bf16) (r c : Fin 1024) :
    matmul dot_S1024x1024_S1024x1024_S1024x1024_1_1_0_0_n_n none L R (constant S1024x1024 .f32 0x00000000#32) (ix2 r c)
      = ∑ k : Fin 1024, L (ix2 r k) * R (ix2 c k) := by
  refine (Ideal.matmul_constant_zero_apply _ none L R _).trans ?_
  rw [← Equiv.sum_comp (ValueIdx.contrEquiv1 dot_S1024x1024_S1024x1024_S1024x1024_1_1_0_0_n_n 1024 rfl rfl).symm]
  refine Finset.sum_congr rfl fun k _ => ?_
  rw [lhsIdx1, rhsIdx1]

/-! ## The three payloads at an index -/

/-- The zero store: zero everywhere. -/
theorem pay1_apply (r c : Fin 1024) : k1_pay1 (F := Ideal) (ix2 r c) = 0 := by
  unfold k1_pay1
  simp only [shapeCast_self]
  show Ideal.ofBits .f32 0x00000000#32 = 0
  exact Ideal.ofBits_zero_f32

/-- The accumulate step: the accumulator plus the block product (the change of format of the weights is the identity). -/
theorem pay2_apply (x1 xs : Vec Ideal S1024x1024 .f32) (x0 : Vec Ideal S1024x1024 .bf16) (r c : Fin 1024) :
    k1_pay2 (F := Ideal) x1 xs x0 (ix2 r c) = xs (ix2 r c) + ∑ k : Fin 1024, x0 (ix2 r k) * x1 (ix2 c k) := by
  unfold k1_pay2
  simp only [shapeCast_self]
  refine (addf_apply _ _ _).trans ?_
  refine congrArg (xs (ix2 r c) + ·) ?_
  refine (matmul1_apply _ _ r c).trans (Finset.sum_congr rfl fun k _ => ?_)
  rw [truncf_apply]

/-- The output step: the accumulator plus the bias row, the same row at every row. -/
theorem pay3_apply (s : Vec Ideal S1024x1024 .f32) (b : Vec Ideal S1024 .f32) (r c : Fin 1024) :
    k1_pay3 (F := Ideal) s b (ix2 r c) = s (ix2 r c) + b (ix1 c) := by
  unfold k1_pay3
  refine (addf_apply _ _ _).trans ?_
  refine congrArg (s (ix2 r c) + ·) ?_
  refine (broadcastTo_1b_ab_apply _ broadcasts_S1x1024_S1024x1024 r c).trans ?_
  refine shapeCast_apply b shapeCasts_S1024_S1x1024 (ix2 (0 : Fin 1) c) (ix1 c) ?_
  rw [Shape.rowMajor_val_one, Shape.rowMajor_val_two]
  show c.val = 0 * 1024 + c.val
  omega

/-! ## A sum over 4096 positions as its four blocks of 1024 -/

/-- The sum over the contracted axis, block by block in the order the grid visits the blocks, from zero. -/
theorem sum_blocks4 (G : Fin 4096 → EReal) :
    ∑ k : Fin 4096, G k
      = (((0 + ∑ k : Fin 1024, G ⟨0 * 1024 + k.val, by have := k.isLt; omega⟩)
          + ∑ k : Fin 1024, G ⟨1 * 1024 + k.val, by have := k.isLt; omega⟩)
          + ∑ k : Fin 1024, G ⟨2 * 1024 + k.val, by have := k.isLt; omega⟩)
          + ∑ k : Fin 1024, G ⟨3 * 1024 + k.val, by have := k.isLt; omega⟩ := by
  have e : ∑ k : Fin 4096, G k = ∑ p : Fin 4 × Fin 1024, G ((finProdFinEquiv : Fin 4 × Fin 1024 ≃ Fin 4096) p) :=
    (Equiv.sum_comp (finProdFinEquiv : Fin 4 × Fin 1024 ≃ Fin 4096) G).symm
  rw [e, Fintype.sum_prod_type, Fin.sum_univ_four, zero_add]
  refine congrArg₂ (· + ·) (congrArg₂ (· + ·) (congrArg₂ (· + ·) ?_ ?_) ?_) ?_
  all_goals
    refine Finset.sum_congr rfl fun k _ => congrArg G (Fin.ext ?_)
    show k.val + 1024 * _ = _
    simp only [Fin.val_zero, Fin.val_one, Fin.val_two]
    first | omega | (show k.val + 1024 * 3 = 3 * 1024 + k.val; omega)

end Cert.KernelIdeal.Hand

end
-- ==== Proof.MmValue.lean ====
/-
  What the matrix-product region leaves in its output array, as one function of the arrays it reads.

  The grid is 2 x 4 x 4: point `t = 16·I + 4·J + q` handles rows `1024·I + ·` of the activations, rows `1024·J + ·`
  of the weights (the output's columns) and block `q` of the 4096 contracted positions. Over the four points of a group
  the accumulator runs from zero through the four block products, and the last point stores it plus the bias row: block
  `(I, J)` of the product-plus-bias array `M1`. The eight stored blocks tile the output array.
-/
import proofs.«106583_j34660386078970_2_alg».proof.Proof.Mm.Val
import proofs.«106583_j34660386078970_2_alg».proof.Proof.MmMath
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The region's result as the kernel computes it: the activations times the transposed weights, plus the bias row. -/
def M1 (A : S2048x4096.Idx → EReal) (W : S4096x4096.Idx → EReal) (b : S4096.Idx → EReal) : S2048x4096.Idx → EReal := fun i =>
  (∑ k : Fin 4096, A (ix2 (i 0) k) * W (ix2 (i 1) k)) + b (ix1 (i 1))

/-- The block the last point of a group stores, from blocks that are rows `1024·I + ·` of the activations and rows
    `1024·J + ·` of the weights at the four consecutive blocks of the contracted axis, and that part of the bias: the
    product plus bias there. -/
theorem blk1_eq (A : S2048x4096.Idx → EReal) (W : S4096x4096.Idx → EReal) (b : S4096.Idx → EReal)
    (a0 a1 a2 a3 : Vec Ideal S1024x1024 .bf16) (w0 w1 w2 w3 : Vec Ideal S1024x1024 .f32) (b3 : Vec Ideal S1024 .f32)
    (I J : ℕ) (hI : I < 2) (hJ : J < 4)
    (ha0 : ∀ r k : Fin 1024, a0 (ix2 r k) = A (ix2 (⟨I * 1024 + r.val, by have := r.isLt; omega⟩ : Fin 2048) (⟨0 * 1024 + k.val, by have := k.isLt; omega⟩ : Fin 4096)))
    (ha1 : ∀ r k : Fin 1024, a1 (ix2 r k) = A (ix2 (⟨I * 1024 + r.val, by have := r.isLt; omega⟩ : Fin 2048) (⟨1 * 1024 + k.val, by have := k.isLt; omega⟩ : Fin 4096)))
    (ha2 : ∀ r k : Fin 1024, a2 (ix2 r k) = A (ix2 (⟨I * 1024 + r.val, by have := r.isLt; omega⟩ : Fin 2048) (⟨2 * 1024 + k.val, by have := k.isLt; omega⟩ : Fin 4096)))
    (ha3 : ∀ r k : Fin 1024, a3 (ix2 r k) = A (ix2 (⟨I * 1024 + r.val, by have := r.isLt; omega⟩ : Fin 2048) (⟨3 * 1024 + k.val, by have := k.isLt; omega⟩ : Fin 4096)))
    (hw0 : ∀ cc k : Fin 1024, w0 (ix2 cc k) = W (ix2 (⟨J * 1024 + cc.val, by have := cc.isLt; omega⟩ : Fin 4096) (⟨0 * 1024 + k.val, by have := k.isLt; omega⟩ : Fin 4096)))
    (hw1 : ∀ cc k : Fin 1024, w1 (ix2 cc k) = W (ix2 (⟨J * 1024 + cc.val, by have := cc.isLt; omega⟩ : Fin 4096) (⟨1 * 1024 + k.val, by have := k.isLt; omega⟩ : Fin 4096)))
    (hw2 : ∀ cc k : Fin 1024, w2 (ix2 cc k) = W (ix2 (⟨J * 1024 + cc.val, by have := cc.isLt; omega⟩ : Fin 4096) (⟨2 * 1024 + k.val, by have := k.isLt; omega⟩ : Fin 4096)))
    (hw3 : ∀ cc k : Fin 1024, w3 (ix2 cc k) = W (ix2 (⟨J * 1024 + cc.val, by have := cc.isLt; omega⟩ : Fin 4096) (⟨3 * 1024 + k.val, by have := k.isLt; omega⟩ : Fin 4096)))
    (hb : ∀ cc : Fin 1024, b3 (ix1 cc) = b (ix1 (⟨J * 1024 + cc.val, by have := cc.isLt; omega⟩ : Fin 4096)))
    (r cc : Fin 1024) :
    k1_pay3 (F := Ideal) (View.ld (k1_pay2 (View.ld w3 rW) (View.ld (k1_pay2 (View.ld w2 rW) (View.ld (k1_pay2 (View.ld w1 rW) (View.ld (k1_pay2 (View.ld w0 rW) (View.ld (k1_pay1 (F := Ideal)) rW) (View.ld a0 rW)) rW) (View.ld a1 rW)) rW) (View.ld a2 rW)) rW) (View.ld a3 rW)) rW) (View.ld b3 rB) (ix2 r cc)
      = M1 A W b (ix2 (⟨I * 1024 + r.val, by have := r.isLt; omega⟩ : Fin 2048) (⟨J * 1024 + cc.val, by have := cc.isLt; omega⟩ : Fin 4096)) := by
  simp only [View.ld_unit_zero (S := S1024x1024) hzW, View.ld_unit_zero (S := S1024) hzB]
  rw [pay3_apply, pay2_apply, pay2_apply, pay2_apply, pay2_apply, pay1_apply]
  unfold M1
  rw [sum_blocks4]
  simp only [ha0, ha1, ha2, ha3, hw0, hw1, hw2, hw3, hb]

variable (V : (c : Dev nD) → (b : Ref sig .tc) → Buf (Elt Ideal) ((c : Thread nD τ).loc b))

/-- The printed index maps over the grid, in closed form: the activations' block is (I, q), the weights' (J, q), the
    bias's (J), the output's (I, J), for the point `16·I + 4·J + q`. -/
theorem idx_facts1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 1) = t.val / 4 % 4
    ∧ win1_3.index t (0 : Fin 2) = t.val / 16 ∧ win1_3.index t (1 : Fin 2) = t.val / 4 % 4 :=
  (by decide +kernel : ∀ t : Fin grid1.N, _)

/-- The activations' block at a point, read where it lies in the array. -/
theorem blkA (c : Dev nD) (s : Fin cfg1.N) (I q : ℕ) (hI : s.val / 16 = I) (hq : s.val % 4 = q) (r k : Fin 1024) :
    (iblk1 V c 0 s : Vec Ideal S1024x1024 .bf16) (ix2 r k)
      = V c main_v38 (ix2 (⟨I * 1024 + r.val, by have := r.isLt; have := s.isLt; have : cfg1.N = 32 := N_1; omega⟩ : Fin 2048)
          (⟨q * 1024 + k.val, by have := k.isLt; omega⟩ : Fin 4096)) := by
  obtain ⟨e00, e01, e10, e11, e20, e30, e31⟩ := idx_facts1 s
  show V c main_v38 (((cfg1.win 0).blk s).view.emb (ix2 r k)) = V c main_v38 _
  refine congrArg _ (funext fun a => Fin.ext ?_)
  match a with
  | ⟨0, _⟩ => show win1_0.index s (0 : Fin 2) * 1024 + 1 * r.val = I * 1024 + r.val; omega
  | ⟨1, _⟩ => show win1_0.index s (1 : Fin 2) * 1024 + 1 * k.val = q * 1024 + k.val; omega

/-- The weights' block at a point. -/
theorem blkW (c : Dev nD) (s : Fin cfg1.N) (J q : ℕ) (hJ : s.val / 4 % 4 = J) (hq : s.val % 4 = q) (cc k : Fin 1024) :
    (iblk1 V c 1 s : Vec Ideal S1024x1024 .f32) (ix2 cc k)
      = V c main_arg2 (ix2 (⟨J * 1024 + cc.val, by have := cc.isLt; omega⟩ : Fin 4096)
          (⟨q * 1024 + k.val, by have := k.isLt; omega⟩ : Fin 4096)) := by
  obtain ⟨e00, e01, e10, e11, e20, e30, e31⟩ := idx_facts1 s
  show V c main_arg2 (((cfg1.win 1).blk s).view.emb (ix2 cc k)) = V c main_arg2 _
  refine congrArg _ (funext fun a => Fin.ext ?_)
  match a with
  | ⟨0, _⟩ => show win1_1.index s (0 : Fin 2) * 1024 + 1 * cc.val = J * 1024 + cc.val; omega
  | ⟨1, _⟩ => show win1_1.index s (1 : Fin 2) * 1024 + 1 * k.val = q * 1024 + k.val; omega

/-- The bias's block at a point. -/
theorem blkB (c : Dev nD) (s : Fin cfg1.N) (J : ℕ) (hJ : s.val / 4 % 4 = J) (cc : Fin 1024) :
    (iblk1 V c 2 s : Vec Ideal S1024 .f32) (ix1 cc)
      = V c main_arg3 (ix1 (⟨J * 1024 + cc.val, by have := cc.isLt; omega⟩ : Fin 4096)) := by
  obtain ⟨e00, e01, e10, e11, e20, e30, e31⟩ := idx_facts1 s
  show V c main_arg3 (((cfg1.win 2).blk s).view.emb (ix1 cc)) = V c main_arg3 _
  refine congrArg _ (funext fun a => Fin.ext ?_)
  match a with
  | ⟨0, _⟩ => show win1_2.index s (0 : Fin 1) * 1024 + 1 * cc.val = J * 1024 + cc.val; omega

/-! ## The accumulator and the output's buffer, point by point -/

/-- Where the accumulator is zeroed it ends as the block product added to the zero block. -/
theorem acc_zero (c : Dev nD) (t : Fin cfg1.N) (h0 : t.val % 4 = 0) :
    (outsAt1 V c t.val t.isLt).2
      = k1_pay2 (View.ld (iblk1 V c 1 t : Vec Ideal S1024x1024 .f32) rW) (View.ld (k1_pay1 (F := Ideal)) rW) (View.ld (iblk1 V c 0 t : Vec Ideal S1024x1024 .bf16) rW) := by
  rw [outsAt1_A V c t h0 (by omega)]
  dsimp only
  exact sout1_A_eq c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t)

/-- Elsewhere it ends as the block product added to what the point before left. -/
theorem acc_pos (c : Dev nD) (t : Fin cfg1.N) (h0 : ¬t.val % 4 = 0) :
    (outsAt1 V c t.val t.isLt).2
      = k1_pay2 (View.ld (iblk1 V c 1 t : Vec Ideal S1024x1024 .f32) rW) (View.ld (outsAt1 V c (t.val - 1) (Nat.lt_of_le_of_lt (Nat.sub_le _ _) t.isLt)).2 rW) (View.ld (iblk1 V c 0 t : Vec Ideal S1024x1024 .bf16) rW) := by
  by_cases h1 : t.val % 4 = 3
  · rw [outsAt1_C V c t h0 h1]
    dsimp only
    exact sout1_C_eq c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) (outsAt1 V c (t.val - 1) (Nat.lt_of_le_of_lt (Nat.sub_le _ _) t.isLt)).2
  · rw [outsAt1_B V c t h0 h1]
    dsimp only
    exact sout1_B_eq c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) (outsAt1 V c (t.val - 1) (Nat.lt_of_le_of_lt (Nat.sub_le _ _) t.isLt)).2

/-- At the last point of a group the output's buffer ends as that accumulator plus the bias row. -/
theorem out_flush (c : Dev nD) (t : Fin cfg1.N) (h1 : t.val % 4 = 3) :
    (outsAt1 V c t.val t.isLt).1
      = k1_pay3 (View.ld (k1_pay2 (View.ld (iblk1 V c 1 t : Vec Ideal S1024x1024 .f32) rW) (View.ld (outsAt1 V c (t.val - 1) (Nat.lt_of_le_of_lt (Nat.sub_le _ _) t.isLt)).2 rW) (View.ld (iblk1 V c 0 t : Vec Ideal S1024x1024 .bf16) rW)) rW) (View.ld (iblk1 V c 2 t : Vec Ideal S1024 .f32) rB) := by
  rw [outsAt1_C V c t (by omega) h1]
  dsimp only
  exact out1_C_eq c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) (outsAt1 V c (t.val - 1) (Nat.lt_of_le_of_lt (Nat.sub_le _ _) t.isLt)).2

/-! ## What a writing point writes back -/

/-- WHAT THE LAST POINT OF A GROUP WRITES BACK is its block of the product-plus-bias array of the arrays the region reads. -/
theorem flushed1_eq (c : Dev nD) (t : Fin cfg1.N) (hf : (cfg1.win 3).flush t = true) :
    (dat1 V c).flushed 3 t = ((cfg1.win 3).blk t).view.read (Elt Ideal) (M1 (V c main_v38) (V c main_arg2) (V c main_arg3)) := by
  have h3 : t.val % 4 = 3 := (flush1_3 t).mp hf
  have hN : cfg1.N = 32 := N_1
  have ht : t.val < 32 := lt_of_lt_of_eq t.isLt hN
  show (cfg1.win 3).cut (grid1.coords t) ((dat1 V c).after 3 t) = _
  rw [after1_3]
  have e3 := out_flush V c t h3
  have e2 := acc_pos V c ⟨t.val - 1, by omega⟩ (by show ¬(t.val - 1) % 4 = 0; omega)
  have e1 := acc_pos V c ⟨t.val - 1 - 1, by omega⟩ (by show ¬(t.val - 1 - 1) % 4 = 0; omega)
  have e0 := acc_zero V c ⟨t.val - 1 - 1 - 1, by omega⟩ (by show (t.val - 1 - 1 - 1) % 4 = 0; omega)
  dsimp only at e2 e1 e0
  rw [e3, e2, e1, e0]
  obtain ⟨e00, e01, e10, e11, e20, e30, e31⟩ := idx_facts1 t
  funext j
  obtain ⟨r, cc, rfl⟩ : ∃ (r cc : Fin 1024), j = ix2 r cc := ⟨j 0, j 1, eq_ix2 j⟩
  refine (blk1_eq (V c main_v38) (V c main_arg2) (V c main_arg3)
    (iblk1 V c 0 ⟨t.val - 1 - 1 - 1, by omega⟩) (iblk1 V c 0 ⟨t.val - 1 - 1, by omega⟩) (iblk1 V c 0 ⟨t.val - 1, by omega⟩) (iblk1 V c 0 t)
    (iblk1 V c 1 ⟨t.val - 1 - 1 - 1, by omega⟩) (iblk1 V c 1 ⟨t.val - 1 - 1, by omega⟩) (iblk1 V c 1 ⟨t.val - 1, by omega⟩) (iblk1 V c 1 t)
    (iblk1 V c 2 t) (t.val / 16) (t.val / 4 % 4) (by omega) (by omega)
    (blkA V c ⟨t.val - 1 - 1 - 1, by omega⟩ (t.val / 16) 0 (by show (t.val - 1 - 1 - 1) / 16 = t.val / 16; omega) (by show (t.val - 1 - 1 - 1) % 4 = 0; omega))
    (blkA V c ⟨t.val - 1 - 1, by omega⟩ (t.val / 16) 1 (by show (t.val - 1 - 1) / 16 = t.val / 16; omega) (by show (t.val - 1 - 1) % 4 = 1; omega))
    (blkA V c ⟨t.val - 1, by omega⟩ (t.val / 16) 2 (by show (t.val - 1) / 16 = t.val / 16; omega) (by show (t.val - 1) % 4 = 2; omega))
    (blkA V c t (t.val / 16) 3 (by show t.val / 16 = t.val / 16; omega) (by show t.val % 4 = 3; omega))
    (blkW V c ⟨t.val - 1 - 1 - 1, by omega⟩ (t.val / 4 % 4) 0 (by show (t.val - 1 - 1 - 1) / 4 % 4 = t.val / 4 % 4; omega) (by show (t.val - 1 - 1 - 1) % 4 = 0; omega))
    (blkW V c ⟨t.val - 1 - 1, by omega⟩ (t.val / 4 % 4) 1 (by show (t.val - 1 - 1) / 4 % 4 = t.val / 4 % 4; omega) (by show (t.val - 1 - 1) % 4 = 1; omega))
    (blkW V c ⟨t.val - 1, by omega⟩ (t.val / 4 % 4) 2 (by show (t.val - 1) / 4 % 4 = t.val / 4 % 4; omega) (by show (t.val - 1) % 4 = 2; omega))
    (blkW V c t (t.val / 4 % 4) 3 (by show t.val / 4 % 4 = t.val / 4 % 4; omega) (by show t.val % 4 = 3; omega))
    (blkB V c t (t.val / 4 % 4) rfl) r cc).trans ?_
  show M1 _ _ _ _ = M1 (V c main_v38) (V c main_arg2) (V c main_arg3) (((cfg1.win 3).blk t).view.emb (ix2 r cc))
  refine congrArg _ (funext fun a => Fin.ext ?_)
  match a with
  | ⟨0, _⟩ => show t.val / 16 * 1024 + r.val = win1_3.index t (0 : Fin 2) * 1024 + 1 * r.val; omega
  | ⟨1, _⟩ => show t.val / 4 % 4 * 1024 + cc.val = win1_3.index t (1 : Fin 2) * 1024 + 1 * cc.val; omega

/-- An index of the output array is in point `t`'s block iff each coordinate is in the block's range on its axis. -/
theorem mem_blk1 (t : Fin cfg1.N) (i : S2048x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v39).slice (win1_3.rect t)).set ↔ _
  rw [View.set_slice_whole, Rect.mem_set_unit]
  exact Iff.rfl

/-- Every index of the output array is in the block written back at the last point of its group. -/
theorem cover1 (i : S2048x4096.Idx) : ∃ t : Fin cfg1.N, (cfg1.win 3).flush t = true ∧ i ∈ ((cfg1.win 3).blk t).view.set := by
  have h0 : (i 0).val < 2048 := (i 0).isLt
  have h1 : (i 1).val < 4096 := (i 1).isLt
  have hN : cfg1.N = 32 := N_1
  refine ⟨⟨16 * ((i 0).val / 1024) + 4 * ((i 1).val / 1024) + 3, by rw [hN]; omega⟩, (flush1_3 _).mpr (by show (16 * ((i 0).val / 1024) + 4 * ((i 1).val / 1024) + 3) % 4 = 3; omega), ?_⟩
  rw [mem_blk1]
  obtain ⟨e00, e01, e10, e11, e20, e30, e31⟩ := idx_facts1 ⟨16 * ((i 0).val / 1024) + 4 * ((i 1).val / 1024) + 3, by rw [hN]; omega⟩
  intro a
  match a with
  | ⟨0, _⟩ =>
    show win1_3.index _ (0 : Fin 2) * 1024 ≤ (i 0).val ∧ (i 0).val < win1_3.index _ (0 : Fin 2) * 1024 + 1024
    rw [e30]
    show (16 * ((i 0).val / 1024) + 4 * ((i 1).val / 1024) + 3) / 16 * 1024 ≤ (i 0).val ∧ (i 0).val < (16 * ((i 0).val / 1024) + 4 * ((i 1).val / 1024) + 3) / 16 * 1024 + 1024
    omega
  | ⟨1, _⟩ =>
    show win1_3.index _ (1 : Fin 2) * 1024 ≤ (i 1).val ∧ (i 1).val < win1_3.index _ (1 : Fin 2) * 1024 + 1024
    rw [e31]
    show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
    omega

/-- THE OUTPUT ARRAY after the region: the activations times the transposed weights plus the bias row, of the arrays
    the region reads. -/
theorem final1 (c : Dev nD) : (dat1 V c).arrAt 3 cfg1.N = M1 (V c main_v38) (V c main_arg2) (V c main_arg3) :=
  (dat1 V c).arrAt_eq_of_cover 3 (M1 (V c main_v38) (V c main_arg2) (V c main_arg3)) (fun t hf => flushed1_eq V c t hf) cover1

end Cert.KernelIdeal.Hand

end
-- ==== Proof.KernelValue.lean ====
/-
  The kernel program's result as the specification of its arguments.

  Region 1 leaves the product of the array it reads with the transposed weights, plus the bias; that array is region 0's
  pooled array reshaped to rows of 4096; region 0's pooled array is computed from the features reshaped to 49 positions
  per channel and from the two start-word arrays. With the start words at most 5, the composition is the specification.
-/
import proofs.«106583_j34660386078970_2_alg».proof.Proof.HostRead
import proofs.«106583_j34660386078970_2_alg».proof.Proof.Bridge
import proofs.«106583_j34660386078970_2_alg».proof.Proof.MmValue

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The reshaped features at image `r`, channel `ch`, position `q`: the feature at row `q / 7`, column `q % 7`. -/
theorem v36_apply (c : Dev nD) (r : Fin 2048) (ch : Fin 512) (q : Fin 49) :
    (Vin0 m c main_v36 : S2048x512x49.Idx → EReal) (ix3 r ch q)
      = (m ((c : Thread nD τ).loc main_arg0) : S2048x512x7x7.Idx → EReal) (ix4 r ch (⟨q.val / 7, by have := q.isLt; omega⟩ : Fin 7) (⟨q.val % 7, Nat.mod_lt _ (by decide)⟩ : Fin 7)) := by
  rw [v36_eq]
  refine shapeCast_apply _ shapeCasts_S2048x512x7x7_S2048x512x49 (ix3 r ch q) (ix4 r ch (⟨q.val / 7, by have := q.isLt; omega⟩ : Fin 7) (⟨q.val % 7, Nat.mod_lt _ (by decide)⟩ : Fin 7)) ?_
  rw [Shape.rowMajor_val_four, Shape.rowMajor_val_three]
  show ((r.val * 512 + ch.val) * 7 + q.val / 7) * 7 + q.val % 7 = (r.val * 512 + ch.val) * 49 + q.val
  omega

/-- The array region 1 reads, at row `r`, column `k`: region 0's pooled array at landmark `k / 512`, channel `k % 512`. -/
theorem v38_apply (c : Dev nD) (r : Fin 2048) (k : Fin 4096) :
    (Vin1 m c main_v38 : S2048x4096.Idx → EReal) (ix2 r k)
      = P0 (Vin0 m c main_v36) (Vin0 m c main_v34) (Vin0 m c main_v35) (ix3 r (⟨k.val / 512, by have := k.isLt; omega⟩ : Fin 8) (⟨k.val % 512, Nat.mod_lt _ (by decide)⟩ : Fin 512)) := by
  rw [v38_eq]
  refine (shapeCast_apply (o6 m c) shapeCasts_S2048x8x512_S2048x4096 (ix2 r k) (ix3 r (⟨k.val / 512, by have := k.isLt; omega⟩ : Fin 8) (⟨k.val % 512, Nat.mod_lt _ (by decide)⟩ : Fin 512)) ?_).trans ?_
  · show (S2048x8x512.rowMajor (ix3 r (⟨k.val / 512, by have := k.isLt; omega⟩ : Fin 8) (⟨k.val % 512, Nat.mod_lt _ (by decide)⟩ : Fin 512))).val = (S2048x4096.rowMajor (ix2 r k)).val
    rw [Shape.rowMajor_val_three, Shape.rowMajor_val_two]
    show (r.val * 8 + k.val / 512) * 512 + k.val % 512 = r.val * 4096 + k.val
    omega
  · unfold o6
    rw [final0]

/-- THE KERNEL PROGRAM'S RESULT, when its start words are `x`, `y`, each at most 5: the specification. -/
theorem kernel_value (c : Dev nD) (x y : S2048x8.Idx → BitVec 32)
    (ex : (Vin0 m c main_v34 : S2048x8.Idx → BitVec 32) = x) (ey : (Vin0 m c main_v35 : S2048x8.Idx → BitVec 32) = y)
    (hx : ∀ i, (x i).toNat ≤ 5) (hy : ∀ i, (y i).toNat ≤ 5) :
    (o8 m c : S2048x4096.Idx → EReal)
      = Cert.Spec.G (m ((c : Thread nD τ).loc main_arg0)) x y (m ((c : Thread nD τ).loc main_arg2)) (m ((c : Thread nD τ).loc main_arg3)) := by
  unfold o8
  rw [final1, v_arg2_eq, v_arg3_eq]
  refine (kernel_is_spec (m ((c : Thread nD τ).loc main_arg0)) (Vin0 m c main_v36) (v36_apply m c) x y hx hy
    (Vin1 m c main_v38) (fun r k => ?_) (m ((c : Thread nD τ).loc main_arg2)) (m ((c : Thread nD τ).loc main_arg3)))
  rw [v38_apply, ex, ey]

end Cert.KernelIdeal.Hand

end
-- ==== Proof.StartWords.lean ====
/-
  The start words are the same in both programs.

  The kernel program and the reference compute the two start-word arrays from the landmarks by the same host
  operations, in the same order: the kernel program's buffers at region 0's entry hold exactly the reference's stages.
-/
import proofs.«106583_j34660386078970_2_alg».proof.Proof.HostRead
import proofs.«106583_j34660386078970_2_alg».proof.Proof.RefReadP

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ)

set_option maxHeartbeats 4000000 in
/-- The first start-word array region 0 reads is the reference's. -/
theorem x1_kernel (c : Dev nD) :
    (Vin0 m c main_v34 : S2048x8.Idx → BitVec 32) = Cert.ReferenceIdeal.ReadP.val_main_v34 (F := Ideal) (m ((c : Thread nD τ).loc main_arg1)) := by
  have e : Vin0 m c main_v34 = V2 m c main_v34 :=
    (V5_of m c main_v34 (by decide)).trans ((V4_of m c main_v34 (by decide)).trans (V3_of m c main_v34 (by decide)))
  rw [e]
  show StableHlo.after hostOps0_1 (StableHlo.after hostOps0 (V0 m c)) (Proc.devRef .tc main_v34) = _
  after_results_simp
  rfl

set_option maxHeartbeats 4000000 in
/-- The second start-word array region 0 reads is the reference's. -/
theorem y1_kernel (c : Dev nD) :
    (Vin0 m c main_v35 : S2048x8.Idx → BitVec 32) = Cert.ReferenceIdeal.ReadP.val_main_v35 (F := Ideal) (m ((c : Thread nD τ).loc main_arg1)) := by
  have e : Vin0 m c main_v35 = V4 m c main_v35 := V5_of m c main_v35 (by decide)
  rw [e]
  show StableHlo.after hostOps0_3 (StableHlo.after hostOps0_2 (StableHlo.after hostOps0_1 (StableHlo.after hostOps0 (V0 m c)))) (Proc.devRef .tc main_v35) = _
  after_results_simp
  rfl

end Cert.KernelIdeal.Hand

end
-- ==== Proof.LibGatherWindow.lean ====
/-
  Three host operations read at an index, for a crop of 2×2 windows out of the images of a batch.

  A gather that cuts, per image and per start index (·, x, y), the window [all channels] × [x, x+2) × [y, y+2) reads,
  at (b, l, c, p, q), the image b at channel c, row min(x, H−2) + p and column min(y, W−2) + q: every start
  component is read as a signed integer and clamped so that the window fits. A reduce with a maximum body over the two
  window axes, from the bottom element, is the maximum of the window's four entries. And the array of start indices,
  three [B, L, 1] arrays joined along the last axis, reads its k-th piece at coordinate k of that axis.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibGatherWindow

open Idealize.ShloMosaic Idealize.ShloMosaic.ValueIdx

/-! ## A maximum-reduce over two trailing axes of extent two -/

section Reduce
variable {α : Type} [LinearOrder α] [OrderBot α]

/-- From the bottom element, a reduce with a maximum body over the two trailing axes (each of extent two) of a rank-5
    array is, at (b, l, c), the maximum of the four entries (b, l, c, 0, 0), (b, l, c, 0, 1), (b, l, c, 1, 0),
    (b, l, c, 1, 1): the fold runs over exactly the indices whose first three coordinates are (b, l, c), and a maximum
    over a finite set does not depend on the order. -/
theorem reduce_max_window {B L C : Nat} {u : Shape}
    (x : (⟨5, ![B, L, C, 2, 2]⟩ : Shape).Idx → α) (init : u.Idx → α)
    (h : (⟨5, ![B, L, C, 2, 2]⟩ : Shape).ReducesTo [3, 4] (⟨3, ![B, L, C]⟩ : Shape)) (hu : 0 < u.numel)
    (hinit : init (Shape.Idx.first hu) = ⊥) (b : Fin B) (l : Fin L) (c : Fin C) :
    Host.reduce max x init h hu (ix3 b l c)
      = max (max (max (x (ix5 b l c (0 : Fin 2) (0 : Fin 2))) (x (ix5 b l c (0 : Fin 2) (1 : Fin 2))))
                 (x (ix5 b l c (1 : Fin 2) (0 : Fin 2))))
            (x (ix5 b l c (1 : Fin 2) (1 : Fin 2))) := by
  rw [Host.reduce_eq_fold, hinit]
  have hd : ∀ (p q : Fin 2), h.drop (ix5 b l c p q) = ix3 b l c := by
    intro p q
    funext a; apply Fin.ext
    match a with
    | ⟨0, _⟩ => exact h.drop_apply_val_of_eq _ 0 0 (by show (0 : ℕ) < 3; omega) rfl
    | ⟨1, _⟩ => exact h.drop_apply_val_of_eq _ 1 1 (by show (1 : ℕ) < 3; omega) rfl
    | ⟨2, _⟩ => exact h.drop_apply_val_of_eq _ 2 2 (by show (2 : ℕ) < 3; omega) rfl
  have hmem : ∀ (p q : Fin 2), ix5 b l c p q ∈ Finset.univ.filter (fun i => h.drop i = ix3 b l c) :=
    fun p q => Finset.mem_filter.2 ⟨Finset.mem_univ _, hd p q⟩
  apply le_antisymm
  · rw [Finset.fold_max_le]
    refine ⟨bot_le, fun i hi => ?_⟩
    have hi' : h.drop i = ix3 b l c := (Finset.mem_filter.1 hi).2
    have e0 : i 0 = b := Fin.ext ((h.drop_apply_val_of_eq i 0 0 (by show (0 : ℕ) < 3; omega) rfl).symm.trans (congrArg (fun k : (⟨3, ![B, L, C]⟩ : Shape).Idx => (k 0).val) hi'))
    have e1 : i 1 = l := Fin.ext ((h.drop_apply_val_of_eq i 1 1 (by show (1 : ℕ) < 3; omega) rfl).symm.trans (congrArg (fun k : (⟨3, ![B, L, C]⟩ : Shape).Idx => (k 1).val) hi'))
    have e2 : i 2 = c := Fin.ext ((h.drop_apply_val_of_eq i 2 2 (by show (2 : ℕ) < 3; omega) rfl).symm.trans (congrArg (fun k : (⟨3, ![B, L, C]⟩ : Shape).Idx => (k 2).val) hi'))
    have ei : i = ix5 b l c (i 3) (i 4) := by rw [← e0, ← e1, ← e2]; exact eq_ix5 i
    rw [ei]
    generalize (i 3 : Fin 2) = p
    generalize (i 4 : Fin 2) = q
    fin_cases p <;> fin_cases q
    · exact le_trans (le_trans (le_max_left _ _) (le_max_left _ _)) (le_max_left _ _)
    · exact le_trans (le_trans (le_max_right _ _) (le_max_left _ _)) (le_max_left _ _)
    · exact le_trans (le_max_right _ _) (le_max_left _ _)
    · exact le_max_right _ _
  · refine max_le (max_le (max_le ?_ ?_) ?_) ?_ <;>
      exact (Finset.le_fold_max _).2 (Or.inr ⟨_, hmem _ _, le_rfl⟩)

end Reduce

/-! ## Three unit-extent pieces joined along the last axis of a rank-3 array -/

section Concat
variable {α : Type}

/-- Three arrays of shape [B, L, 1] joined along the last axis into [B, L, 3]: at (b, l, k) the result reads the k-th
    piece at (b, l, 0), for k = 0, 1, 2. -/
theorem concatenate_three_units_apply {B L : Nat} (x0 x1 x2 : (⟨3, ![B, L, 1]⟩ : Shape).Idx → α)
    (h : Shape.Concatenates [(⟨3, ![B, L, 1]⟩ : Shape), (⟨3, ![B, L, 1]⟩ : Shape), (⟨3, ![B, L, 1]⟩ : Shape)]
      (⟨3, ![B, L, 3]⟩ : Shape) 2) (b : Fin B) (l : Fin L) :
    concatenate (⟨3, ![B, L, 3]⟩ : Shape) 2 [⟨(⟨3, ![B, L, 1]⟩ : Shape), x0⟩, ⟨(⟨3, ![B, L, 1]⟩ : Shape), x1⟩, ⟨(⟨3, ![B, L, 1]⟩ : Shape), x2⟩] h (ix3 b l (0 : Fin 3))
        = x0 (ix3 b l (0 : Fin 1))
    ∧ concatenate (⟨3, ![B, L, 3]⟩ : Shape) 2 [⟨(⟨3, ![B, L, 1]⟩ : Shape), x0⟩, ⟨(⟨3, ![B, L, 1]⟩ : Shape), x1⟩, ⟨(⟨3, ![B, L, 1]⟩ : Shape), x2⟩] h (ix3 b l (1 : Fin 3))
        = x1 (ix3 b l (0 : Fin 1))
    ∧ concatenate (⟨3, ![B, L, 3]⟩ : Shape) 2 [⟨(⟨3, ![B, L, 1]⟩ : Shape), x0⟩, ⟨(⟨3, ![B, L, 1]⟩ : Shape), x1⟩, ⟨(⟨3, ![B, L, 1]⟩ : Shape), x2⟩] h (ix3 b l (2 : Fin 3))
        = x2 (ix3 b l (0 : Fin 1)) := by
  refine ⟨?_, ?_, ?_⟩
  · refine concatenate_apply_piece (t := (⟨3, ![B, L, 3]⟩ : Shape)) 2 [⟨(⟨3, ![B, L, 1]⟩ : Shape), x0⟩, ⟨(⟨3, ![B, L, 1]⟩ : Shape), x1⟩, ⟨(⟨3, ![B, L, 1]⟩ : Shape), x2⟩] h _ 0 (by simp) _ x0 rfl rfl 0 rfl (ix3 b l (0 : Fin 1)) ?_ rfl
    intro a ha
    match a with
    | ⟨0, _⟩ => rfl
    | ⟨1, _⟩ => rfl
    | ⟨2, _⟩ => exact absurd rfl ha
  · refine concatenate_apply_piece (t := (⟨3, ![B, L, 3]⟩ : Shape)) 2 [⟨(⟨3, ![B, L, 1]⟩ : Shape), x0⟩, ⟨(⟨3, ![B, L, 1]⟩ : Shape), x1⟩, ⟨(⟨3, ![B, L, 1]⟩ : Shape), x2⟩] h _ 1 (by simp) _ x1 rfl rfl 1 rfl (ix3 b l (0 : Fin 1)) ?_ rfl
    intro a ha
    match a with
    | ⟨0, _⟩ => rfl
    | ⟨1, _⟩ => rfl
    | ⟨2, _⟩ => exact absurd rfl ha
  · refine concatenate_apply_piece (t := (⟨3, ![B, L, 3]⟩ : Shape)) 2 [⟨(⟨3, ![B, L, 1]⟩ : Shape), x0⟩, ⟨(⟨3, ![B, L, 1]⟩ : Shape), x1⟩, ⟨(⟨3, ![B, L, 1]⟩ : Shape), x2⟩] h _ 2 (by simp) _ x2 rfl rfl 2 rfl (ix3 b l (0 : Fin 1)) ?_ rfl
    intro a ha
    match a with
    | ⟨0, _⟩ => rfl
    | ⟨1, _⟩ => rfl
    | ⟨2, _⟩ => exact absurd rfl ha

end Concat

/-! ## The window gather -/

section Gather
variable {α : Type}

/-- The dimension numbers of a gather that cuts, for each image b and each of L start indices (·, x, y), the window
    [all C channels] × [x, x+2) × [y, y+2) out of image b of a [B, C, H, W] array: the image axis is a batching axis
    shared with the start indices, the other three axes are mapped by the three components of the start index, the
    slice sizes are (1, C, 2, 2), and the result is [B, L, C, 2, 2]. -/
abbrev windowDims (B C H W L : Nat)
    (wf : GatherDims.WF (⟨4, ![B, C, H, W]⟩ : Shape) (⟨3, ![B, L, 3]⟩ : Shape) (⟨5, ![B, L, C, 2, 2]⟩ : Shape)
      [2, 3, 4] [] [0] [1, 2, 3] [0] 2 ![1, C, 2, 2]) :
    GatherDims (⟨4, ![B, C, H, W]⟩ : Shape) (⟨3, ![B, L, 3]⟩ : Shape) (⟨5, ![B, L, C, 2, 2]⟩ : Shape) where
  offsetDims := [2, 3, 4]
  collapsedSliceDims := []
  operandBatchingDims := [0]
  startIndicesBatchingDims := [0]
  startIndexMap := [1, 2, 3]
  indexVectorDim := 2
  sliceSizes := ![1, C, 2, 2]
  wf := wf

/-- The start-indices index at which result index (b, l, ·, ·, ·) reads component k of its start index: (b, l, k). -/
theorem windowDims_siIdx {B C H W L : Nat} (wf) (b : Fin B) (l : Fin L) (c : Fin C) (p q : Fin 2) (k : Fin 3) :
    (windowDims B C H W L wf).siIdx (ix5 b l c p q) ⟨k.val, k.isLt⟩ = ix3 b l k := by
  funext a; refine Fin.ext ?_
  match a with
  | ⟨0, _⟩ => rfl
  | ⟨1, _⟩ => rfl
  | ⟨2, _⟩ => rfl

/-- THE WINDOW GATHER READ AT (b, l, c, p, q): image b, channel c, row min(x, H−2) + p, column min(y, W−2) + q, where
    x and y are components 1 and 2 of the start index at (b, l), read as signed integers (a negative one counts as 0),
    each clamped so that the 2×2 window fits. Component 0, the channel start, is clamped into [0, C − C] = {0}. -/
theorem gather_window_apply {B C H W L w : Nat} (hH : 2 ≤ H) (hW : 2 ≤ W)
    (wf : GatherDims.WF (⟨4, ![B, C, H, W]⟩ : Shape) (⟨3, ![B, L, 3]⟩ : Shape) (⟨5, ![B, L, C, 2, 2]⟩ : Shape)
      [2, 3, 4] [] [0] [1, 2, 3] [0] 2 ![1, C, 2, 2])
    (x : (⟨4, ![B, C, H, W]⟩ : Shape).Idx → α) (idx : IVec (⟨3, ![B, L, 3]⟩ : Shape) w)
    (b : Fin B) (l : Fin L) (c : Fin C) (p q : Fin 2) :
    Host.gather (windowDims B C H W L wf) x idx (ix5 b l c p q)
      = x (ix4 b c
            (⟨min (idx (ix3 b l (1 : Fin 3))).toInt.toNat (H - 2) + p.val, by have := p.isLt; omega⟩ : Fin H)
            (⟨min (idx (ix3 b l (2 : Fin 3))).toInt.toNat (W - 2) + q.val, by have := q.isLt; omega⟩ : Fin W)) := by
  unfold Host.gather
  congr 1
  funext a
  refine Fin.ext ?_
  have m1 : (1 : Fin 4) ∈ (windowDims B C H W L wf).startIndexMap := List.mem_cons_self
  have m2 : (2 : Fin 4) ∈ (windowDims B C H W L wf).startIndexMap := List.mem_cons_of_mem _ List.mem_cons_self
  have m3 : (3 : Fin 4) ∈ (windowDims B C H W L wf).startIndexMap :=
    List.mem_cons_of_mem _ (List.mem_cons_of_mem _ List.mem_cons_self)
  have nb : ∀ a : Fin 4, a.val ≠ 0 → a ∉ (windowDims B C H W L wf).operandBatchingDims := by
    intro a ha hm
    exact ha (congrArg Fin.val (List.mem_singleton.mp hm))
  match a with
  | ⟨0, _⟩ =>
    show (windowDims B C H W L wf).start (ix5 b l c p q) idx 0 + (windowDims B C H W L wf).batchCoord (ix5 b l c p q) 0
      + (windowDims B C H W L wf).offCoord (ix5 b l c p q) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show (windowDims B C H W L wf).start (ix5 b l c p q) idx 1 + (windowDims B C H W L wf).batchCoord (ix5 b l c p q) 1
      + (windowDims B C H W L wf).offCoord (ix5 b l c p q) 1 = c.val
    rw [GatherDims.batchCoord_eq_zero _ _ _ (nb 1 (by decide))]
    unfold GatherDims.start
    rw [dif_pos m1]
    have hs : (⟨4, ![B, C, H, W]⟩ : Shape).size 1 - (windowDims B C H W L wf).sliceSizes 1 = 0 := by
      show C - C = 0; omega
    rw [hs, Nat.min_zero]
    simp only [Nat.zero_add, Nat.add_zero]
    unfold GatherDims.offCoord
    rw [dif_pos ((GatherDims.mem_sKept _ _).mpr ⟨List.not_mem_nil, nb 1 (by decide)⟩)]
    rfl
  | ⟨2, _⟩ =>
    show (windowDims B C H W L wf).start (ix5 b l c p q) idx 2 + (windowDims B C H W L wf).batchCoord (ix5 b l c p q) 2
      + (windowDims B C H W L wf).offCoord (ix5 b l c p q) 2 = min (idx (ix3 b l (1 : Fin 3))).toInt.toNat (H - 2) + p.val
    rw [GatherDims.batchCoord_eq_zero _ _ _ (nb 2 (by decide))]
    unfold GatherDims.start
    rw [dif_pos m2]
    have hsi := windowDims_siIdx (C := C) (H := H) (W := W) wf b l c p q (1 : Fin 3)
    have e : (windowDims B C H W L wf).siIdx (ix5 b l c p q)
        ⟨List.idxOf (2 : Fin 4) (windowDims B C H W L wf).startIndexMap, List.idxOf_lt_length_iff.2 m2⟩ = ix3 b l (1 : Fin 3) := hsi
    rw [e]
    simp only [Nat.add_zero]
    unfold GatherDims.offCoord
    rw [dif_pos ((GatherDims.mem_sKept _ _).mpr ⟨List.not_mem_nil, nb 2 (by decide)⟩)]
    rfl
  | ⟨3, _⟩ =>
    show (windowDims B C H W L wf).start (ix5 b l c p q) idx 3 + (windowDims B C H W L wf).batchCoord (ix5 b l c p q) 3
      + (windowDims B C H W L wf).offCoord (ix5 b l c p q) 3 = min (idx (ix3 b l (2 : Fin 3))).toInt.toNat (W - 2) + q.val
    rw [GatherDims.batchCoord_eq_zero _ _ _ (nb 3 (by decide))]
    unfold GatherDims.start
    rw [dif_pos m3]
    have hsi := windowDims_siIdx (C := C) (H := H) (W := W) wf b l c p q (2 : Fin 3)
    have e : (windowDims B C H W L wf).siIdx (ix5 b l c p q)
        ⟨List.idxOf (3 : Fin 4) (windowDims B C H W L wf).startIndexMap, List.idxOf_lt_length_iff.2 m3⟩ = ix3 b l (2 : Fin 3) := hsi
    rw [e]
    simp only [Nat.add_zero]
    unfold GatherDims.offCoord
    rw [dif_pos ((GatherDims.mem_sKept _ _).mpr ⟨List.not_mem_nil, nb 3 (by decide)⟩)]
    rfl

end Gather

end Cert.LibGatherWindow

end
-- ==== Proof.RefValue.lean ====
/-
  The reference's value, index by index over the extended reals.

  The reference computes, for every landmark, two start words x1 and y1, each either 0 or a signed clamp into [0, 5],
  so each has unsigned value at most 5; the index normalisation that adds 7 to a negative index leaves such a word
  unchanged. The array of start indices at (b, l) is (0, x1, y1); the gather cuts the 2×2 window with that corner
  out of every channel of image b, its clamps being the identity on such words; the maximum-reduce over the two
  window axes, from −∞, is the maximum of the window's four entries; and the reshape, the transposed weights, the
  contraction over k and the broadcast bias give  out[b, j] = (∑ k, pooled[b, k / 512, k % 512] · W[j, k]) + bias[j].
-/
import proofs.«106583_j34660386078970_2_alg».proof.Proof.RefReadP
import proofs.«106583_j34660386078970_2_alg».proof.Proof.Spec
import proofs.«106583_j34660386078970_2_alg».proof.Proof.LibGatherWindow

noncomputable section

namespace Cert.ReferenceIdeal.RefValue

open Cert.ReferenceIdeal Cert.ReferenceIdeal.Gen Idealize.ShloMosaic Idealize.ShloMosaic.ValueIdx
open scoped BigOperators

/-! ## Words: the signed clamp into [0, 5] -/

theorem toInt_five : (5#32 : BitVec 32).toInt = 5 := by decide
theorem toInt_zero32 : (0#32 : BitVec 32).toInt = 0 := by decide

/-- A 32-bit word whose signed value lies in [0, 5] has unsigned value at most 5. -/
theorem toNat_le_of_toInt (w : BitVec 32) (h0 : 0 ≤ w.toInt) (h5 : w.toInt ≤ 5) : w.toNat ≤ 5 := by
  have hlt : w.toNat < 2 ^ 32 := w.isLt
  rw [BitVec.toInt_eq_toNat_cond] at h0 h5
  split at h0 <;> omega

/-- A 32-bit word with unsigned value at most 5 is non-negative as a signed number, with the same value. -/
theorem toInt_of_toNat_le (w : BitVec 32) (h : w.toNat ≤ 5) : w.toInt = (w.toNat : Int) :=
  BitVec.toInt_eq_toNat_of_lt (by omega)

/-- The signed clamp of a word into [0, 5] has unsigned value at most 5. -/
theorem clamp_toNat_le (w : BitVec 32) : (IntOp.minsi (IntOp.maxsi w 0#32) 5#32).toNat ≤ 5 := by
  have hm0 : 0 ≤ (IntOp.maxsi w 0#32).toInt := by
    unfold IntOp.maxsi
    by_cases h : (0#32 : BitVec 32).slt w = true
    · rw [if_pos h]; rw [BitVec.slt_iff_toInt_lt, toInt_zero32] at h; omega
    · rw [if_neg h, toInt_zero32]
  generalize IntOp.maxsi w 0#32 = m at hm0
  unfold IntOp.minsi
  by_cases h : m.slt 5#32 = true
  · rw [if_pos h]; rw [BitVec.slt_iff_toInt_lt, toInt_five] at h
    exact toNat_le_of_toInt m hm0 (by omega)
  · rw [if_neg h]; decide

/-- Selecting between the word 0 and a word of unsigned value at most 5 gives such a word. -/
theorem select_zero_toNat_le (c : BitVec 1) (v : BitVec 32) (h : v.toNat ≤ 5) :
    (Scalar.select c 0#32 v).toNat ≤ 5 := by
  unfold Scalar.select
  split
  · decide
  · exact h

/-- The index normalisation (add the axis length 7 to a negative index) leaves a word of unsigned value at most 5
    unchanged: such a word is not negative. -/
theorem normalise_eq (x : BitVec 32) (h : x.toNat ≤ 5) :
    Scalar.select (IntOp.cmpi .slt x 0#32) (IntOp.addi x 7#32) x = x := by
  have hn : x.slt 0#32 = false := by
    rw [Bool.eq_false_iff]; intro hs
    rw [BitVec.slt_iff_toInt_lt, toInt_zero32, toInt_of_toNat_le x h] at hs; omega
  unfold IntOp.cmpi Scalar.select
  simp only [hn, BitVec.ofBool_false]
  rw [if_neg (by decide)]

/-- For such a word the gather's clamped start (the word read signed, capped at 7 − 2) is the specification's corner
    (the word read unsigned, capped at 5), capped at 5 again. -/
theorem start_eq_corner (w : BitVec 32) (h : w.toNat ≤ 5) : min w.toInt.toNat (7 - 2) = min (Cert.Spec.corner w) 5 := by
  unfold Cert.Spec.corner
  rw [toInt_of_toNat_le w h, Int.toNat_natCast]
  omega

/-! ## The two start words -/

/-- The row start word of every landmark has unsigned value at most 5. -/
theorem x1_range (lm : (⟨S2048x16, .i32⟩ : BufTy).Contents (Elt Ideal)) (i : S2048x8.Idx) :
    (ReadP.val_main_v34 (F := Ideal) lm i).toNat ≤ 5 := by
  rw [ReadP.val_main_v34_apply, ReadP.val_main_call0_v1_apply, ReadP.val_main_call0_v0_apply, ReadP.val_main_c_10_apply,
    ReadP.val_main_v26_apply, ReadP.val_main_v14_apply, ReadP.val_main_v13_apply, ReadP.val_main_c_1_apply,
    ReadP.val_main_v25_apply, ReadP.val_main_c_6_apply]
  exact select_zero_toNat_le _ _ (clamp_toNat_le _)

/-- The column start word of every landmark has unsigned value at most 5. -/
theorem y1_range (lm : (⟨S2048x16, .i32⟩ : BufTy).Contents (Elt Ideal)) (i : S2048x8.Idx) :
    (ReadP.val_main_v35 (F := Ideal) lm i).toNat ≤ 5 := by
  rw [ReadP.val_main_v35_apply, ReadP.val_main_call1_v1_apply, ReadP.val_main_call1_v0_apply, ReadP.val_main_c_11_apply,
    ReadP.val_main_v28_apply, ReadP.val_main_v24_apply, ReadP.val_main_v23_apply, ReadP.val_main_c_5_apply,
    ReadP.val_main_v27_apply, ReadP.val_main_c_7_apply]
  exact select_zero_toNat_le _ _ (clamp_toNat_le _)

/-- The normalised row start word is the row start word. -/
theorem v40_eq (lm : (⟨S2048x16, .i32⟩ : BufTy).Contents (Elt Ideal)) (i : S2048x8.Idx) :
    ReadP.val_main_v40 (F := Ideal) lm i = ReadP.val_main_v34 (F := Ideal) lm i := by
  rw [ReadP.val_main_v40_apply, ReadP.val_main_v37_apply, ReadP.val_main_v39_apply, ReadP.val_main_v36_apply,
    ReadP.val_main_c_12_apply, ReadP.val_main_v38_apply, ReadP.val_main_c_13_apply]
  exact normalise_eq _ (x1_range lm i)

/-- The normalised column start word is the column start word. -/
theorem v45_eq (lm : (⟨S2048x16, .i32⟩ : BufTy).Contents (Elt Ideal)) (i : S2048x8.Idx) :
    ReadP.val_main_v45 (F := Ideal) lm i = ReadP.val_main_v35 (F := Ideal) lm i := by
  rw [ReadP.val_main_v45_apply, ReadP.val_main_v42_apply, ReadP.val_main_v44_apply, ReadP.val_main_v41_apply,
    ReadP.val_main_c_14_apply, ReadP.val_main_v43_apply, ReadP.val_main_c_15_apply]
  exact normalise_eq _ (y1_range lm i)

/-! ## The start indices, the window, and its maximum -/

/-- Component 1 of the start index at (b, l) is the row start word of landmark (b, l). -/
theorem v50_one (lm : (⟨S2048x16, .i32⟩ : BufTy).Contents (Elt Ideal)) (b : Fin 2048) (l : Fin 8) :
    ReadP.val_main_v50 (F := Ideal) lm (ix3 b l (1 : Fin 3)) = ReadP.val_main_v34 (F := Ideal) lm (ix2 b l) := by
  unfold ReadP.val_main_v50
  refine ((LibGatherWindow.concatenate_three_units_apply (ReadP.val_main_v49 (F := Ideal)) (ReadP.val_main_v47 (F := Ideal) lm)
    (ReadP.val_main_v48 (F := Ideal) lm) concatenates_S2048x8x1_S2048x8x1_S2048x8x1_S2048x8x3_d2 b l).2.1).trans ?_
  rw [ReadP.val_main_v47_apply]
  have e : ReadP.idx_main_v47 (ix3 b l (0 : Fin 1)) = ix2 b l := by
    funext a; match a with | ⟨0, _⟩ => rfl | ⟨1, _⟩ => rfl
  rw [e, v40_eq]

/-- Component 2 of the start index at (b, l) is the column start word of landmark (b, l). -/
theorem v50_two (lm : (⟨S2048x16, .i32⟩ : BufTy).Contents (Elt Ideal)) (b : Fin 2048) (l : Fin 8) :
    ReadP.val_main_v50 (F := Ideal) lm (ix3 b l (2 : Fin 3)) = ReadP.val_main_v35 (F := Ideal) lm (ix2 b l) := by
  unfold ReadP.val_main_v50
  refine ((LibGatherWindow.concatenate_three_units_apply (ReadP.val_main_v49 (F := Ideal)) (ReadP.val_main_v47 (F := Ideal) lm)
    (ReadP.val_main_v48 (F := Ideal) lm) concatenates_S2048x8x1_S2048x8x1_S2048x8x1_S2048x8x3_d2 b l).2.2).trans ?_
  rw [ReadP.val_main_v48_apply]
  have e : ReadP.idx_main_v48 (ix3 b l (0 : Fin 1)) = ix2 b l := by
    funext a; match a with | ⟨0, _⟩ => rfl | ⟨1, _⟩ => rfl
  rw [e, v45_eq]

/-- The gathered window of landmark (b, l), channel c, at (p, q): the features of image b, channel c, at the
    specification's corner plus (p, q). The gather's clamps are the identity on the two start words. -/
theorem v51_apply (feat : (⟨S2048x512x7x7, .f32⟩ : BufTy).Contents (Elt Ideal)) (lm : (⟨S2048x16, .i32⟩ : BufTy).Contents (Elt Ideal))
    (b : Fin 2048) (l : Fin 8) (c : Fin 512) (p q : Fin 2) :
    ReadP.val_main_v51 (F := Ideal) feat lm (ix5 b l c p q)
      = feat (ix4 b c
          (⟨min (Cert.Spec.corner (ReadP.val_main_v34 (F := Ideal) lm (ix2 b l))) 5 + p.val, by have := p.isLt; omega⟩ : Fin 7)
          (⟨min (Cert.Spec.corner (ReadP.val_main_v35 (F := Ideal) lm (ix2 b l))) 5 + q.val, by have := q.isLt; omega⟩ : Fin 7)) := by
  unfold ReadP.val_main_v51
  refine (LibGatherWindow.gather_window_apply (B := 2048) (C := 512) (H := 7) (W := 7) (L := 8) (by omega) (by omega)
    gather_S2048x512x7x7_S2048x8x3_S2048x8x512x2x2_234_n_0_0_123_2_151222_wf feat (ReadP.val_main_v50 (F := Ideal) lm) b l c p q).trans ?_
  congr 1
  funext a
  match a with
  | ⟨0, _⟩ => rfl
  | ⟨1, _⟩ => rfl
  | ⟨2, _⟩ =>
    refine Fin.ext ?_
    show min (ReadP.val_main_v50 (F := Ideal) lm (ix3 b l (1 : Fin 3))).toInt.toNat (7 - 2) + p.val
      = min (Cert.Spec.corner (ReadP.val_main_v34 (F := Ideal) lm (ix2 b l))) 5 + p.val
    rw [v50_one, start_eq_corner _ (x1_range lm _)]
  | ⟨3, _⟩ =>
    refine Fin.ext ?_
    show min (ReadP.val_main_v50 (F := Ideal) lm (ix3 b l (2 : Fin 3))).toInt.toNat (7 - 2) + q.val
      = min (Cert.Spec.corner (ReadP.val_main_v35 (F := Ideal) lm (ix2 b l))) 5 + q.val
    rw [v50_two, start_eq_corner _ (y1_range lm _)]

/-- The maximum over the window of landmark (b, l), channel c, is the specification's pooled value. -/
theorem v52_apply (feat : (⟨S2048x512x7x7, .f32⟩ : BufTy).Contents (Elt Ideal)) (lm : (⟨S2048x16, .i32⟩ : BufTy).Contents (Elt Ideal))
    (b : Fin 2048) (l : Fin 8) (c : Fin 512) :
    ReadP.val_main_v52 (F := Ideal) feat lm (ix3 b l c)
      = Cert.Spec.pooled feat (ReadP.val_main_v34 (F := Ideal) lm) (ReadP.val_main_v35 (F := Ideal) lm) b l c := by
  unfold ReadP.val_main_v52
  have hinit : ReadP.val_main_cst_17 (F := Ideal) (Shape.Idx.first h_S_) = (⊥ : EReal) := by
    show Ideal.ofBits .f32 0xFF800000#32 = ⊥
    simp [Ideal.ofBits, Ideal.ieee]
  refine (LibGatherWindow.reduce_max_window (α := EReal) (ReadP.val_main_v51 (F := Ideal) feat lm)
    (ReadP.val_main_cst_17 (F := Ideal)) reducesTo_S2048x8x512x2x2_S2048x8x512_d3_4 h_S_ hinit b l c).trans ?_
  rw [v51_apply, v51_apply, v51_apply, v51_apply]
  rfl

/-! ## The result -/

/-- THE REFERENCE'S VALUE: the specification's function of the features, the two start words, the weights and the bias. -/
theorem ref_eq (feat : (⟨S2048x512x7x7, .f32⟩ : BufTy).Contents (Elt Ideal)) (lm : (⟨S2048x16, .i32⟩ : BufTy).Contents (Elt Ideal))
    (W : (⟨S4096x4096, .f32⟩ : BufTy).Contents (Elt Ideal)) (bias : (⟨S4096, .f32⟩ : BufTy).Contents (Elt Ideal)) :
    ReadP.val_main_v58 (F := Ideal) feat lm W bias
      = Cert.Spec.G feat (ReadP.val_main_v34 (F := Ideal) lm) (ReadP.val_main_v35 (F := Ideal) lm) W bias := by
  funext i
  have h0 : (i 0).val < 2048 := (i 0).isLt
  -- the reshape's source index of column k of row (i 0): landmark k / 512, channel k % 512
  have e53 : ∀ k : Fin 4096, ReadP.idx_main_v53 (ReadP.lidx_main_v55 i k)
      = ix3 (n0 := 2048) (n1 := 8) (n2 := 512) (i 0) ⟨k.val / 512, by omega⟩ ⟨k.val % 512, by omega⟩ := by
    intro k
    have hk : k.val < 4096 := k.isLt
    funext a
    match a with
    | ⟨0, _⟩ => exact Fin.ext (by show ((i 0).val * 4096 + k.val) / 4096 = (i 0).val; omega)
    | ⟨1, _⟩ => exact Fin.ext (by show ((i 0).val * 4096 + k.val) / 512 % 8 = k.val / 512; omega)
    | ⟨2, _⟩ => exact Fin.ext (by show ((i 0).val * 4096 + k.val) % 512 = k.val % 512; omega)
  -- the transposed weights at (k, j) are the weights at (j, k)
  have e54 : ∀ k : Fin 4096, ReadP.idx_main_v54 (ReadP.ridx_main_v55 i k) = ix2 (i 1 : Fin 4096) k := by
    intro k
    funext a
    match a with
    | ⟨0, _⟩ => rfl
    | ⟨1, _⟩ => rfl
  -- the bias broadcast over the rows reads the bias at the column
  have e57 : ReadP.idx_main_v56 (ReadP.idx_main_v57 i) = ix1 (i 1 : Fin 4096) := by
    funext a
    match a with
    | ⟨0, _⟩ => rfl
  have hterm : ∀ k : Fin 4096,
      ReadP.val_main_v53 (F := Ideal) feat lm (ReadP.lidx_main_v55 i k) * ReadP.val_main_v54 (F := Ideal) W (ReadP.ridx_main_v55 i k)
        = Cert.Spec.pooledRow feat (ReadP.val_main_v34 (F := Ideal) lm) (ReadP.val_main_v35 (F := Ideal) lm) (i 0) k
            * W (ix2 (i 1 : Fin 4096) k) := by
    intro k
    rw [ReadP.val_main_v54_apply, ReadP.val_main_v53_apply, e53 k, e54 k]
    exact congrArg (fun t : EReal => t * W (ix2 (i 1 : Fin 4096) k))
      (v52_apply feat lm (i 0) ⟨k.val / 512, by omega⟩ ⟨k.val % 512, by omega⟩)
  rw [ReadP.val_main_v58_apply, ReadP.val_main_v55_apply, ReadP.val_main_v57_apply, ReadP.val_main_v56_apply, e57,
    Finset.sum_congr rfl (fun k _ => hterm k)]
  rfl

end Cert.ReferenceIdeal.RefValue

end
-- ==== Proof.lean ====
/-
  The certificate of the crop-and-pool + linear-head kernel against its jnp reference.

  Both programs compute, from the landmarks, two arrays of start words by the same host operations; the reference
  gathers the 2×2 window of every channel at each landmark's start corner and takes its maximum, the kernel computes the
  maximum of the four shifted copies of the flattened image everywhere and picks the start position with an indicator
  product; both then multiply the pooled rows by the transposed weights and add the bias — the kernel in four blocks of
  the contraction axis accumulated in a scratch buffer. Over the extended reals both results are the one function
  `Cert.Spec.G` of the arguments (the start words are at most 5, so the indicator picks one position, no shift wraps,
  and the reference's gather is not clamped; sums are regrouped by associativity and commutativity only, so no
  finiteness of the inputs is used).

  The frames: each kernel program is the run of its host stretches and its two regions (`run_main`), the reference its
  host operations' run; the arguments end as launched. The idealization rewrote nothing, so `preserves` is trivial.
-/
import proofs.«106583_j34660386078970_2_alg».proof.Defs
import proofs.«106583_j34660386078970_2_alg».proof.Proof.Gen.Kernel
import proofs.«106583_j34660386078970_2_alg».proof.Proof.Gen.KernelIdeal
import proofs.«106583_j34660386078970_2_alg».proof.Proof.Gen.ReferenceIdeal
import proofs.«106583_j34660386078970_2_alg».proof.Proof.Gen.Pre_finite_inputs
import proofs.«106583_j34660386078970_2_alg».proof.Proof.KRun
import proofs.«106583_j34660386078970_2_alg».proof.Proof.KernelValue
import proofs.«106583_j34660386078970_2_alg».proof.Proof.StartWords
import proofs.«106583_j34660386078970_2_alg».proof.Proof.RefValue
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts := fun m ρ _ =>
  (θ_run Cert.Kernel.defs _ _).mono (fun _ h c => (h c).2) (Cert.Kernel.Hand.run_main (F := Bits) m ρ)

theorem frame_ki : @Cert.frame_KernelIdeal Cert.KernelIdeal.Gen.facts Cert.Pre_finite_inputs.Gen.facts := fun m ρ _ =>
  (θ_run Cert.KernelIdeal.defs _ _).mono (fun _ h c => (h c).2) (Cert.KernelIdeal.Hand.run_main (F := Ideal) m ρ)

theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.ValueP.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.G (m ((c.tc : Thread Cert.KernelIdeal.nD Cert.KernelIdeal.τ).loc Cert.KernelIdeal.main_arg0))
      (Cert.ReferenceIdeal.ReadP.val_main_v34 (F := Ideal) (m ((c.tc : Thread Cert.KernelIdeal.nD Cert.KernelIdeal.τ).loc Cert.KernelIdeal.main_arg1)))
      (Cert.ReferenceIdeal.ReadP.val_main_v35 (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.KernelIdeal.Hand.run_main (F := Ideal) m ρ)
    exact Cert.KernelIdeal.Hand.kernel_value m c _ _ (Cert.KernelIdeal.Hand.x1_kernel m c) (Cert.KernelIdeal.Hand.y1_kernel m c)
      (Cert.ReferenceIdeal.RefValue.x1_range _) (Cert.ReferenceIdeal.RefValue.y1_range _)
  · refine (θ_run Cert.ReferenceIdeal.defs _ _).mono (fun _ h c => ⟨(h c).1.trans ?_, (h c).2⟩) (Cert.ReferenceIdeal.ValueP.run (F := Ideal) m' ρ')
    rw [Cert.ReferenceIdeal.ReadP.val_main_v58_eq, Cert.ReferenceIdeal.RefValue.ref_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
